-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S500000x4 : Shape := ⟨2, ![500000, 4]⟩
abbrev S128x320 : Shape := ⟨2, ![128, 320]⟩
abbrev S128 : Shape := ⟨1, ![128]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S128x320 : S_.BroadcastsInDim S128x320 (![] : Fin 0 → Fin S128x320.rank)
  reducesTo_S128x320_S_d0_1 : S128x320.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S500000x64 .f32) (main_arg1 : IVec S500000x4 32) (main_arg2 : FVec F S128x320 .f32) (main_arg3 : FVec F S128 .f32) (main_arg4 : FVec F S128 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S128x320 .f32 := Host.absf main_arg2
  let main_cst_0 : FVec F S_ .f32 := constant S_ .f32 0x7F800000#32
  let main_v5 : FVec F S128x320 .f32 := broadcastInDim S128x320 ![] bcast_S_S128x320 main_cst_0
  let main_v6 : IVec S128x320 1 := cmpf .olt main_v4 main_v5
  let main_c_1 : IVec S_ 1 := constantI S_ 1 1#1
  let main_v7 : IVec S_ 1 := (fun x v => Host.reduce IntOp.andi x v reducesTo_S128x320_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S500000x64 : Shape := ⟨2, ![500000, 64]⟩
abbrev S500000x4 : Shape := ⟨2, ![500000, 4]⟩
abbrev S128x320 : Shape := ⟨2, ![128, 320]⟩
abbrev S128 : Shape := ⟨1, ![128]⟩
abbrev S_ : Shape := ⟨0, ![]⟩
abbrev S500000x4x1 : Shape := ⟨3, ![500000, 4, 1]⟩
abbrev S500000x4x64 : Shape := ⟨3, ![500000, 4, 64]⟩
abbrev S500000x256 : Shape := ⟨2, ![500000, 256]⟩
abbrev S128x64 : Shape := ⟨2, ![128, 64]⟩
abbrev S64x128 : Shape := ⟨2, ![64, 128]⟩
abbrev S1x64x128 : Shape := ⟨3, ![1, 64, 128]⟩
abbrev S5x64x128 : Shape := ⟨3, ![5, 64, 128]⟩
abbrev S500000x128 : Shape := ⟨2, ![500000, 128]⟩
abbrev S100x8x128 : Shape := ⟨3, ![100, 8, 128]⟩
abbrev S5000x64 : Shape := ⟨2, ![5000, 64]⟩
abbrev S5000x256 : Shape := ⟨2, ![5000, 256]⟩
abbrev S5000x128 : Shape := ⟨2, ![5000, 128]⟩
abbrev S1x8x128 : Shape := ⟨3, ![1, 8, 128]⟩
abbrev S1x128 : Shape := ⟨2, ![1, 128]⟩
abbrev S1x1x128 : Shape := ⟨3, ![1, 1, 128]⟩
abbrev S100x1x128 : Shape := ⟨3, ![100, 1, 128]⟩
abbrev S100x128 : Shape := ⟨2, ![100, 128]⟩
abbrev S10000x128 : Shape := ⟨2, ![10000, 128]⟩

abbrev nBuf : Space → Nat
  | .hbm => 68
  | .vmem => 17
  | .smem => 0
  | _ => 0

abbrev bufTy : (tb : Table) → Fin (tcTables nBuf tb) → BufTy
  | .hbm, ⟨0, _⟩ => ⟨S500000x64, .f32⟩
  | .hbm, ⟨1, _⟩ => ⟨S500000x4, .i32⟩
  | .hbm, ⟨2, _⟩ => ⟨S128x320, .f32⟩
  | .hbm, ⟨3, _⟩ => ⟨S128, .f32⟩
  | .hbm, ⟨4, _⟩ => ⟨S128, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S500000x4, .i32⟩
  | .hbm, ⟨9, _⟩ => ⟨S500000x4, .i32⟩
  | .hbm, ⟨10, _⟩ => ⟨S_, .i32⟩
  | .hbm, ⟨11, _⟩ => ⟨S500000x4, .i32⟩
  | .hbm, ⟨12, _⟩ => ⟨S500000x4, .i32⟩
  | .hbm, ⟨13, _⟩ => ⟨S_, .i32⟩
  | .hbm, ⟨14, _⟩ => ⟨S500000x4, .i32⟩
  | .hbm, ⟨15, _⟩ => ⟨S500000x4, .i1⟩
  | .hbm, ⟨16, _⟩ => ⟨S_, .i32⟩
  | .hbm, ⟨17, _⟩ => ⟨S500000x4, .i32⟩
  | .hbm, ⟨18, _⟩ => ⟨S500000x4, .i32⟩
  | .hbm, ⟨19, _⟩ => ⟨S500000x4, .i32⟩
  | .hbm, ⟨20, _⟩ => ⟨S500000x4x1, .i32⟩
  | .hbm, ⟨21, _⟩ => ⟨S500000x4x64, .f32⟩
  | .hbm, ⟨22, _⟩ => ⟨S500000x256, .f32⟩
  | .hbm, ⟨23, _⟩ => ⟨S128x64, .f32⟩
  | .hbm, ⟨24, _⟩ => ⟨S64x128, .f32⟩
  | .hbm, ⟨25, _⟩ => ⟨S128x64, .f32⟩
  | .hbm, ⟨26, _⟩ => ⟨S64x128, .f32⟩
  | .hbm, ⟨27, _⟩ => ⟨S128x64, .f32⟩
  | .hbm, ⟨28, _⟩ => ⟨S64x128, .f32⟩
  | .hbm, ⟨29, _⟩ => ⟨S128x64, .f32⟩
  | .hbm, ⟨30, _⟩ => ⟨S64x128, .f32⟩
  | .hbm, ⟨31, _⟩ => ⟨S128x64, .f32⟩
  | .hbm, ⟨32, _⟩ => ⟨S64x128, .f32⟩
  | .hbm, ⟨33, _⟩ => ⟨S1x64x128, .f32⟩
  | .hbm, ⟨34, _⟩ => ⟨S1x64x128, .f32⟩
  | .hbm, ⟨35, _⟩ => ⟨S1x64x128, .f32⟩
  | .hbm, ⟨36, _⟩ => ⟨S1x64x128, .f32⟩
  | .hbm, ⟨37, _⟩ => ⟨S1x64x128, .f32⟩
  | .hbm, ⟨38, _⟩ => ⟨S5x64x128, .f32⟩
  | .hbm, ⟨39, _⟩ => ⟨S500000x128, .f32⟩
  | .hbm, ⟨40, _⟩ => ⟨S100x8x128, .f32⟩
  | .hbm, ⟨41, _⟩ => ⟨S100x8x128, .f32⟩
  | .hbm, ⟨42, _⟩ => ⟨S100x1x128, .f32⟩
  | .hbm, ⟨43, _⟩ => ⟨S100x128, .f32⟩
  | .hbm, ⟨44, _⟩ => ⟨S_, .f32⟩
  | .hbm, ⟨45, _⟩ => ⟨S128, .f32⟩
  | .hbm, ⟨46, _⟩ => ⟨S100x1x128, .f32⟩
  | .hbm, ⟨47, _⟩ => ⟨S100x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S1x128, .f32⟩
  | .hbm, ⟨67, _⟩ => ⟨S500000x128, .f32⟩
  | .local _ .vmem, ⟨0, _⟩ => ⟨S5000x64, .f32⟩
  | .local _ .vmem, ⟨1, _⟩ => ⟨S5000x64, .f32⟩
  | .local _ .vmem, ⟨2, _⟩ => ⟨S5000x256, .f32⟩
  | .local _ .vmem, ⟨3, _⟩ => ⟨S5000x256, .f32⟩
  | .local _ .vmem, ⟨4, _⟩ => ⟨S5x64x128, .f32⟩
  | .local _ .vmem, ⟨5, _⟩ => ⟨S5000x128, .f32⟩
  | .local _ .vmem, ⟨6, _⟩ => ⟨S5000x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_c_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S5x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S500000x4 : S_.BroadcastsInDim S500000x4 (![] : Fin 0 → Fin S500000x4.rank)
  bcast_S500000x4_S500000x4x1_0_1 : S500000x4.BroadcastsInDim S500000x4x1 (![0, 1] : Fin 2 → Fin S500000x4x1.rank)
  shapeCasts_S500000x4x64_S500000x256 : S500000x4x64.ShapeCasts S500000x256
  slices_S128x320_S128x64_0_0 : S128x320.Slices ![0, 0] S128x64
  transposes_S128x64_S64x128_1_0 : S128x64.Transposes [1, 0] S64x128
  slices_S128x320_S128x64_0_64 : S128x320.Slices ![0, 64] S128x64
  slices_S128x320_S128x64_0_128 : S128x320.Slices ![0, 128] S128x64
  slices_S128x320_S128x64_0_192 : S128x320.Slices ![0, 192] S128x64
  slices_S128x320_S128x64_0_256 : S128x320.Slices ![0, 256] S128x64
  bcast_S64x128_S1x64x128_1_2 : S64x128.BroadcastsInDim S1x64x128 (![1, 2] : Fin 2 → Fin S1x64x128.rank)
  concatenates_S1x64x128_S1x64x128_S1x64x128_S1x64x128_S1x64x128_S5x64x128_d0 : Shape.Concatenates [S1x64x128, S1x64x128, S1x64x128, S1x64x128, S1x64x128] S5x64x128 0
  inb_S5000x64_S5000x64_0_0 : ∀ a, (![0, 0] : Fin 2 → Nat) a + S5000x64.size a ≤ S5000x64.size a
  h_S5000x64 : 0 < S5000x64.numel
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  slices_S5000x256_o0_0_S5000x64 : S5000x256.Slices ![0, 0] S5000x64
  slices_S5000x256_o0_64_S5000x64 : S5000x256.Slices ![0, 64] S5000x64
  slices_S5000x256_o0_128_S5000x64 : S5000x256.Slices ![0, 128] S5000x64
  slices_S5000x256_o0_192_S5000x64 : S5000x256.Slices ![0, 192] S5000x64
  inb_S5x64x128_S5x64x128_0_0_0 : ∀ a, (![0, 0, 0] : Fin 3 → Nat) a + S5x64x128.size a ≤ S5x64x128.size a
  h_S5x64x128 : 0 < S5x64x128.numel
  shapeCasts_S5x64x128_S5x64x128 : S5x64x128.ShapeCasts S5x64x128
  bitsLt_bf16_f32 : FTy.bits .bf16 < FTy.bits .f32
  slices_S5x64x128_o0_0_0_S1x64x128 : S5x64x128.Slices ![0, 0, 0] S1x64x128
  shapeCasts_S1x64x128_S64x128 : S1x64x128.ShapeCasts S64x128
  slices_S5x64x128_o1_0_0_S1x64x128 : S5x64x128.Slices ![1, 0, 0] S1x64x128
  slices_S5x64x128_o2_0_0_S1x64x128 : S5x64x128.Slices ![2, 0, 0] S1x64x128
  slices_S5x64x128_o3_0_0_S1x64x128 : S5x64x128.Slices ![3, 0, 0] S1x64x128
  slices_S5x64x128_o4_0_0_S1x64x128 : S5x64x128.Slices ![4, 0, 0] S1x64x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  shapeCasts_S128_S1x128 : S128.ShapeCasts S1x128
  shapeCasts_S1x128_S1x1x128 : S1x128.ShapeCasts S1x1x128
  shapeCasts_S1x1x128_S1x1x128 : S1x1x128.ShapeCasts S1x1x128
  broadcasts_S1x1x128_S1x8x128 : S1x1x128.Broadcasts S1x8x128
  inb_S1x8x128_S1x8x128_0_0_0 : ∀ a, (![0, 0, 0] : Fin 3 → Nat) a + S1x8x128.size a ≤ S1x8x128.size a
  h_S1x8x128 : 0 < S1x8x128.numel
  slices_S100x8x128_S100x1x128_0_0_0 : S100x8x128.Slices ![0, 0, 0] S100x1x128
  shapeCasts_S100x1x128_S100x128 : S100x1x128.ShapeCasts S100x128
  reducesTo_S100x128_S128_d0 : S100x128.ReducesTo [0] S128
  h_S_ : 0 < S_.numel
  bcast_S_S128 : S_.BroadcastsInDim S128 (![] : Fin 0 → Fin S128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S500000x64_S500000x4x1_S500000x4x64_2_0_n_n_0_2_164_wf : GatherDims.WF S500000x64 S500000x4x1 S500000x4x64 [2] [0] [] [0] [] 2 ![1, 64]
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S500000x64.size a
  hwx0_0 : ∀ i : grid0.Coords, EltTy.bits .f32 = 32 ∨ (Rect.block (s := S500000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S500000x256.size a
  hwx0_1 : ∀ i : grid0.Coords, EltTy.bits .f32 = 32 ∨ (Rect.block (s := S500000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x64x128.size a ≤ S5x64x128.size a
  hwx0_2 : ∀ i : grid0.Coords, EltTy.bits .f32 = 32 ∨ (Rect.block (s := S5x64x128) S5x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S500000x128.size a
  hwx0_3 : ∀ i : grid0.Coords, EltTy.bits .f32 = 32 ∨ (Rect.block (s := S500000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S100x8x128.size a
  hwx0_4 : ∀ i : grid0.Coords, EltTy.bits .f32 = 32 ∨ (Rect.block (s := S100x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S100x8x128.size a
  hwx0_5 : ∀ i : grid0.Coords, EltTy.bits .f32 = 32 ∨ (Rect.block (s := S100x8x128) S1x8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S500000x128.size a
  hwx1_0 : ∀ i : grid1.Coords, EltTy.bits .f32 = 32 ∨ (Rect.block (s := S500000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S500000x128.size a
  hwx1_3 : ∀ i : grid1.Coords, EltTy.bits .f32 = 32 ∨ (Rect.block (s := S500000x128) S10000x128.size (cc1_transform_3 i) (hinb1_3 i)).WholeWords (EltTy.packing .f32)

variable [Facts₀]

def gather_S500000x64_S500000x4x1_S500000x4x64_2_0_n_n_0_2_164 : GatherDims S500000x64 S500000x4x1 S500000x4x64 where
  offsetDims := [2]
  collapsedSliceDims := [0]
  operandBatchingDims := []
  startIndicesBatchingDims := []
  startIndexMap := [0]
  indexVectorDim := 2
  sliceSizes := ![1, 64]
  wf := gather_S500000x64_S500000x4x1_S500000x4x64_2_0_n_n_0_2_164_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5x64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25_1) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25_2) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000x64 : Shape := ⟨2, ![500000, 64]⟩
abbrev S500000x4 : Shape := ⟨2, ![500000, 4]⟩
abbrev S128x320 : Shape := ⟨2, ![128, 320]⟩
abbrev S128 : Shape := ⟨1, ![128]⟩
abbrev S_ : Shape := ⟨0, ![]⟩
abbrev S500000x4x1 : Shape := ⟨3, ![500000, 4, 1]⟩
abbrev S500000x4x64 : Shape := ⟨3, ![500000, 4, 64]⟩
abbrev S500000x1x64 : Shape := ⟨3, ![500000, 1, 64]⟩
abbrev S500000x320 : Shape := ⟨2, ![500000, 320]⟩
abbrev S320x128 : Shape := ⟨2, ![320, 128]⟩
abbrev S500000x128 : Shape := ⟨2, ![500000, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S500000x4, .i32⟩
  | .hbm, ⟨2, _⟩ => ⟨S128x320, .f32⟩
  | .hbm, ⟨3, _⟩ => ⟨S128, .f32⟩
  | .hbm, ⟨4, _⟩ => ⟨S128, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S500000x4, .i32⟩
  | .hbm, ⟨9, _⟩ => ⟨S500000x4, .i32⟩
  | .hbm, ⟨10, _⟩ => ⟨S_, .i32⟩
  | .hbm, ⟨11, _⟩ => ⟨S500000x4, .i32⟩
  | .hbm, ⟨12, _⟩ => ⟨S500000x4, .i32⟩
  | .hbm, ⟨13, _⟩ => ⟨S_, .i32⟩
  | .hbm, ⟨14, _⟩ => ⟨S500000x4, .i32⟩
  | .hbm, ⟨15, _⟩ => ⟨S500000x4, .i1⟩
  | .hbm, ⟨16, _⟩ => ⟨S_, .i32⟩
  | .hbm, ⟨17, _⟩ => ⟨S500000x4, .i32⟩
  | .hbm, ⟨18, _⟩ => ⟨S500000x4, .i32⟩
  | .hbm, ⟨19, _⟩ => ⟨S500000x4, .i32⟩
  | .hbm, ⟨20, _⟩ => ⟨S500000x4x1, .i32⟩
  | .hbm, ⟨21, _⟩ => ⟨S500000x4x64, .f32⟩
  | .hbm, ⟨22, _⟩ => ⟨S500000x1x64, .f32⟩
  | .hbm, ⟨23, _⟩ => ⟨S500000x64, .f32⟩
  | .hbm, ⟨24, _⟩ => ⟨S500000x1x64, .f32⟩
  | .hbm, ⟨25, _⟩ => ⟨S500000x64, .f32⟩
  | .hbm, ⟨26, _⟩ => ⟨S500000x64, .f32⟩
  | .hbm, ⟨27, _⟩ => ⟨S500000x1x64, .f32⟩
  | .hbm, ⟨28, _⟩ => ⟨S500000x64, .f32⟩
  | .hbm, ⟨29, _⟩ => ⟨S500000x1x64, .f32⟩
  | .hbm, ⟨30, _⟩ => ⟨S500000x64, .f32⟩
  | .hbm, ⟨31, _⟩ => ⟨S500000x64, .f32⟩
  | .hbm, ⟨32, _⟩ => ⟨S500000x1x64, .f32⟩
  | .hbm, ⟨33, _⟩ => ⟨S500000x64, .f32⟩
  | .hbm, ⟨34, _⟩ => ⟨S500000x1x64, .f32⟩
  | .hbm, ⟨35, _⟩ => ⟨S500000x64, .f32⟩
  | .hbm, ⟨36, _⟩ => ⟨S500000x64, .f32⟩
  | .hbm, ⟨37, _⟩ => ⟨S500000x1x64, .f32⟩
  | .hbm, ⟨38, _⟩ => ⟨S500000x64, .f32⟩
  | .hbm, ⟨39, _⟩ => ⟨S500000x1x64, .f32⟩
  | .hbm, ⟨40, _⟩ => ⟨S500000x64, .f32⟩
  | .hbm, ⟨41, _⟩ => ⟨S500000x64, .f32⟩
  | .hbm, ⟨42, _⟩ => ⟨S500000x320, .f32⟩
  | .hbm, ⟨43, _⟩ => ⟨S320x128, .f32⟩
  | .hbm, ⟨44, _⟩ => ⟨S500000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S500000x128, .f32⟩
  | .hbm, ⟨52, _⟩ => ⟨S500000x128, .f32⟩
  | .hbm, ⟨53, _⟩ => ⟨S500000x128, .f32⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S500000x128, .f32⟩
  | .hbm, ⟨61, _⟩ => ⟨S500000x128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S500000x128, .f32⟩
  | .hbm, ⟨69, _⟩ => ⟨S500000x128, .f32⟩
  | .hbm, ⟨70, _⟩ => ⟨S1x128, .f32⟩
  | .hbm, ⟨71, _⟩ => ⟨S500000x128, .f32⟩
  | .hbm, ⟨72, _⟩ => ⟨S500000x128, .f32⟩
  | .hbm, ⟨73, _⟩ => ⟨S_, .f32⟩
  | .hbm, ⟨74, _⟩ => ⟨S500000x128, .f32⟩
  | .hbm, ⟨75, _⟩ => ⟨S500000x128, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_c_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  bcast_S_S500000x4 : S_.BroadcastsInDim S500000x4 (![] : Fin 0 → Fin S500000x4.rank)
  bcast_S500000x4_S500000x4x1_0_1 : S500000x4.BroadcastsInDim S500000x4x1 (![0, 1] : Fin 2 → Fin S500000x4x1.rank)
  slices_S500000x4x64_S500000x1x64_0_0_0 : S500000x4x64.Slices ![0, 0, 0] S500000x1x64
  shapeCasts_S500000x1x64_S500000x64 : S500000x1x64.ShapeCasts S500000x64
  slices_S500000x4x64_S500000x1x64_0_1_0 : S500000x4x64.Slices ![0, 1, 0] S500000x1x64
  slices_S500000x4x64_S500000x1x64_0_2_0 : S500000x4x64.Slices ![0, 2, 0] S500000x1x64
  slices_S500000x4x64_S500000x1x64_0_3_0 : S500000x4x64.Slices ![0, 3, 0] S500000x1x64
  concatenates_S500000x64_S500000x64_S500000x64_S500000x64_S500000x64_S500000x320_d1 : Shape.Concatenates [S500000x64, S500000x64, S500000x64, S500000x64, S500000x64] S500000x320 1
  transposes_S128x320_S320x128_1_0 : S128x320.Transposes [1, 0] S320x128
  reducesTo_S500000x128_S128_d0 : S500000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  gather_S500000x64_S500000x4x1_S500000x4x64_2_0_n_n_0_2_164_wf : GatherDims.WF S500000x64 S500000x4x1 S500000x4x64 [2] [0] [] [0] [] 2 ![1, 64]
  dot_S500000x320_S320x128_S500000x128_1_0_0_1_n_n_wf : DotDims.WF S500000x320 S320x128 S500000x128 [1] [0] [0] [1] [] []

variable [Facts₀]

def gather_S500000x64_S500000x4x1_S500000x4x64_2_0_n_n_0_2_164 : GatherDims S500000x64 S500000x4x1 S500000x4x64 where
  offsetDims := [2]
  collapsedSliceDims := [0]
  operandBatchingDims := []
  startIndicesBatchingDims := []
  startIndexMap := [0]
  indexVectorDim := 2
  sliceSizes := ![1, 64]
  wf := gather_S500000x64_S500000x4x1_S500000x4x64_2_0_n_n_0_2_164_wf
def dot_S500000x320_S320x128_S500000x128_1_0_0_1_n_n : DotDims S500000x320 S320x128 S500000x128 where
  lhsContracting := [1]
  rhsContracting := [0]
  lhsNonContracting := [0]
  rhsNonContracting := [1]
  lhsBatch := []
  rhsBatch := []
  wf := dot_S500000x320_S320x128_S500000x128_1_0_0_1_n_n_wf

class Facts : Prop extends Facts₀ where

variable [Facts]
-- ==== Proof.KRegion0.lean ====
/- REGION 0 of @main, the matrix-product kernel on its grid of 100 points, at a parameter `V`: the contents of the
   core's buffers when the region is entered. Per window, its block at a grid point; per output window, what the body
   leaves in its buffer as a function of the three input blocks; the body's triple; the pipeline's proof data and the
   body obligation at every point. -/
import proofs.«115342_j8323646619907_2_alg».proof.Proof.Gen.Kernel.Launch
import proofs.«115342_j8323646619907_2_alg».proof.Proof.Gen.Kernel.Skeleton
import proofs.«115342_j8323646619907_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of thousands of rows is decided by a structural
-- recursion one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything below is stated at this parameter
variable (V : (c : Dev nD) → (b : Ref sig .tc) → Buf (Elt F) ((c : Thread nD τ).loc b))

/-! ## The windows' blocks -/

/-- Window `w`'s block at grid point `t`: the sub-array of the window's array, as the region finds it (`V`),
    that the window's index map selects at `t`. For windows 0 and 1 it is a band of 5000 rows; for window 2 the whole
    array at every point (constant index map). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes: each is a whole staging buffer -/

/-- All of a 5000×64 buffer (the row band of the first operand). -/
abbrev wholeX : Rect S5000x64 := Rect.unit (s := S5000x64) ![0, 0] S5000x64.size inb_S5000x64_S5000x64_0_0
/-- All of a 5000×256 buffer (the row band of the four gathered neighbours, side by side). -/
abbrev wholeN : Rect S5000x256 := Rect.unit (s := S5000x256) ![0, 0] S5000x256.size inb_S5000x256_S5000x256_0_0
/-- All of the 5×64×128 buffer (the five weight matrices). -/
abbrev wholeW : Rect S5x64x128 := Rect.unit (s := S5x64x128) ![0, 0, 0] S5x64x128.size inb_S5x64x128_S5x64x128_0_0_0
/-- All of a 5000×128 buffer (the row band of the product). -/
abbrev wholeH : Rect S5000x128 := Rect.unit (s := S5000x128) ![0, 0] S5000x128.size inb_S5000x128_S5000x128_0_0
/-- All of a 1×8×128 buffer (one tile of per-column partial sums). -/
abbrev wholeS : Rect S1x8x128 := Rect.unit (s := S1x8x128) ![0, 0, 0] S1x8x128.size inb_S1x8x128_S1x8x128_0_0_0

/-! ## What the body leaves in each output window's buffer

The body reads its three input buffers whole, and writes each output buffer whole exactly once; so each
output buffer ends as its single store's value, a function of the three input blocks alone. -/

/-- Window 3's buffer after the body: the band's product `h` (the sum of the five matrix products). -/
def out0_3 (x0 : Vec F S5000x64 .f32) (x1 : Vec F S5000x256 .f32) (x2 : Vec F S5x64x128 .f32) : Vec F S5000x128 .f32 :=
  View.canon [⟨wholeH, k0_pay3 (View.ld x0 wholeX) (View.ld x1 wholeN) (View.ld x2 wholeW)⟩]

/-- Window 4's buffer after the body: the column sums of `h` over the band, repeated along the 8 sublanes. -/
def out0_4 (x0 : Vec F S5000x64 .f32) (x1 : Vec F S5000x256 .f32) (x2 : Vec F S5x64x128 .f32) : Vec F S1x8x128 .f32 :=
  View.canon [⟨wholeS, k0_pay1 (k0_pay4 (View.ld x0 wholeX) (View.ld x1 wholeN) (View.ld x2 wholeW))⟩]

/-- Window 5's buffer after the body: the column sums of `h * h` over the band, repeated along the 8 sublanes. -/
def out0_5 (x0 : Vec F S5000x64 .f32) (x1 : Vec F S5000x256 .f32) (x2 : Vec F S5x64x128 .f32) : Vec F S1x8x128 .f32 :=
  View.canon [⟨wholeS, k0_pay2 (k0_pay5 (View.ld x0 wholeX) (View.ld x1 wholeN) (View.ld x2 wholeW))⟩]

/-! ## The pipeline's proof data -/

/-- The proof data of pipeline 0 on core `c`: the arrays as the region finds them (`V`); after the body at point
    `t` each input's buffer still at its block and each output's at `out0_w` of the three input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

/-! ## The inputs' staging buffers hold their blocks at every point -/

/-- Input window 0's current staging buffer holds its block at every point, for ANY proof data whose array is
    `V`'s (`hA`) and whose body leaves the block in place (`hafter`): the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's: its index map is constant, so it is fetched at the first point only; at a later point the
    buffer still holds what the first fetch brought, which is the block at that point too (the index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Each output's single store covers its buffer -/

/-- One piece that is the whole 5000×128 buffer covers it. -/
theorem cover0_3 (p0 : Vec F S5000x128 .f32) (y : S5000x128.Idx) :
    ∃ pc ∈ ([⟨wholeH, p0⟩] : List (View.Piece (Elt F) S5000x128 .f32)), y ∈ pc.1.set :=
  View.cover_of_tiled [⟨wholeH, p0⟩] S5000x128.size (by rfl) y

/-- One piece that is the whole 1×8×128 buffer covers it (both statistics tiles). -/
theorem cover0_S (p0 : Vec F S1x8x128 .f32) (y : S1x8x128.Idx) :
    ∃ pc ∈ ([⟨wholeS, p0⟩] : List (View.Piece (Elt F) S1x8x128 .f32)), y ∈ pc.1.set :=
  View.cover_of_tiled [⟨wholeS, p0⟩] S1x8x128.size (by rfl) y

/-! ## The body's triple -/

set_option maxHeartbeats 1000000 in
/-- The kernel body on whole staging memrefs — the three inputs' at read contents `x0`, `x1`, `x2`, the three outputs'
    at anything — runs to the continuation holding the inputs' as they were and each output's at `out0_w x0 x1 x2`.
    The body is straight-line: three whole-buffer loads, then per output a (dead) whole-buffer load and ONE whole-buffer
    store; a buffer overwritten whole by a single store reads back as that store's value (`View.read_writes_eq_canon`
    with the cover lemma). The second and third stores' values are the two components the first part of the body returns. -/
theorem sound_kernel0 (c : Dev nD) (E : Set ℕ) (i : grid0.Coords)
    (arg0 : Memref sig .tc .vmem S5000x64 .f32) (harg0 : arg0.IsWhole)
    (arg1 : Memref sig .tc .vmem S5000x256 .f32) (harg1 : arg1.IsWhole)
    (arg2 : Memref sig .tc .vmem S5x64x128 .f32) (harg2 : arg2.IsWhole)
    (arg3 : Memref sig .tc .vmem S5000x128 .f32) (harg3 : arg3.IsWhole)
    (arg4 : Memref sig .tc .vmem S1x8x128 .f32) (harg4 : arg4.IsWhole)
    (arg5 : Memref sig .tc .vmem S1x8x128 .f32) (harg5 : arg5.IsWhole)
    (x0 : Vec F S5000x64 .f32) (x1 : Vec F S5000x256 .f32) (x2 : Vec F S5x64x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2) ∗ owns (c : Thread nD τ) arg4 fullShare (out0_4 x0 x1 x2)
            ∗ owns (c : Thread nD τ) arg5 fullShare (out0_5 x0 x1 x2)) -∗ K ⟨⟩))
      ⊢ wp frame (wpE (defs₀ (F := F)) Variants.none c none) E (cc0__mm_kernel i arg0 harg0 arg1 harg1 arg2 harg2 arg3 harg3 arg4 harg4 arg5 harg5) K := by
  simp only [cc0__mm_kernel_eq_skeleton]; unfold cc0__mm_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_S _)
  iexists _; isplitr
  swap; · iexact H5
  ipureintro
  exact View.read_writes_eq_canon _ _ _ (cover0_S _)

/-! ## The proof data's inputs hold their blocks -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and each window's current staging
    buffer, whole, at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks (`before0_w`), so `sound_kernel0` applies at those
    blocks; the invariant and what the core owes pass through unread (neither changes across the body). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/- REGION 1 of @main, the normalise-and-rectify kernel on its grid of 50 points, at a parameter `V`: the contents of
   the core's buffers when the region is entered. Per window, its block at a grid point; what the body leaves in the
   output window's buffer as a function of the three input blocks; the body's triple; the pipeline's proof data and
   the body obligation at every point. -/
import proofs.«115342_j8323646619907_2_alg».proof.Proof.Gen.Kernel.Launch
import proofs.«115342_j8323646619907_2_alg».proof.Proof.Gen.Kernel.Skeleton
import proofs.«115342_j8323646619907_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of thousands of rows is decided by a structural
-- recursion one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything below is stated at this parameter
variable (V : (c : Dev nD) → (b : Ref sig .tc) → Buf (Elt F) ((c : Thread nD τ).loc b))

/-! ## The windows' blocks -/

/-- Window `w`'s block at grid point `t`: the sub-array of the window's array, as the region finds it (`V`),
    that the window's index map selects at `t`. For windows 0 and 3 it is a band of 10000 rows; for windows 1 and 2
    the whole 1×128 row at every point (constant index maps). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes: each is a whole staging buffer -/

/-- All of a 10000×128 buffer (a row band of the product, and of the result). -/
abbrev wholeY : Rect S10000x128 := Rect.unit (s := S10000x128) ![0, 0] S10000x128.size inb_S10000x128_S10000x128_0_0
/-- All of a 1×128 buffer (the per-column scale, and the per-column shift). -/
abbrev wholeRow : Rect S1x128 := Rect.unit (s := S1x128) ![0, 0] S1x128.size inb_S1x128_S1x128_0_0

/-! ## What the body leaves in the output window's buffer

The body reads its three input buffers whole and writes the output buffer whole exactly once; so the output
buffer ends as that store's value, a function of the three input blocks alone. -/

/-- Window 3's buffer after the body: `max (x * scale + shift) 0` over the band, the scale and the shift
    broadcast along the rows. -/
def out1_3 (x0 : Vec F S10000x128 .f32) (x1 x2 : Vec F S1x128 .f32) : Vec F S10000x128 .f32 :=
  View.canon [⟨wholeY, k1_pay1 (View.ld x0 wholeY) (View.ld x1 wholeRow) (View.ld x2 wholeRow)⟩]

/-! ## The pipeline's proof data -/

/-- The proof data of pipeline 1 on core `c`: the arrays as the region finds them (`V`); after the body at point
    `t` each input's buffer still at its block and the output's at `out1_3` of the three input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## The inputs' staging buffers hold their blocks at every point -/

/-- Input window 0's current staging buffer holds its block at every point, for ANY proof data whose array is
    `V`'s (`hA`) and whose body leaves the block in place (`hafter`): the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's: its index map is constant, so it is fetched at the first point only; at a later point the
    buffer still holds what the first fetch brought, which is the block at that point too (the index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's, likewise fetched at the first point only. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The output's single store covers its buffer -/

/-- One piece that is the whole 10000×128 buffer covers it. -/
theorem cover1_3 (p0 : Vec F S10000x128 .f32) (y : S10000x128.Idx) :
    ∃ pc ∈ ([⟨wholeY, p0⟩] : List (View.Piece (Elt F) S10000x128 .f32)), y ∈ pc.1.set :=
  View.cover_of_tiled [⟨wholeY, p0⟩] S10000x128.size (by rfl) y

/-! ## The body's triple -/

set_option maxHeartbeats 1000000 in
/-- The kernel body on whole staging memrefs — the three inputs' at read contents `x0`, `x1`, `x2`, the output's at
    anything — runs to the continuation holding the inputs' as they were and the output's at `out1_3 x0 x1 x2`. The body
    is straight-line: three whole-buffer loads, a (dead) whole-buffer load of the output and ONE whole-buffer store; a
    buffer overwritten whole by a single store reads back as that store's value. -/
theorem sound_kernel1 (c : Dev nD) (E : Set ℕ) (i : grid1.Coords)
    (arg0 : Memref sig .tc .vmem S10000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S10000x128 .f32) (harg3 : arg3.IsWhole)
    (x0 : Vec F S10000x128 .f32) (x1 x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__norm_relu_kernel i arg0 harg0 arg1 harg1 arg2 harg2 arg3 harg3) K := by
  simp only [cc1__norm_relu_kernel_eq_skeleton]; unfold cc1__norm_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data's inputs hold their blocks -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what the core owes, and each window's current staging
    buffer, whole, at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks (`before1_w`), so `sound_kernel1` applies at those
    blocks; the invariant and what the core owes pass through unread (neither changes across the body). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/- THE RUN of @main from the launch to the return: three host stretches, region 0, a host stretch, region 1.
   The contents every region leaves in the buffers it may change are given as ONE family `outs`, built from the launch
   memory alone: region 0's three output arrays hold what its pipeline's write-backs leave (its proof data at the
   contents the region is entered with), and region 1's output array likewise, its entry contents being the host
   stretch's result over region 0's. Each region is a segment between two boundary contents; chaining the segments
   gives: every weakly fair execution terminates, and at the end EVERY unscoped buffer holds the last boundary's
   contents (`run_all`); in particular the five argument arrays hold what they held at launch (`frame`). -/
import proofs.«115342_j8323646619907_2_alg».proof.Proof.KRegion0
import proofs.«115342_j8323646619907_2_alg».proof.Proof.KRegion1
import proofs.«115342_j8323646619907_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- What region 0 leaves: each of its arrays at what the pipeline's write-backs leave there (an input array as entered,
    an output array the fold of its 100 write-backs), the proof data taken at the contents before the region, `Gen.V3`.
    Read at any item number and any reference; only region 0's three output arrays at item 4 matter. -/
def outsA : Outs (F := F) := fun _ r c =>
  (Pipeline.withArrays spec0 c (Gen.V3 m c) fun w => (dat0 (fun c b => Gen.V3 m c b) c).arrAt w cfg0.N) (Proc.devRef .tc r)

/-- At one of region 0's arrays, `outsA` is what the pipeline leaves there. -/
theorem outsA_arr (J : ℕ) (c : Dev nD) (w : Fin cfg0.W) :
    outsA m J (Pipeline.arrRef spec0 w) c = (dat0 (fun c b => Gen.V3 m c b) c).arrAt w cfg0.N := by
  unfold outsA; exact Pipeline.withArrays_arr spec0 launch0.win.arr_inj c _ _ w

/-- What both regions leave: region 0's as `outsA`; region 1's output array (item 6) at what ITS pipeline's write-backs
    leave, the proof data taken at the contents before region 1 — the last host stretch's result over `outsA`. -/
def outs : Outs (F := F) := fun J r c =>
  if J = 6 then
    (Pipeline.withArrays spec1 c (Gen.V5 m (outsA m) c) fun w => (dat1 (fun c b => Gen.V5 m (outsA m) c b) c).arrAt w cfg1.N) (Proc.devRef .tc r)
  else outsA m J r c

/-- At item 4 the two families agree, -/
theorem outs_four : outs m 4 = outsA m 4 := rfl

/-- so the contents after region 0 are the same over either, -/
theorem V4_outs (c : Dev nD) : Gen.V4 m (outs m) c = Gen.V4 m (outsA m) c := by
  unfold Gen.V4; rw [outs_four]

/-- and so are the contents region 1 is entered with. -/
theorem V5_outs (c : Dev nD) : Gen.V5 m (outs m) c = Gen.V5 m (outsA m) c := by
  unfold Gen.V5; rw [V4_outs]

/-- The same, as the families the proof data are stated at. -/
theorem V5_outs_fun :
    @Eq ((c : Dev nD) → (b : Ref sig .tc) → Buf (Elt F) ((c : Thread nD τ).loc b))
      (fun c b => Gen.V5 m (outs m) c b) (fun c b => Gen.V5 m (outsA m) c b) :=
  funext fun c => funext fun b => by rw [V5_outs]

/-- At one of region 1's arrays, item 6 of `outs` is what the pipeline leaves there. -/
theorem outs_six_arr (c : Dev nD) (w : Fin cfg1.W) :
    outs m 6 (Pipeline.arrRef spec1 w) c = (dat1 (fun c b => Gen.V5 m (outsA m) c b) c).arrAt w cfg1.N := by
  unfold outs; rw [if_pos rfl]; exact Pipeline.withArrays_arr spec1 launch1.win.arr_inj c _ _ w

/-- Region 0 leaves in `main_v25_0` (the product `h`) what its pipeline's write-backs of window 3 leave. -/
theorem outs_h (c : Dev nD) : outs m 4 main_v25_0 c = (dat0 (fun c b => Gen.V3 m c b) c).arrAt 3 cfg0.N :=
  outsA_arr m 4 c 3
/-- Region 0 leaves in `main_v25_1` (the column sums) what its pipeline's write-backs of window 4 leave. -/
theorem outs_sum (c : Dev nD) : outs m 4 main_v25_1 c = (dat0 (fun c b => Gen.V3 m c b) c).arrAt 4 cfg0.N :=
  outsA_arr m 4 c 4
/-- Region 0 leaves in `main_v25_2` (the column sums of squares) what its pipeline's write-backs of window 5 leave. -/
theorem outs_sumsq (c : Dev nD) : outs m 4 main_v25_2 c = (dat0 (fun c b => Gen.V3 m c b) c).arrAt 5 cfg0.N :=
  outsA_arr m 4 c 5
/-- Region 1 leaves in `main_v46` (the result) what its pipeline's write-backs of window 3 leave, its proof data at
    the contents region 1 is entered with. -/
theorem outs_y (c : Dev nD) : outs m 6 main_v46 c = (dat1 (fun c b => Gen.V5 m (outs m) c b) c).arrAt 3 cfg1.N := by
  rw [V5_outs_fun]; exact outs_six_arr m c 3

/-! ## The boundary contents at the regions' arrays -/

/-- After region 0, each of its three output arrays holds `outs 4` of it (the updates are at distinct references). -/
theorem V4_v25_0 (o : Outs (F := F)) (c : Dev nD) : Gen.V4 m o c main_v25_0 = o 4 main_v25_0 c := by
  simp only [Gen.V4, Function.update_of_ne (StableHlo.devRef_ne_of_ne (by decide) : (Proc.devRef .tc main_v25_0 : DevRef τ sig) ≠ Proc.devRef .tc main_v25_2),
    Function.update_of_ne (StableHlo.devRef_ne_of_ne (by decide) : (Proc.devRef .tc main_v25_0 : DevRef τ sig) ≠ Proc.devRef .tc main_v25_1), Function.update_self]
theorem V4_v25_1 (o : Outs (F := F)) (c : Dev nD) : Gen.V4 m o c main_v25_1 = o 4 main_v25_1 c := by
  simp only [Gen.V4, Function.update_of_ne (StableHlo.devRef_ne_of_ne (by decide) : (Proc.devRef .tc main_v25_1 : DevRef τ sig) ≠ Proc.devRef .tc main_v25_2),
    Function.update_self]
theorem V4_v25_2 (o : Outs (F := F)) (c : Dev nD) : Gen.V4 m o c main_v25_2 = o 4 main_v25_2 c := by
  simp only [Gen.V4, Function.update_self]
/-- After region 1, its output array holds `outs 6` of it. -/
theorem V6_v46 (o : Outs (F := F)) (c : Dev nD) : Gen.V6 m o c main_v46 = o 6 main_v46 c := by
  simp only [Gen.V6, Function.update_self]

/-- Region 0's exit: each of its arrays holds what the pipeline leaves (an input array is unchanged and no update
    touches it; an output array is `outs 4` of it), -/
theorem hF0 (c : Dev nD) (w : Fin cfg0.W) :
    (dat0 (fun c b => Gen.V3 m c b) c).arrAt w cfg0.N = Gen.V4 m (outs m) c (Pipeline.arrRef spec0 w) := by
  fin_cases w
  · exact (((dat0 (fun c b => Gen.V3 m c b) c).arrAt_in 0 rfl _).trans (A_eq0 _ c 0)).trans (Gen.V4_of m (outs m) c main_arg0 (by decide)).symm
  · exact (((dat0 (fun c b => Gen.V3 m c b) c).arrAt_in 1 rfl _).trans (A_eq0 _ c 1)).trans (Gen.V4_of m (outs m) c main_v8 (by decide)).symm
  · exact (((dat0 (fun c b => Gen.V3 m c b) c).arrAt_in 2 rfl _).trans (A_eq0 _ c 2)).trans (Gen.V4_of m (outs m) c main_v24 (by decide)).symm
  · exact ((V4_v25_0 m (outs m) c).trans (outs_h m c)).symm
  · exact ((V4_v25_1 m (outs m) c).trans (outs_sum m c)).symm
  · exact ((V4_v25_2 m (outs m) c).trans (outs_sumsq m c)).symm

/-- and every other buffer what it held at entry. -/
theorem hrest0 (c : Dev nD) : ∀ b, b ∉ Finset.univ.image (Pipeline.arrRef spec0) → Gen.V4 m (outs m) c b = Gen.V3 m c b :=
  fun b hb => Gen.V4_of m (outs m) c b fun h => hb (by
    rcases List.mem_cons.mp h with rfl | h
    · exact Finset.mem_image.mpr ⟨3, Finset.mem_univ _, rfl⟩
    rcases List.mem_cons.mp h with rfl | h
    · exact Finset.mem_image.mpr ⟨4, Finset.mem_univ _, rfl⟩
    rcases List.mem_cons.mp h with rfl | h
    · exact Finset.mem_image.mpr ⟨5, Finset.mem_univ _, rfl⟩
    exact absurd h (List.not_mem_nil))

/-- Region 1's exit, likewise: its input arrays as entered, its output array `outs 6` of it, -/
theorem hF1 (c : Dev nD) (w : Fin cfg1.W) :
    (dat1 (fun c b => Gen.V5 m (outsA m) c b) c).arrAt w cfg1.N = Gen.V6 m (outs m) c (Pipeline.arrRef spec1 w) := by
  fin_cases w
  · exact (((dat1 (fun c b => Gen.V5 m (outsA m) c b) c).arrAt_in 0 rfl _).trans (A_eq1 _ c 0)).trans
      (((Gen.V6_of m (outs m) c main_v25_0 (by decide)).trans (congrFun (V5_outs m c) _)).symm)
  · exact (((dat1 (fun c b => Gen.V5 m (outsA m) c b) c).arrAt_in 1 rfl _).trans (A_eq1 _ c 1)).trans
      (((Gen.V6_of m (outs m) c main_v44 (by decide)).trans (congrFun (V5_outs m c) _)).symm)
  · exact (((dat1 (fun c b => Gen.V5 m (outsA m) c b) c).arrAt_in 2 rfl _).trans (A_eq1 _ c 2)).trans
      (((Gen.V6_of m (outs m) c main_v45 (by decide)).trans (congrFun (V5_outs m c) _)).symm)
  · exact ((V6_v46 m (outs m) c).trans (outs_six_arr m c 3)).symm

/-- and every other buffer what it held at entry. -/
theorem hrest1 (c : Dev nD) : ∀ b, b ∉ Finset.univ.image (Pipeline.arrRef spec1) → Gen.V6 m (outs m) c b = Gen.V5 m (outsA m) c b :=
  fun b hb => (Gen.V6_of m (outs m) c b fun h => hb (by
    rcases List.mem_cons.mp h with rfl | h
    · exact Finset.mem_image.mpr ⟨3, Finset.mem_univ _, rfl⟩
    exact absurd h (List.not_mem_nil))).trans (congrFun (V5_outs m c) _)

/-! ## The proof data family and what rides beside the buffers -/

/-- Every pipeline's proof data, each at the contents its region is entered with. -/
def pdats : (p : Fin 2) → (c : Dev nD) → Dat τ (Elt F) Unit ℕ (UR sig nD τ) ℕ (cfgs p) c
  | ⟨0, _⟩ => fun c => dat0 (fun c b => Gen.V3 m c b) c
  | ⟨1, _⟩ => fun c => dat1 (fun c b => Gen.V5 m (outsA m) c b) c

/-- No core owes another anything: no pair is assigned a level. -/
abbrev L₀ : GSem nD τ sig → Finset Unit := fun _ => ∅
abbrev lv₀ : GSem nD τ sig → Unit → ℕ := fun _ _ => 0

/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- The same at each of the three places the segments name. -/
abbrev E₀ : Fin 3 → Dev nD → sProp 𝕄 := fun _ c => R (F := F) c

theorem R_owes (c : Dev nD) : R (F := F) c ⊢ (iprop(∃ W, owes (c : Thread nD τ) (0 : CellTallies nD τ sig Unit) W) : sProp 𝕄) := by
  iintro ⟨-, H⟩; iexact H

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 between the contents `Gen.V3` and `Gen.V4 (outs)`: its arrays are split out of the unscoped buffers at
    entry and put back at what the pipeline leaves at exit (`hF0`, `hrest0`); the generator register goes into the
    invariant and comes back; nothing is owed; the kernel has no semaphore of its own. -/
def reg0 : RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (fun c b => Gen.V3 m c b) c).loose
  hwaits := Pipeline.hwaits_of_owed_zero _ _ _ _ L₀ lv₀ 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => Gen.V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => Gen.V3 m c b) (fun b => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 between the contents `Gen.V5` and `Gen.V6 (outs)`, in the same way (`hF1`, `hrest1`); it is entered at
    `Gen.V5` over `outsA`, which is `Gen.V5` over `outs` (`V5_outs`). -/
def reg1 : RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (fun c b => Gen.V5 m (outsA m) c b) c).loose
  hwaits := Pipeline.hwaits_of_owed_zero _ _ _ _ L₀ lv₀ 1 fun _ _ => rfl
  pre c := iprop(StableHlo.held (c : Thread nD τ) (Pipeline.ucRefs τ sig) (Gen.V5 m (outsA m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V5 m (outsA m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => Gen.V5 m (outsA m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Gen.V5 m (outsA m) c b) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state the last host stretch leaves — the buffers at `Gen.V5` over `outs` — is the one region 1 is
    entered from, the two families agreeing at item 4. -/
theorem hpre1 (c : Dev nD) :
    (iprop(StableHlo.held (c : Thread nD τ) (Pipeline.ucRefs τ sig) (Gen.V5 m (outs m) c) ∗ R c) : sProp 𝕄) ⊢ (reg1 m).pre c := by
  rw [V5_outs]; exact .rfl

/-! ## The launch -/

set_option backward.isDefEq.respectTransparency.types false in
/-- Every weakly fair execution of @main from memory `m` with zero counters terminates, and at the end every unscoped
    buffer of every core holds the last boundary's contents `Gen.V6 m (outs m)`: @main is the chain of its six items;
    each host stretch is a segment from its boundary's contents to the next; the regions are `reg0`, `reg1`; the
    thread states chain by name (region 1's entry through `V5_outs`); the launch deals each core its buffers at the
    launch memory, its generator register and nothing owed; the last thread state is read against the final memory. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V6 m (outs m) c b) := by
  refine Pipeline.θ_run_regions_kit_dev (pcfgs (F := F)) adm (pdats m) () cellOf_inj emb₁ defs₀ Variants.none L₀ lv₀ m ρ main
    (segs m (outs m) Variants.none L₀ lv₀ E₀ () (pdats m) (reg0 m) (reg1 m))
    (fun c Q => by
      rewrite [main_chain c, Seg.run_eq_chain,
        show (segs m (outs m) Variants.none L₀ lv₀ E₀ () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, hpre1 m c, sep_mono .rfl (R_owes c)⟩)
    (hinit := by
      refine Pipeline.initEach L₀ lv₀ fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V6 m (outs m) c b)
    (hfin := fun c s' => by
      iintro ⟨Hh, HSI⟩
      unfold StableHlo.held
      imodintro
      iapply (pointsTo_read_all (Pipeline.ucRefs τ sig) (fun b => ((c : Thread nD τ).1, b)) (Gen.V6 m (outs m) c) s')
      isplitl [Hh] <;> iassumption)
    (hQ := fun s h c => h c)

/-- THE FRAME: every weakly fair execution of @main terminates and every final memory holds each of the five argument
    arrays as launched: no host stretch writes an argument and no region may change one, so the last boundary's
    contents at an argument walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c)⟩) (run_all m ρ)

end Cert.Kernel.Hand

end
-- ==== Proof.KIRegion0.lean ====
/- REGION 0 of @main, the matrix-product kernel on its grid of 100 points, at a parameter `V`: the contents of the
   core's buffers when the region is entered. Per window, its block at a grid point; per output window, what the body
   leaves in its buffer as a function of the three input blocks; the body's triple; the pipeline's proof data and the
   body obligation at every point. -/
import proofs.«115342_j8323646619907_2_alg».proof.Proof.Gen.KernelIdeal.Launch
import proofs.«115342_j8323646619907_2_alg».proof.Proof.Gen.KernelIdeal.Skeleton
import proofs.«115342_j8323646619907_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of thousands of rows is decided by a structural
-- recursion one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything below is stated at this parameter
variable (V : (c : Dev nD) → (b : Ref sig .tc) → Buf (Elt F) ((c : Thread nD τ).loc b))

/-! ## The windows' blocks -/

/-- Window `w`'s block at grid point `t`: the sub-array of the window's array, as the region finds it (`V`),
    that the window's index map selects at `t`. For windows 0 and 1 it is a band of 5000 rows; for window 2 the whole
    array at every point (constant index map). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes: each is a whole staging buffer -/

/-- All of a 5000×64 buffer (the row band of the first operand). -/
abbrev wholeX : Rect S5000x64 := Rect.unit (s := S5000x64) ![0, 0] S5000x64.size inb_S5000x64_S5000x64_0_0
/-- All of a 5000×256 buffer (the row band of the four gathered neighbours, side by side). -/
abbrev wholeN : Rect S5000x256 := Rect.unit (s := S5000x256) ![0, 0] S5000x256.size inb_S5000x256_S5000x256_0_0
/-- All of the 5×64×128 buffer (the five weight matrices). -/
abbrev wholeW : Rect S5x64x128 := Rect.unit (s := S5x64x128) ![0, 0, 0] S5x64x128.size inb_S5x64x128_S5x64x128_0_0_0
/-- All of a 5000×128 buffer (the row band of the product). -/
abbrev wholeH : Rect S5000x128 := Rect.unit (s := S5000x128) ![0, 0] S5000x128.size inb_S5000x128_S5000x128_0_0
/-- All of a 1×8×128 buffer (one tile of per-column partial sums). -/
abbrev wholeS : Rect S1x8x128 := Rect.unit (s := S1x8x128) ![0, 0, 0] S1x8x128.size inb_S1x8x128_S1x8x128_0_0_0

/-! ## What the body leaves in each output window's buffer

The body reads its three input buffers whole, and writes each output buffer whole exactly once; so each
output buffer ends as its single store's value, a function of the three input blocks alone. -/

/-- Window 3's buffer after the body: the band's product `h` (the sum of the five matrix products). -/
def out0_3 (x0 : Vec F S5000x64 .f32) (x1 : Vec F S5000x256 .f32) (x2 : Vec F S5x64x128 .f32) : Vec F S5000x128 .f32 :=
  View.canon [⟨wholeH, k0_pay3 (View.ld x0 wholeX) (View.ld x1 wholeN) (View.ld x2 wholeW)⟩]

/-- Window 4's buffer after the body: the column sums of `h` over the band, repeated along the 8 sublanes. -/
def out0_4 (x0 : Vec F S5000x64 .f32) (x1 : Vec F S5000x256 .f32) (x2 : Vec F S5x64x128 .f32) : Vec F S1x8x128 .f32 :=
  View.canon [⟨wholeS, k0_pay1 (k0_pay4 (View.ld x0 wholeX) (View.ld x1 wholeN) (View.ld x2 wholeW))⟩]

/-- Window 5's buffer after the body: the column sums of `h * h` over the band, repeated along the 8 sublanes. -/
def out0_5 (x0 : Vec F S5000x64 .f32) (x1 : Vec F S5000x256 .f32) (x2 : Vec F S5x64x128 .f32) : Vec F S1x8x128 .f32 :=
  View.canon [⟨wholeS, k0_pay2 (k0_pay5 (View.ld x0 wholeX) (View.ld x1 wholeN) (View.ld x2 wholeW))⟩]

/-! ## The pipeline's proof data -/

/-- The proof data of pipeline 0 on core `c`: the arrays as the region finds them (`V`); after the body at point
    `t` each input's buffer still at its block and each output's at `out0_w` of the three input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

/-! ## The inputs' staging buffers hold their blocks at every point -/

/-- Input window 0's current staging buffer holds its block at every point, for ANY proof data whose array is
    `V`'s (`hA`) and whose body leaves the block in place (`hafter`): the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's: its index map is constant, so it is fetched at the first point only; at a later point the
    buffer still holds what the first fetch brought, which is the block at that point too (the index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Each output's single store covers its buffer -/

/-- One piece that is the whole 5000×128 buffer covers it. -/
theorem cover0_3 (p0 : Vec F S5000x128 .f32) (y : S5000x128.Idx) :
    ∃ pc ∈ ([⟨wholeH, p0⟩] : List (View.Piece (Elt F) S5000x128 .f32)), y ∈ pc.1.set :=
  View.cover_of_tiled [⟨wholeH, p0⟩] S5000x128.size (by rfl) y

/-- One piece that is the whole 1×8×128 buffer covers it (both statistics tiles). -/
theorem cover0_S (p0 : Vec F S1x8x128 .f32) (y : S1x8x128.Idx) :
    ∃ pc ∈ ([⟨wholeS, p0⟩] : List (View.Piece (Elt F) S1x8x128 .f32)), y ∈ pc.1.set :=
  View.cover_of_tiled [⟨wholeS, p0⟩] S1x8x128.size (by rfl) y

/-! ## The body's triple -/

set_option maxHeartbeats 1000000 in
/-- The kernel body on whole staging memrefs — the three inputs' at read contents `x0`, `x1`, `x2`, the three outputs'
    at anything — runs to the continuation holding the inputs' as they were and each output's at `out0_w x0 x1 x2`.
    The body is straight-line: three whole-buffer loads, then per output a (dead) whole-buffer load and ONE whole-buffer
    store; a buffer overwritten whole by a single store reads back as that store's value (`View.read_writes_eq_canon`
    with the cover lemma). The second and third stores' values are the two components the first part of the body returns. -/
theorem sound_kernel0 (c : Dev nD) (E : Set ℕ) (i : grid0.Coords)
    (arg0 : Memref sig .tc .vmem S5000x64 .f32) (harg0 : arg0.IsWhole)
    (arg1 : Memref sig .tc .vmem S5000x256 .f32) (harg1 : arg1.IsWhole)
    (arg2 : Memref sig .tc .vmem S5x64x128 .f32) (harg2 : arg2.IsWhole)
    (arg3 : Memref sig .tc .vmem S5000x128 .f32) (harg3 : arg3.IsWhole)
    (arg4 : Memref sig .tc .vmem S1x8x128 .f32) (harg4 : arg4.IsWhole)
    (arg5 : Memref sig .tc .vmem S1x8x128 .f32) (harg5 : arg5.IsWhole)
    (x0 : Vec F S5000x64 .f32) (x1 : Vec F S5000x256 .f32) (x2 : Vec F S5x64x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2) ∗ owns (c : Thread nD τ) arg4 fullShare (out0_4 x0 x1 x2)
            ∗ owns (c : Thread nD τ) arg5 fullShare (out0_5 x0 x1 x2)) -∗ K ⟨⟩))
      ⊢ wp frame (wpE (defs₀ (F := F)) Variants.none c none) E (cc0__mm_kernel i arg0 harg0 arg1 harg1 arg2 harg2 arg3 harg3 arg4 harg4 arg5 harg5) K := by
  simp only [cc0__mm_kernel_eq_skeleton]; unfold cc0__mm_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_S _)
  iexists _; isplitr
  swap; · iexact H5
  ipureintro
  exact View.read_writes_eq_canon _ _ _ (cover0_S _)

/-! ## The proof data's inputs hold their blocks -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and each window's current staging
    buffer, whole, at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks (`before0_w`), so `sound_kernel0` applies at those
    blocks; the invariant and what the core owes pass through unread (neither changes across the body). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/- REGION 1 of @main, the normalise-and-rectify kernel on its grid of 50 points, at a parameter `V`: the contents of
   the core's buffers when the region is entered. Per window, its block at a grid point; what the body leaves in the
   output window's buffer as a function of the three input blocks; the body's triple; the pipeline's proof data and
   the body obligation at every point. -/
import proofs.«115342_j8323646619907_2_alg».proof.Proof.Gen.KernelIdeal.Launch
import proofs.«115342_j8323646619907_2_alg».proof.Proof.Gen.KernelIdeal.Skeleton
import proofs.«115342_j8323646619907_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of thousands of rows is decided by a structural
-- recursion one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything below is stated at this parameter
variable (V : (c : Dev nD) → (b : Ref sig .tc) → Buf (Elt F) ((c : Thread nD τ).loc b))

/-! ## The windows' blocks -/

/-- Window `w`'s block at grid point `t`: the sub-array of the window's array, as the region finds it (`V`),
    that the window's index map selects at `t`. For windows 0 and 3 it is a band of 10000 rows; for windows 1 and 2
    the whole 1×128 row at every point (constant index maps). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes: each is a whole staging buffer -/

/-- All of a 10000×128 buffer (a row band of the product, and of the result). -/
abbrev wholeY : Rect S10000x128 := Rect.unit (s := S10000x128) ![0, 0] S10000x128.size inb_S10000x128_S10000x128_0_0
/-- All of a 1×128 buffer (the per-column scale, and the per-column shift). -/
abbrev wholeRow : Rect S1x128 := Rect.unit (s := S1x128) ![0, 0] S1x128.size inb_S1x128_S1x128_0_0

/-! ## What the body leaves in the output window's buffer

The body reads its three input buffers whole and writes the output buffer whole exactly once; so the output
buffer ends as that store's value, a function of the three input blocks alone. -/

/-- Window 3's buffer after the body: `max (x * scale + shift) 0` over the band, the scale and the shift
    broadcast along the rows. -/
def out1_3 (x0 : Vec F S10000x128 .f32) (x1 x2 : Vec F S1x128 .f32) : Vec F S10000x128 .f32 :=
  View.canon [⟨wholeY, k1_pay1 (View.ld x0 wholeY) (View.ld x1 wholeRow) (View.ld x2 wholeRow)⟩]

/-! ## The pipeline's proof data -/

/-- The proof data of pipeline 1 on core `c`: the arrays as the region finds them (`V`); after the body at point
    `t` each input's buffer still at its block and the output's at `out1_3` of the three input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## The inputs' staging buffers hold their blocks at every point -/

/-- Input window 0's current staging buffer holds its block at every point, for ANY proof data whose array is
    `V`'s (`hA`) and whose body leaves the block in place (`hafter`): the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's: its index map is constant, so it is fetched at the first point only; at a later point the
    buffer still holds what the first fetch brought, which is the block at that point too (the index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's, likewise fetched at the first point only. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The output's single store covers its buffer -/

/-- One piece that is the whole 10000×128 buffer covers it. -/
theorem cover1_3 (p0 : Vec F S10000x128 .f32) (y : S10000x128.Idx) :
    ∃ pc ∈ ([⟨wholeY, p0⟩] : List (View.Piece (Elt F) S10000x128 .f32)), y ∈ pc.1.set :=
  View.cover_of_tiled [⟨wholeY, p0⟩] S10000x128.size (by rfl) y

/-! ## The body's triple -/

set_option maxHeartbeats 1000000 in
/-- The kernel body on whole staging memrefs — the three inputs' at read contents `x0`, `x1`, `x2`, the output's at
    anything — runs to the continuation holding the inputs' as they were and the output's at `out1_3 x0 x1 x2`. The body
    is straight-line: three whole-buffer loads, a (dead) whole-buffer load of the output and ONE whole-buffer store; a
    buffer overwritten whole by a single store reads back as that store's value. -/
theorem sound_kernel1 (c : Dev nD) (E : Set ℕ) (i : grid1.Coords)
    (arg0 : Memref sig .tc .vmem S10000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S10000x128 .f32) (harg3 : arg3.IsWhole)
    (x0 : Vec F S10000x128 .f32) (x1 x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__norm_relu_kernel i arg0 harg0 arg1 harg1 arg2 harg2 arg3 harg3) K := by
  simp only [cc1__norm_relu_kernel_eq_skeleton]; unfold cc1__norm_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data's inputs hold their blocks -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what the core owes, and each window's current staging
    buffer, whole, at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks (`before1_w`), so `sound_kernel1` applies at those
    blocks; the invariant and what the core owes pass through unread (neither changes across the body). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/- THE RUN of @main from the launch to the return: three host stretches, region 0, a host stretch, region 1.
   The contents every region leaves in the buffers it may change are given as ONE family `outs`, built from the launch
   memory alone: region 0's three output arrays hold what its pipeline's write-backs leave (its proof data at the
   contents the region is entered with), and region 1's output array likewise, its entry contents being the host
   stretch's result over region 0's. Each region is a segment between two boundary contents; chaining the segments
   gives: every weakly fair execution terminates, and at the end EVERY unscoped buffer holds the last boundary's
   contents (`run_all`); in particular the five argument arrays hold what they held at launch (`frame`). -/
import proofs.«115342_j8323646619907_2_alg».proof.Proof.KIRegion0
import proofs.«115342_j8323646619907_2_alg».proof.Proof.KIRegion1
import proofs.«115342_j8323646619907_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- What region 0 leaves: each of its arrays at what the pipeline's write-backs leave there (an input array as entered,
    an output array the fold of its 100 write-backs), the proof data taken at the contents before the region, `Gen.V3`.
    Read at any item number and any reference; only region 0's three output arrays at item 4 matter. -/
def outsA : Outs (F := F) := fun _ r c =>
  (Pipeline.withArrays spec0 c (Gen.V3 m c) fun w => (dat0 (fun c b => Gen.V3 m c b) c).arrAt w cfg0.N) (Proc.devRef .tc r)

/-- At one of region 0's arrays, `outsA` is what the pipeline leaves there. -/
theorem outsA_arr (J : ℕ) (c : Dev nD) (w : Fin cfg0.W) :
    outsA m J (Pipeline.arrRef spec0 w) c = (dat0 (fun c b => Gen.V3 m c b) c).arrAt w cfg0.N := by
  unfold outsA; exact Pipeline.withArrays_arr spec0 launch0.win.arr_inj c _ _ w

/-- What both regions leave: region 0's as `outsA`; region 1's output array (item 6) at what ITS pipeline's write-backs
    leave, the proof data taken at the contents before region 1 — the last host stretch's result over `outsA`. -/
def outs : Outs (F := F) := fun J r c =>
  if J = 6 then
    (Pipeline.withArrays spec1 c (Gen.V5 m (outsA m) c) fun w => (dat1 (fun c b => Gen.V5 m (outsA m) c b) c).arrAt w cfg1.N) (Proc.devRef .tc r)
  else outsA m J r c

/-- At item 4 the two families agree, -/
theorem outs_four : outs m 4 = outsA m 4 := rfl

/-- so the contents after region 0 are the same over either, -/
theorem V4_outs (c : Dev nD) : Gen.V4 m (outs m) c = Gen.V4 m (outsA m) c := by
  unfold Gen.V4; rw [outs_four]

/-- and so are the contents region 1 is entered with. -/
theorem V5_outs (c : Dev nD) : Gen.V5 m (outs m) c = Gen.V5 m (outsA m) c := by
  unfold Gen.V5; rw [V4_outs]

/-- The same, as the families the proof data are stated at. -/
theorem V5_outs_fun :
    @Eq ((c : Dev nD) → (b : Ref sig .tc) → Buf (Elt F) ((c : Thread nD τ).loc b))
      (fun c b => Gen.V5 m (outs m) c b) (fun c b => Gen.V5 m (outsA m) c b) :=
  funext fun c => funext fun b => by rw [V5_outs]

/-- At one of region 1's arrays, item 6 of `outs` is what the pipeline leaves there. -/
theorem outs_six_arr (c : Dev nD) (w : Fin cfg1.W) :
    outs m 6 (Pipeline.arrRef spec1 w) c = (dat1 (fun c b => Gen.V5 m (outsA m) c b) c).arrAt w cfg1.N := by
  unfold outs; rw [if_pos rfl]; exact Pipeline.withArrays_arr spec1 launch1.win.arr_inj c _ _ w

/-- Region 0 leaves in `main_v25_0` (the product `h`) what its pipeline's write-backs of window 3 leave. -/
theorem outs_h (c : Dev nD) : outs m 4 main_v25_0 c = (dat0 (fun c b => Gen.V3 m c b) c).arrAt 3 cfg0.N :=
  outsA_arr m 4 c 3
/-- Region 0 leaves in `main_v25_1` (the column sums) what its pipeline's write-backs of window 4 leave. -/
theorem outs_sum (c : Dev nD) : outs m 4 main_v25_1 c = (dat0 (fun c b => Gen.V3 m c b) c).arrAt 4 cfg0.N :=
  outsA_arr m 4 c 4
/-- Region 0 leaves in `main_v25_2` (the column sums of squares) what its pipeline's write-backs of window 5 leave. -/
theorem outs_sumsq (c : Dev nD) : outs m 4 main_v25_2 c = (dat0 (fun c b => Gen.V3 m c b) c).arrAt 5 cfg0.N :=
  outsA_arr m 4 c 5
/-- Region 1 leaves in `main_v46` (the result) what its pipeline's write-backs of window 3 leave, its proof data at
    the contents region 1 is entered with. -/
theorem outs_y (c : Dev nD) : outs m 6 main_v46 c = (dat1 (fun c b => Gen.V5 m (outs m) c b) c).arrAt 3 cfg1.N := by
  rw [V5_outs_fun]; exact outs_six_arr m c 3

/-! ## The boundary contents at the regions' arrays -/

/-- After region 0, each of its three output arrays holds `outs 4` of it (the updates are at distinct references). -/
theorem V4_v25_0 (o : Outs (F := F)) (c : Dev nD) : Gen.V4 m o c main_v25_0 = o 4 main_v25_0 c := by
  simp only [Gen.V4, Function.update_of_ne (StableHlo.devRef_ne_of_ne (by decide) : (Proc.devRef .tc main_v25_0 : DevRef τ sig) ≠ Proc.devRef .tc main_v25_2),
    Function.update_of_ne (StableHlo.devRef_ne_of_ne (by decide) : (Proc.devRef .tc main_v25_0 : DevRef τ sig) ≠ Proc.devRef .tc main_v25_1), Function.update_self]
theorem V4_v25_1 (o : Outs (F := F)) (c : Dev nD) : Gen.V4 m o c main_v25_1 = o 4 main_v25_1 c := by
  simp only [Gen.V4, Function.update_of_ne (StableHlo.devRef_ne_of_ne (by decide) : (Proc.devRef .tc main_v25_1 : DevRef τ sig) ≠ Proc.devRef .tc main_v25_2),
    Function.update_self]
theorem V4_v25_2 (o : Outs (F := F)) (c : Dev nD) : Gen.V4 m o c main_v25_2 = o 4 main_v25_2 c := by
  simp only [Gen.V4, Function.update_self]
/-- After region 1, its output array holds `outs 6` of it. -/
theorem V6_v46 (o : Outs (F := F)) (c : Dev nD) : Gen.V6 m o c main_v46 = o 6 main_v46 c := by
  simp only [Gen.V6, Function.update_self]

/-- Region 0's exit: each of its arrays holds what the pipeline leaves (an input array is unchanged and no update
    touches it; an output array is `outs 4` of it), -/
theorem hF0 (c : Dev nD) (w : Fin cfg0.W) :
    (dat0 (fun c b => Gen.V3 m c b) c).arrAt w cfg0.N = Gen.V4 m (outs m) c (Pipeline.arrRef spec0 w) := by
  fin_cases w
  · exact (((dat0 (fun c b => Gen.V3 m c b) c).arrAt_in 0 rfl _).trans (A_eq0 _ c 0)).trans (Gen.V4_of m (outs m) c main_arg0 (by decide)).symm
  · exact (((dat0 (fun c b => Gen.V3 m c b) c).arrAt_in 1 rfl _).trans (A_eq0 _ c 1)).trans (Gen.V4_of m (outs m) c main_v8 (by decide)).symm
  · exact (((dat0 (fun c b => Gen.V3 m c b) c).arrAt_in 2 rfl _).trans (A_eq0 _ c 2)).trans (Gen.V4_of m (outs m) c main_v24 (by decide)).symm
  · exact ((V4_v25_0 m (outs m) c).trans (outs_h m c)).symm
  · exact ((V4_v25_1 m (outs m) c).trans (outs_sum m c)).symm
  · exact ((V4_v25_2 m (outs m) c).trans (outs_sumsq m c)).symm

/-- and every other buffer what it held at entry. -/
theorem hrest0 (c : Dev nD) : ∀ b, b ∉ Finset.univ.image (Pipeline.arrRef spec0) → Gen.V4 m (outs m) c b = Gen.V3 m c b :=
  fun b hb => Gen.V4_of m (outs m) c b fun h => hb (by
    rcases List.mem_cons.mp h with rfl | h
    · exact Finset.mem_image.mpr ⟨3, Finset.mem_univ _, rfl⟩
    rcases List.mem_cons.mp h with rfl | h
    · exact Finset.mem_image.mpr ⟨4, Finset.mem_univ _, rfl⟩
    rcases List.mem_cons.mp h with rfl | h
    · exact Finset.mem_image.mpr ⟨5, Finset.mem_univ _, rfl⟩
    exact absurd h (List.not_mem_nil))

/-- Region 1's exit, likewise: its input arrays as entered, its output array `outs 6` of it, -/
theorem hF1 (c : Dev nD) (w : Fin cfg1.W) :
    (dat1 (fun c b => Gen.V5 m (outsA m) c b) c).arrAt w cfg1.N = Gen.V6 m (outs m) c (Pipeline.arrRef spec1 w) := by
  fin_cases w
  · exact (((dat1 (fun c b => Gen.V5 m (outsA m) c b) c).arrAt_in 0 rfl _).trans (A_eq1 _ c 0)).trans
      (((Gen.V6_of m (outs m) c main_v25_0 (by decide)).trans (congrFun (V5_outs m c) _)).symm)
  · exact (((dat1 (fun c b => Gen.V5 m (outsA m) c b) c).arrAt_in 1 rfl _).trans (A_eq1 _ c 1)).trans
      (((Gen.V6_of m (outs m) c main_v44 (by decide)).trans (congrFun (V5_outs m c) _)).symm)
  · exact (((dat1 (fun c b => Gen.V5 m (outsA m) c b) c).arrAt_in 2 rfl _).trans (A_eq1 _ c 2)).trans
      (((Gen.V6_of m (outs m) c main_v45 (by decide)).trans (congrFun (V5_outs m c) _)).symm)
  · exact ((V6_v46 m (outs m) c).trans (outs_six_arr m c 3)).symm

/-- and every other buffer what it held at entry. -/
theorem hrest1 (c : Dev nD) : ∀ b, b ∉ Finset.univ.image (Pipeline.arrRef spec1) → Gen.V6 m (outs m) c b = Gen.V5 m (outsA m) c b :=
  fun b hb => (Gen.V6_of m (outs m) c b fun h => hb (by
    rcases List.mem_cons.mp h with rfl | h
    · exact Finset.mem_image.mpr ⟨3, Finset.mem_univ _, rfl⟩
    exact absurd h (List.not_mem_nil))).trans (congrFun (V5_outs m c) _)

/-! ## The proof data family and what rides beside the buffers -/

/-- Every pipeline's proof data, each at the contents its region is entered with. -/
def pdats : (p : Fin 2) → (c : Dev nD) → Dat τ (Elt F) Unit ℕ (UR sig nD τ) ℕ (cfgs p) c
  | ⟨0, _⟩ => fun c => dat0 (fun c b => Gen.V3 m c b) c
  | ⟨1, _⟩ => fun c => dat1 (fun c b => Gen.V5 m (outsA m) c b) c

/-- No core owes another anything: no pair is assigned a level. -/
abbrev L₀ : GSem nD τ sig → Finset Unit := fun _ => ∅
abbrev lv₀ : GSem nD τ sig → Unit → ℕ := fun _ _ => 0

/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- The same at each of the three places the segments name. -/
abbrev E₀ : Fin 3 → Dev nD → sProp 𝕄 := fun _ c => R (F := F) c

theorem R_owes (c : Dev nD) : R (F := F) c ⊢ (iprop(∃ W, owes (c : Thread nD τ) (0 : CellTallies nD τ sig Unit) W) : sProp 𝕄) := by
  iintro ⟨-, H⟩; iexact H

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 between the contents `Gen.V3` and `Gen.V4 (outs)`: its arrays are split out of the unscoped buffers at
    entry and put back at what the pipeline leaves at exit (`hF0`, `hrest0`); the generator register goes into the
    invariant and comes back; nothing is owed; the kernel has no semaphore of its own. -/
def reg0 : RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (fun c b => Gen.V3 m c b) c).loose
  hwaits := Pipeline.hwaits_of_owed_zero _ _ _ _ L₀ lv₀ 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => Gen.V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => Gen.V3 m c b) (fun b => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 between the contents `Gen.V5` and `Gen.V6 (outs)`, in the same way (`hF1`, `hrest1`); it is entered at
    `Gen.V5` over `outsA`, which is `Gen.V5` over `outs` (`V5_outs`). -/
def reg1 : RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (fun c b => Gen.V5 m (outsA m) c b) c).loose
  hwaits := Pipeline.hwaits_of_owed_zero _ _ _ _ L₀ lv₀ 1 fun _ _ => rfl
  pre c := iprop(StableHlo.held (c : Thread nD τ) (Pipeline.ucRefs τ sig) (Gen.V5 m (outsA m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V5 m (outsA m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => Gen.V5 m (outsA m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Gen.V5 m (outsA m) c b) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state the last host stretch leaves — the buffers at `Gen.V5` over `outs` — is the one region 1 is
    entered from, the two families agreeing at item 4. -/
theorem hpre1 (c : Dev nD) :
    (iprop(StableHlo.held (c : Thread nD τ) (Pipeline.ucRefs τ sig) (Gen.V5 m (outs m) c) ∗ R c) : sProp 𝕄) ⊢ (reg1 m).pre c := by
  rw [V5_outs]; exact .rfl

/-! ## The launch -/

set_option backward.isDefEq.respectTransparency.types false in
/-- Every weakly fair execution of @main from memory `m` with zero counters terminates, and at the end every unscoped
    buffer of every core holds the last boundary's contents `Gen.V6 m (outs m)`: @main is the chain of its six items;
    each host stretch is a segment from its boundary's contents to the next; the regions are `reg0`, `reg1`; the
    thread states chain by name (region 1's entry through `V5_outs`); the launch deals each core its buffers at the
    launch memory, its generator register and nothing owed; the last thread state is read against the final memory. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V6 m (outs m) c b) := by
  refine Pipeline.θ_run_regions_kit_dev (pcfgs (F := F)) adm (pdats m) () cellOf_inj emb₁ defs₀ Variants.none L₀ lv₀ m ρ main
    (segs m (outs m) Variants.none L₀ lv₀ E₀ () (pdats m) (reg0 m) (reg1 m))
    (fun c Q => by
      rewrite [main_chain c, Seg.run_eq_chain,
        show (segs m (outs m) Variants.none L₀ lv₀ E₀ () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, hpre1 m c, sep_mono .rfl (R_owes c)⟩)
    (hinit := by
      refine Pipeline.initEach L₀ lv₀ fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V6 m (outs m) c b)
    (hfin := fun c s' => by
      iintro ⟨Hh, HSI⟩
      unfold StableHlo.held
      imodintro
      iapply (pointsTo_read_all (Pipeline.ucRefs τ sig) (fun b => ((c : Thread nD τ).1, b)) (Gen.V6 m (outs m) c) s')
      isplitl [Hh] <;> iassumption)
    (hQ := fun s h c => h c)

/-- THE FRAME: every weakly fair execution of @main terminates and every final memory holds each of the five argument
    arrays as launched: no host stretch writes an argument and no region may change one, so the last boundary's
    contents at an argument walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (Gen.V6_main_arg0 m (outs m) c),
     (h c _ (mem_uc main_arg1 (by decide))).trans (Gen.V6_main_arg1 m (outs m) c),
     (h c _ (mem_uc main_arg2 (by decide))).trans (Gen.V6_main_arg2 m (outs m) c),
     (h c _ (mem_uc main_arg3 (by decide))).trans (Gen.V6_main_arg3 m (outs m) c),
     (h c _ (mem_uc main_arg4 (by decide))).trans (Gen.V6_main_arg4 m (outs m) c)⟩) (run_all m ρ)

end Cert.KernelIdeal.Hand

end
-- ==== Proof.KLayerRow.lean ====
/-
  The body of the first kernel, read at an index. Its block of 5000 edges goes through the linear layer as five
  products of 64 features each — the edge's own features, then the entrywise smaller and larger of its first two
  neighbours' rows, then of its last two — added left to right; the block's column sums of the result and of its
  squares are then spread over the eight rows of the two partial-sum tiles.
-/
import proofs.«115342_j8323646619907_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-- The record of the kernel's five products: [5000, 64] times [64, 128]. -/
abbrev D := dot_S5000x64_S64x128_S5000x128_1_0_0_1_n_n

theorem lhs_D_0 (i : S5000x128.Idx) (q : D.contr.Idx) : (D.lhsIdx i q 0).val = (i 0).val := by
  unfold DotDims.lhsIdx
  rw [dif_neg (show ¬(0 : Fin S5000x64.rank) ∈ D.lhsBatch by decide), dif_pos (show (0 : Fin S5000x64.rank) ∈ D.lhsNonContracting by decide)]
  rfl
theorem lhs_D_1 (i : S5000x128.Idx) (q : D.contr.Idx) : (D.lhsIdx i q 1).val = (q ⟨0, by decide⟩).val :=
  D.lhsIdx_val_of_single rfl i q
theorem rhs_D_0 (i : S5000x128.Idx) (q : D.contr.Idx) : (D.rhsIdx i q 0).val = (q ⟨0, by decide⟩).val :=
  D.rhsIdx_val_of_single rfl i q
theorem rhs_D_1 (i : S5000x128.Idx) (q : D.contr.Idx) : (D.rhsIdx i q 1).val = (i 1).val := by
  unfold DotDims.rhsIdx
  rw [dif_neg (show ¬(1 : Fin S64x128.rank) ∈ D.rhsBatch by decide), dif_pos (show (1 : Fin S64x128.rank) ∈ D.rhsNonContracting by decide)]
  rfl

/-- One product into the zero accumulator, at row `r` and channel `o`: the sum over the 64 features. -/
theorem product_apply {φ₁ φ₂ : FTy} (l : FVec Ideal S5000x64 φ₁) (w : FVec Ideal S64x128 φ₂) (r : Fin 5000) (o : Fin 128) :
    matmul D none l w (constant S5000x128 .f32 0x00000000#32) (ix2 r o) = ∑ k : Fin 64, l (ix2 r k) * w (ix2 k o) := by
  show FloatOps.matmul D none l w (constant S5000x128 .f32 0x00000000#32) (ix2 r o) = _
  rw [Ideal.matmul_constant_zero_apply, ← Equiv.sum_comp (ValueIdx.contrEquiv1 D 64 rfl rfl).symm]
  refine Finset.sum_congr rfl fun k _ => ?_
  have hk := ValueIdx.contrEquiv1_symm_val D 64 rfl rfl k
  have el : D.lhsIdx (ix2 r o) ((ValueIdx.contrEquiv1 D 64 rfl rfl).symm k) = ix2 r k := funext fun a => Fin.ext (by
    match a with
    | ⟨0, _⟩ => exact lhs_D_0 _ _
    | ⟨1, _⟩ => exact (lhs_D_1 _ _).trans hk)
  have er : D.rhsIdx (ix2 r o) ((ValueIdx.contrEquiv1 D 64 rfl rfl).symm k) = ix2 k o := funext fun a => Fin.ext (by
    match a with
    | ⟨0, _⟩ => exact (rhs_D_0 _ _).trans hk
    | ⟨1, _⟩ => exact rhs_D_1 _ _)
  rw [el, er]

/-- The five groups of features of one edge, from its own row and the row of its four neighbours' features laid side
    by side (neighbour `q` at columns `64 q … 64 q + 63`). -/
def rowFeat (xr : Fin 64 → EReal) (nr : Fin 256 → EReal) : Fin 5 → Fin 64 → EReal
  | 0, j => xr j
  | 1, j => min (nr ⟨j.val, by omega⟩) (nr ⟨64 + j.val, by omega⟩)
  | 2, j => max (nr ⟨j.val, by omega⟩) (nr ⟨64 + j.val, by omega⟩)
  | 3, j => min (nr ⟨128 + j.val, by omega⟩) (nr ⟨192 + j.val, by omega⟩)
  | 4, j => max (nr ⟨128 + j.val, by omega⟩) (nr ⟨192 + j.val, by omega⟩)

/-! ## The layer at an index -/

/-- A column slice of the neighbours' block, 64 columns from column `c₀`, at `(r, k)`: the block at column `c₀ + k`. -/
theorem nslice_apply (c₀ : Nat) (x1 : FVec Ideal S5000x256 .f32) (h : S5000x256.Slices ![0, c₀] S5000x64)
    (r : Fin 5000) (k : Fin 64) (kk : Fin 256) (hkk : kk.val = c₀ + k.val) :
    extractStridedSlice S5000x64 ![0, c₀] x1 h (ix2 r k) = x1 (ix2 r kk) :=
  extractStridedSlice_apply ![0, c₀] x1 h (ix2 r k) (ix2 r kk) (fun a => by
    match a with
    | ⟨0, _⟩ => show r.val = 0 + r.val; omega
    | ⟨1, _⟩ => exact hkk)

/-- One slab of the stacked weights, recast as a matrix: slab `p` at `(k, o)`. -/
theorem wslab_apply (p : Fin 5) (x2 : FVec Ideal S5x64x128 .bf16) (h : S5x64x128.Slices ![p.val, 0, 0] S1x64x128)
    (hc : S1x64x128.ShapeCasts S64x128) (k : Fin 64) (o : Fin 128) :
    shapeCast S64x128 (extractStridedSlice S1x64x128 ![p.val, 0, 0] x2 h) hc (ix2 k o) = x2 (ix3 p k o) := by
  rw [shapeCast_1ab_ab_apply]
  exact extractStridedSlice_apply ![p.val, 0, 0] x2 h (ix3 (0 : Fin 1) k o) (ix3 p k o) (fun a => by
    match a with
    | ⟨0, _⟩ => rfl
    | ⟨1, _⟩ => show k.val = 0 + k.val; omega
    | ⟨2, _⟩ => show o.val = 0 + o.val; omega)

/-- THE LAYER of the block at row `r`, channel `o`: the five groups of the row's features against the five slabs. -/
theorem layer_apply (x0 : Vec Ideal S5000x64 .f32) (x1 : Vec Ideal S5000x256 .f32) (x2 : Vec Ideal S5x64x128 .f32)
    (r : Fin 5000) (o : Fin 128) :
    k0_pay3 x0 x1 x2 (ix2 r o)
      = ∑ p : Fin 5, ∑ j : Fin 64, rowFeat (fun k => x0 (ix2 r k)) (fun k => x1 (ix2 r k)) p j * x2 (ix3 p j o) := by
  rw [Fin.sum_univ_five]
  unfold k0_pay3
  simp only [shapeCast_self, addf_apply, product_apply]
  have W : ∀ (p : Fin 5) (h : S5x64x128.Slices ![p.val, 0, 0] S1x64x128) (hc : S1x64x128.ShapeCasts S64x128) (k : Fin 64),
      shapeCast S64x128 (extractStridedSlice S1x64x128 ![p.val, 0, 0]
          (truncf (F := Ideal) .bf16 x2 bitsLt_bf16_f32 : FVec Ideal S5x64x128 .bf16) h) hc (ix2 k o)
        = x2 (ix3 p k o) := fun p h hc k =>
    wslab_apply p (truncf (F := Ideal) .bf16 x2 bitsLt_bf16_f32 : FVec Ideal S5x64x128 .bf16) h hc k o
  refine congrArg₂ (· + ·) (congrArg₂ (· + ·) (congrArg₂ (· + ·) (congrArg₂ (· + ·) ?_ ?_) ?_) ?_) ?_
    <;> refine Finset.sum_congr rfl fun k _ => ?_
  · exact congrArg (x0 (ix2 r k) * ·) (W 0 _ _ k)
  · exact congrArg₂ (· * ·) (congrArg₂ min (nslice_apply 0 x1 _ r k ⟨k.val, by omega⟩ (Nat.zero_add _).symm)
      (nslice_apply 64 x1 _ r k ⟨64 + k.val, by omega⟩ rfl)) (W 1 _ _ k)
  · exact congrArg₂ (· * ·) (congrArg₂ max (nslice_apply 0 x1 _ r k ⟨k.val, by omega⟩ (Nat.zero_add _).symm)
      (nslice_apply 64 x1 _ r k ⟨64 + k.val, by omega⟩ rfl)) (W 2 _ _ k)
  · exact congrArg₂ (· * ·) (congrArg₂ min (nslice_apply 128 x1 _ r k ⟨128 + k.val, by omega⟩ rfl)
      (nslice_apply 192 x1 _ r k ⟨192 + k.val, by omega⟩ rfl)) (W 3 _ _ k)
  · exact congrArg₂ (· * ·) (congrArg₂ max (nslice_apply 128 x1 _ r k ⟨128 + k.val, by omega⟩ rfl)
      (nslice_apply 192 x1 _ r k ⟨192 + k.val, by omega⟩ rfl)) (W 4 _ _ k)

/-! ## The two tiles of partial sums -/

/-- A row `[1, 128]` recast to `[1, 1, 128]` and spread over the eight rows of a tile, at `(u, s, o)`: the row at `o`. -/
theorem tile_apply (v : FVec Ideal S1x128 .f32) (u : Fin 1) (s : Fin 8) (o : Fin 128) :
    broadcastTo S1x8x128 (shapeCast S1x1x128 v shapeCasts_S1x128_S1x1x128) broadcasts_S1x1x128_S1x8x128 (ix3 u s o)
      = v (ix2 (0 : Fin 1) o) := by
  refine (broadcastTo_apply _ _ (ix3 u s o) (ix3 (0 : Fin 1) (0 : Fin 1) o) (fun a => by
    match a with
    | ⟨0, _⟩ => rfl
    | ⟨1, _⟩ => rfl
    | ⟨2, _⟩ => rfl)).trans ?_
  exact shapeCast_ab_1ab_apply v _ (0 : Fin 1) (0 : Fin 1) o

/-- The sum of a `[5000, 128]` block down its rows, as a row `[1, 128]`, at channel `o`. -/
theorem colsum_row_apply (src : FVec Ideal S5000x128 .f32) (hacc : (0x00000000#32 : BitVec 32) = 0x00000000#32) (o : Fin 128) :
    shapeCast S1x128 (multiReduction .add [0] S128 src 0x00000000#32 reduces_S5000x128_S128 (.inl rfl) hacc)
        shapeCasts_S128_S1x128 (ix2 (0 : Fin 1) o)
      = ∑ r : Fin 5000, src (ix2 r o) := by
  refine (shapeCast_a_1a_apply _ _ (0 : Fin 1) o).trans ?_
  refine (Ideal.multiReduction_add_single src 0x00000000#32 reduces_S5000x128_S128 (.inl rfl) hacc (ix1 o)).trans ?_
  refine Finset.sum_congr rfl fun k _ => ?_
  exact congrArg src (funext fun a => Fin.ext (by match a with | ⟨0, _⟩ => rfl | ⟨1, _⟩ => rfl))

/-- THE FIRST TILE: every row of it holds the block's column sums of the layer. -/
theorem colsum_apply (x0 : Vec Ideal S5000x64 .f32) (x1 : Vec Ideal S5000x256 .f32) (x2 : Vec Ideal S5x64x128 .f32)
    (u : Fin 1) (s : Fin 8) (o : Fin 128) :
    k0_pay1 (k0_pay4 x0 x1 x2) (ix3 u s o) = ∑ r : Fin 5000, k0_pay3 x0 x1 x2 (ix2 r o) := by
  unfold k0_pay1 k0_pay4
  simp only [shapeCast_self]
  exact (tile_apply _ u s o).trans (colsum_row_apply _ rfl o)

/-- THE SECOND TILE: every row of it holds the block's column sums of the layer's squares. -/
theorem colsumsq_apply (x0 : Vec Ideal S5000x64 .f32) (x1 : Vec Ideal S5000x256 .f32) (x2 : Vec Ideal S5x64x128 .f32)
    (u : Fin 1) (s : Fin 8) (o : Fin 128) :
    k0_pay2 (k0_pay5 x0 x1 x2) (ix3 u s o)
      = ∑ r : Fin 5000, k0_pay3 x0 x1 x2 (ix2 r o) * k0_pay3 x0 x1 x2 (ix2 r o) := by
  unfold k0_pay2 k0_pay5
  simp only [shapeCast_self]
  exact (tile_apply _ u s o).trans (colsum_row_apply _ rfl o)

end Cert.KernelIdeal.Val

end
-- ==== Proof.KLayerArr.lean ====
/-
  What the first kernel leaves in its three output arrays, each as ONE function of the arrays the region finds. Grid
  point `t` handles edges `5000 t … 5000 t + 4999`: block `t` of the layer's array is the layer of those rows (every row
  against the same five slabs of weights, seen whole at every point), and tile `t` of each partial-sum array holds, in
  each of its eight rows, the block's column sums of the layer and of its squares. The hundred blocks tile the edges and
  the hundred tiles tile the partial-sum arrays.
-/
import proofs.«115342_j8323646619907_2_alg».proof.Proof.KIRegion0
import proofs.«115342_j8323646619907_2_alg».proof.Proof.KLayerRow
import Idealize.ShloMosaic.Lib.Pipeline.Value

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl
theorem hz3 : (![0, 0, 0] : Fin 3 → Nat) = fun _ => 0 := funext fun a => by fin_cases a <;> rfl

/-- One row through the layer: the five groups of its features against the five slabs' column `o`. -/
def rowLayer (xr : Fin 64 → EReal) (nr : Fin 256 → EReal) (w : Fin 5 → Fin 64 → EReal) : EReal :=
  ∑ p : Fin 5, ∑ j : Fin 64, rowFeat xr nr p j * w p j

theorem layer_row (x0 : Vec Ideal S5000x64 .f32) (x1 : Vec Ideal S5000x256 .f32) (x2 : Vec Ideal S5x64x128 .f32)
    (r : Fin 5000) (o : Fin 128) :
    k0_pay3 x0 x1 x2 (ix2 r o)
      = rowLayer (fun k => x0 (ix2 r k)) (fun k => x1 (ix2 r k)) (fun p j => x2 (ix3 p j o)) :=
  layer_apply x0 x1 x2 r o

/-- The layer's array: edge `e`'s row of `X` and of `N` through the layer, channel `o`. -/
def layerAt (X : S500000x64.Idx → EReal) (N : S500000x256.Idx → EReal) (W : S5x64x128.Idx → EReal)
    (e : Fin 500000) (o : Fin 128) : EReal :=
  rowLayer (fun k => X (ix2 e k)) (fun k => N (ix2 e k)) (fun p j => W (ix3 p j o))

def layerArr (X : S500000x64.Idx → EReal) (N : S500000x256.Idx → EReal) (W : S5x64x128.Idx → EReal) :
    S500000x128.Idx → EReal :=
  fun i => layerAt X N W ⟨(i 0).val, (i 0).isLt⟩ ⟨(i 1).val, (i 1).isLt⟩

/-- Row `r` of block `b` is an edge. -/
theorem edge_lt {b : Nat} (hb : b < 100) (r : Fin 5000) : 5000 * b + r.val < 500000 := by omega

/-- The partial-sum array of a `[500000, 128]` array `Y`: tile `b`, any of its eight rows, channel `o` holds the sum of
    block `b`'s 5000 rows of `Y` at `o`. -/
def blockSums (Y : Fin 500000 → Fin 128 → EReal) : S100x8x128.Idx → EReal :=
  fun i => ∑ r : Fin 5000, Y ⟨5000 * (i 0).val + r.val, edge_lt (i 0).isLt r⟩ ⟨(i 2).val, (i 2).isLt⟩

/-- The printed index maps over the grid: one block of edges per point, the same on every row-blocked window; the
    slabs stay at their one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

theorem point_lt (t : Fin cfg0.N) : t.val < 100 := lt_of_lt_of_eq t.isLt N_0

/-- THE BLOCK: at point `t`, row `r` of the layer of the three input blocks is edge `5000 t + r` through the layer of the
    arrays the region finds. -/
theorem block_layer (c : Dev nD) (t : Fin cfg0.N) (r : Fin 5000) (o : Fin 128) :
    k0_pay3 (iblk0 V c 0 t) (iblk0 V c 1 t) (iblk0 V c 2 t) (ix2 r o)
      = layerAt (V c main_arg0) (V c main_v8) (V c main_v24) ⟨5000 * t.val + r.val, edge_lt (point_lt t) r⟩ o := by
  obtain ⟨e0, e1, e2, e3, e4, e5, e6, e7, e8, e9, e10, e11, e12, e13, e14⟩ := idx_facts0 t
  refine (layer_row (iblk0 V c 0 t) (iblk0 V c 1 t) (iblk0 V c 2 t) r o).trans ?_
  unfold layerAt
  have hx : (fun k : Fin 64 => iblk0 V c 0 t (ix2 r k))
      = fun k : Fin 64 => V c main_arg0 (ix2 (⟨5000 * t.val + r.val, edge_lt (point_lt t) r⟩ : Fin 500000) k) :=
    funext fun k => by
      show V c main_arg0 (((cfg0.win 0).blk t).view.emb (ix2 r k)) = _
      refine congrArg (V c main_arg0) (funext fun a => Fin.ext ?_)
      match a with
      | ⟨0, _⟩ => show win0_0.index t (0 : Fin 2) * 5000 + 1 * r.val = 5000 * t.val + r.val; omega
      | ⟨1, _⟩ => show win0_0.index t (1 : Fin 2) * 64 + 1 * k.val = k.val; omega
  have hn : (fun k : Fin 256 => iblk0 V c 1 t (ix2 r k))
      = fun k : Fin 256 => V c main_v8 (ix2 (⟨5000 * t.val + r.val, edge_lt (point_lt t) r⟩ : Fin 500000) k) :=
    funext fun k => by
      show V c main_v8 (((cfg0.win 1).blk t).view.emb (ix2 r k)) = _
      refine congrArg (V c main_v8) (funext fun a => Fin.ext ?_)
      match a with
      | ⟨0, _⟩ => show win0_1.index t (0 : Fin 2) * 5000 + 1 * r.val = 5000 * t.val + r.val; omega
      | ⟨1, _⟩ => show win0_1.index t (1 : Fin 2) * 256 + 1 * k.val = k.val; omega
  have hw : (fun (p : Fin 5) (j : Fin 64) => iblk0 V c 2 t (ix3 p j o))
      = fun (p : Fin 5) (j : Fin 64) => V c main_v24 (ix3 p j o) :=
    funext fun p => funext fun j => by
      show V c main_v24 (((cfg0.win 2).blk t).view.emb (ix3 p j o)) = _
      refine congrArg (V c main_v24) (funext fun a => Fin.ext ?_)
      match a with
      | ⟨0, _⟩ => show win0_2.index t (0 : Fin 3) * 5 + 1 * p.val = p.val; omega
      | ⟨1, _⟩ => show win0_2.index t (1 : Fin 3) * 64 + 1 * j.val = j.val; omega
      | ⟨2, _⟩ => show win0_2.index t (2 : Fin 3) * 128 + 1 * o.val = o.val; omega
  exact congr (congr (congrArg rowLayer hx) hn) hw

/-! ## The layer's array -/

/-- WHAT POINT `t` WRITES BACK to the layer's array is block `t` of the layer of the arrays the region finds. -/
theorem flushed_layer (c : Dev nD) (t : Fin cfg0.N) :
    (dat0 V c).flushed 3 t
      = ((cfg0.win 3).blk t).view.read (Elt Ideal) (layerArr (V c main_arg0) (V c main_v8) (V c main_v24)) := by
  show (cfg0.win 3).cut (grid0.coords t) ((dat0 V c).after 3 t) = _
  rw [after0_3]
  unfold out0_3
  rw [View.canon_unit_zero hz2']
  simp only [View.ld_unit_zero (S := S5000x64) hz2', View.ld_unit_zero (S := S5000x256) hz2',
    View.ld_unit_zero (S := S5x64x128) hz3]
  obtain ⟨e0, e1, e2, e3, e4, e5, e6, e7, e8, e9, e10, e11, e12, e13, e14⟩ := idx_facts0 t
  refine funext fun (j : S5000x128.Idx) => ?_
  obtain ⟨r, o, rfl⟩ : ∃ (r : Fin 5000) (o : Fin 128), j = ix2 r o := ⟨j 0, j 1, eq_ix2 j⟩
  refine (block_layer V c t r o).trans ?_
  show _ = layerAt (V c main_arg0) (V c main_v8) (V c main_v24)
    ⟨((((cfg0.win 3).blk t).view.emb (ix2 r o)) 0).val, ((((cfg0.win 3).blk t).view.emb (ix2 r o)) 0).isLt⟩
    ⟨((((cfg0.win 3).blk t).view.emb (ix2 r o)) 1).val, ((((cfg0.win 3).blk t).view.emb (ix2 r o)) 1).isLt⟩
  have he : (⟨5000 * t.val + r.val, edge_lt (point_lt t) r⟩ : Fin 500000)
      = ⟨((((cfg0.win 3).blk t).view.emb (ix2 r o)) 0).val, ((((cfg0.win 3).blk t).view.emb (ix2 r o)) 0).isLt⟩ :=
    Fin.ext (by show 5000 * t.val + r.val = win0_3.index t (0 : Fin 2) * 5000 + 1 * r.val; omega)
  have ho : o = (⟨((((cfg0.win 3).blk t).view.emb (ix2 r o)) 1).val, ((((cfg0.win 3).blk t).view.emb (ix2 r o)) 1).isLt⟩ : Fin 128) :=
    Fin.ext (by show o.val = win0_3.index t (1 : Fin 2) * 128 + 1 * o.val; omega)
  exact congrArg₂ (layerAt (V c main_arg0) (V c main_v8) (V c main_v24)) he ho

theorem mem_block (t : Fin cfg0.N) (i : S500000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v25_0).slice (win0_3.rect t)).set ↔ _
  rw [View.set_slice_whole, Rect.mem_set_unit]
  exact Iff.rfl

/-- The hundred blocks tile the edges: edge `e` is in block `e / 5000`. -/
theorem cover_layer (i : S500000x128.Idx) : ∃ t : Fin cfg0.N, (cfg0.win 3).flush t = true ∧ i ∈ ((cfg0.win 3).blk t).view.set := by
  have hi0 : (i 0).val < 500000 := (i 0).isLt
  have hi1 : (i 1).val < 128 := (i 1).isLt
  have hN : cfg0.N = 100 := N_0
  let t : Fin cfg0.N := ⟨(i 0).val / 5000, by rw [hN]; omega⟩
  obtain ⟨e0, e1, e2, e3, e4, e5, e6, e7, e8, e9, e10, e11, e12, e13, e14⟩ := idx_facts0 t
  have ht : t.val = (i 0).val / 5000 := rfl
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE LAYER'S ARRAY after the region. -/
theorem final_layer (c : Dev nD) :
    (dat0 V c).arrAt 3 cfg0.N = layerArr (V c main_arg0) (V c main_v8) (V c main_v24) :=
  (dat0 V c).arrAt_eq_of_cover 3 _ (fun t _ => flushed_layer V c t) cover_layer

/-! ## The two partial-sum arrays -/

/-- A tile of partial sums at point `t`, from the block's column sums of any per-entry function `g` of the layer:
    tile `t`, channel `o` holds the sum over the block's rows. Used with `g` the identity and the square. -/
theorem tile_sums (t : Fin cfg0.N)
    (Y : Fin 500000 → Fin 128 → EReal) (pay : S1x8x128.Idx → EReal)
    (hpay : ∀ (u : Fin 1) (s : Fin 8) (o : Fin 128),
      pay (ix3 u s o) = ∑ r : Fin 5000, Y ⟨5000 * t.val + r.val, edge_lt (point_lt t) r⟩ o)
    (u : Fin 1) (s : Fin 8) (o : Fin 128) (e : S100x8x128.Idx)
    (he0 : (e 0).val = t.val) (he2 : (e 2).val = o.val) :
    pay (ix3 u s o) = blockSums Y e := by
  rw [hpay u s o]
  unfold blockSums
  refine Finset.sum_congr rfl fun r _ => ?_
  exact congrArg₂ Y (Fin.ext (by show 5000 * t.val + r.val = 5000 * (e 0).val + r.val; omega)) (Fin.ext he2.symm)

theorem flushed_sum (c : Dev nD) (t : Fin cfg0.N) :
    (dat0 V c).flushed 4 t
      = ((cfg0.win 4).blk t).view.read (Elt Ideal) (blockSums (layerAt (V c main_arg0) (V c main_v8) (V c main_v24))) := by
  show (cfg0.win 4).cut (grid0.coords t) ((dat0 V c).after 4 t) = _
  rw [after0_4]
  unfold out0_4
  rw [View.canon_unit_zero hz3]
  simp only [View.ld_unit_zero (S := S5000x64) hz2', View.ld_unit_zero (S := S5000x256) hz2',
    View.ld_unit_zero (S := S5x64x128) hz3]
  obtain ⟨e0, e1, e2, e3, e4, e5, e6, e7, e8, e9, e10, e11, e12, e13, e14⟩ := idx_facts0 t
  refine funext fun (j : S1x8x128.Idx) => ?_
  obtain ⟨u, s, o, rfl⟩ : ∃ (u : Fin 1) (s : Fin 8) (o : Fin 128), j = ix3 u s o := ⟨j 0, j 1, j 2, eq_ix3 j⟩
  refine tile_sums t (layerAt (V c main_arg0) (V c main_v8) (V c main_v24))
    (k0_pay1 (k0_pay4 (iblk0 V c 0 t) (iblk0 V c 1 t) (iblk0 V c 2 t))) (fun u s o => ?_) u s o (((cfg0.win 4).blk t).view.emb (ix3 u s o)) ?_ ?_
  · refine (colsum_apply (iblk0 V c 0 t) (iblk0 V c 1 t) (iblk0 V c 2 t) u s o).trans ?_
    exact Finset.sum_congr rfl fun r _ => block_layer V c t r o
  · show win0_4.index t (0 : Fin 3) * 1 + 1 * u.val = t.val; omega
  · show win0_4.index t (2 : Fin 3) * 128 + 1 * o.val = o.val; omega

theorem flushed_sumsq (c : Dev nD) (t : Fin cfg0.N) :
    (dat0 V c).flushed 5 t
      = ((cfg0.win 5).blk t).view.read (Elt Ideal) (blockSums fun e o =>
          layerAt (V c main_arg0) (V c main_v8) (V c main_v24) e o * layerAt (V c main_arg0) (V c main_v8) (V c main_v24) e o) := by
  show (cfg0.win 5).cut (grid0.coords t) ((dat0 V c).after 5 t) = _
  rw [after0_5]
  unfold out0_5
  rw [View.canon_unit_zero hz3]
  simp only [View.ld_unit_zero (S := S5000x64) hz2', View.ld_unit_zero (S := S5000x256) hz2',
    View.ld_unit_zero (S := S5x64x128) hz3]
  obtain ⟨e0, e1, e2, e3, e4, e5, e6, e7, e8, e9, e10, e11, e12, e13, e14⟩ := idx_facts0 t
  refine funext fun (j : S1x8x128.Idx) => ?_
  obtain ⟨u, s, o, rfl⟩ : ∃ (u : Fin 1) (s : Fin 8) (o : Fin 128), j = ix3 u s o := ⟨j 0, j 1, j 2, eq_ix3 j⟩
  refine tile_sums t (fun e o => layerAt (V c main_arg0) (V c main_v8) (V c main_v24) e o * layerAt (V c main_arg0) (V c main_v8) (V c main_v24) e o)
    (k0_pay2 (k0_pay5 (iblk0 V c 0 t) (iblk0 V c 1 t) (iblk0 V c 2 t))) (fun u s o => ?_) u s o (((cfg0.win 5).blk t).view.emb (ix3 u s o)) ?_ ?_
  · refine (colsumsq_apply (iblk0 V c 0 t) (iblk0 V c 1 t) (iblk0 V c 2 t) u s o).trans ?_
    exact Finset.sum_congr rfl fun r _ => congrArg₂ (· * ·) (block_layer V c t r o) (block_layer V c t r o)
  · show win0_5.index t (0 : Fin 3) * 1 + 1 * u.val = t.val; omega
  · show win0_5.index t (2 : Fin 3) * 128 + 1 * o.val = o.val; omega

theorem mem_tile4 (t : Fin cfg0.N) (i : S100x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v25_1).slice (win0_4.rect t)).set ↔ _
  rw [View.set_slice_whole, Rect.mem_set_unit]
  exact Iff.rfl

theorem mem_tile5 (t : Fin cfg0.N) (i : S100x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v25_2).slice (win0_5.rect t)).set ↔ _
  rw [View.set_slice_whole, Rect.mem_set_unit]
  exact Iff.rfl

/-- The hundred tiles tile a partial-sum array: tile `b` is point `b`'s. -/
theorem cover_sum (i : S100x8x128.Idx) : ∃ t : Fin cfg0.N, (cfg0.win 4).flush t = true ∧ i ∈ ((cfg0.win 4).blk t).view.set := by
  have hi0 : (i 0).val < 100 := (i 0).isLt
  have hi1 : (i 1).val < 8 := (i 1).isLt
  have hi2 : (i 2).val < 128 := (i 2).isLt
  have hN : cfg0.N = 100 := N_0
  let t : Fin cfg0.N := ⟨(i 0).val, by rw [hN]; omega⟩
  obtain ⟨e0, e1, e2, e3, e4, e5, e6, e7, e8, e9, e10, e11, e12, e13, e14⟩ := idx_facts0 t
  have ht : t.val = (i 0).val := rfl
  refine ⟨t, flush0_4 t, ?_⟩
  rw [mem_tile4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 128 ≤ (i 2).val ∧ (i 2).val < win0_4.index t (2 : Fin 3) * 128 + 128; omega

theorem cover_sumsq (i : S100x8x128.Idx) : ∃ t : Fin cfg0.N, (cfg0.win 5).flush t = true ∧ i ∈ ((cfg0.win 5).blk t).view.set := by
  have hi0 : (i 0).val < 100 := (i 0).isLt
  have hi1 : (i 1).val < 8 := (i 1).isLt
  have hi2 : (i 2).val < 128 := (i 2).isLt
  have hN : cfg0.N = 100 := N_0
  let t : Fin cfg0.N := ⟨(i 0).val, by rw [hN]; omega⟩
  obtain ⟨e0, e1, e2, e3, e4, e5, e6, e7, e8, e9, e10, e11, e12, e13, e14⟩ := idx_facts0 t
  have ht : t.val = (i 0).val := rfl
  refine ⟨t, flush0_5 t, ?_⟩
  rw [mem_tile5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8 ≤ (i 1).val ∧ (i 1).val < win0_5.index t (1 : Fin 3) * 8 + 8; omega
  | ⟨2, _⟩ => show win0_5.index t (2 : Fin 3) * 128 ≤ (i 2).val ∧ (i 2).val < win0_5.index t (2 : Fin 3) * 128 + 128; omega

/-- THE PARTIAL SUMS OF THE LAYER after the region. -/
theorem final_sum (c : Dev nD) :
    (dat0 V c).arrAt 4 cfg0.N = blockSums (layerAt (V c main_arg0) (V c main_v8) (V c main_v24)) :=
  (dat0 V c).arrAt_eq_of_cover 4 _ (fun t _ => flushed_sum V c t) cover_sum

/-- THE PARTIAL SUMS OF ITS SQUARES after the region. -/
theorem final_sumsq (c : Dev nD) :
    (dat0 V c).arrAt 5 cfg0.N = blockSums (fun e o =>
      layerAt (V c main_arg0) (V c main_v8) (V c main_v24) e o * layerAt (V c main_arg0) (V c main_v8) (V c main_v24) e o) :=
  (dat0 V c).arrAt_eq_of_cover 5 _ (fun t _ => flushed_sumsq V c t) cover_sumsq

end Cert.KernelIdeal.Val

end
-- ==== Proof.KNormRow.lean ====
/-
  The body of the second kernel, read at an index: every entry of its block is scaled by its channel's scale, shifted by
  its channel's shift, and rectified.
-/
import proofs.«115342_j8323646619907_2_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.ValueIdx

/-- At row `r` and channel `o`: `max (x · scale o + shift o) 0`, the scale and the shift each one row `[1, 128]`. -/
theorem norm_apply (x0 : Vec Ideal S10000x128 .f32) (x1 x2 : Vec Ideal S1x128 .f32) (r : Fin 10000) (o : Fin 128) :
    k1_pay1 x0 x1 x2 (ix2 r o)
      = max (x0 (ix2 r o) * x1 (ix2 (0 : Fin 1) o) + x2 (ix2 (0 : Fin 1) o)) (Ideal.ofBits .f32 0x00000000#32) := by
  unfold k1_pay1
  simp only [shapeCast_self, maximumf_apply, addf_apply, mulf_apply, broadcastTo_1b_ab_apply, broadcast_apply]
  rfl

end Cert.KernelIdeal.Val

end
-- ==== Proof.KNormArr.lean ====
/-
  What the second kernel leaves in its output array, as ONE function of the arrays the region finds: at `(e, o)`
  the product's entry times channel `o`'s scale plus its shift, rectified. Grid point `t` handles rows
  `10000 t … 10000 t + 9999`; the scale and the shift are one row each, seen whole at every point; the fifty bands
  tile the 500000 rows.
-/
import proofs.«115342_j8323646619907_2_alg».proof.Proof.KIRegion1
import proofs.«115342_j8323646619907_2_alg».proof.Proof.KNormRow
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The normalised array: entry `(e, o)` of `H` times `sc (0, o)` plus `sh (0, o)`, against the zero word. -/
def normArr (H : S500000x128.Idx → EReal) (sc sh : S1x128.Idx → EReal) : S500000x128.Idx → EReal :=
  fun i => max (H i * sc (ix2 (0 : Fin 1) (⟨(i 1).val, (i 1).isLt⟩ : Fin 128))
    + sh (ix2 (0 : Fin 1) (⟨(i 1).val, (i 1).isLt⟩ : Fin 128))) (Ideal.ofBits .f32 0x00000000#32)

/-- One entry of it, the three arrays each read at an index of its own. -/
def normVal (H : S500000x128.Idx → EReal) (sc sh : S1x128.Idx → EReal) (i : S500000x128.Idx) (k1 k2 : S1x128.Idx) : EReal :=
  max (H i * sc k1 + sh k2) (Ideal.ofBits .f32 0x00000000#32)

/-- The printed index maps over the grid: the product's band and the result's band move together, one band per
    point; the scale and the shift stay at their one block. -/
theorem idx_facts1 : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- WHAT POINT `t` WRITES BACK is band `t` of the normalised array. -/
theorem flushed_norm (c : Dev nD) (t : Fin cfg1.N) :
    (dat1 V c).flushed 3 t
      = ((cfg1.win 3).blk t).view.read (Elt Ideal) (normArr (V c main_v25_0) (V c main_v44) (V c main_v45)) := by
  show (cfg1.win 3).cut (grid1.coords t) ((dat1 V c).after 3 t) = _
  rw [after1_3]
  unfold out1_3
  rw [View.canon_unit_zero hz2]
  simp only [View.ld_unit_zero (S := S10000x128) hz2, View.ld_unit_zero (S := S1x128) hz2]
  obtain ⟨e0, e1, e2, e3, e4, e5, e6, e7⟩ := idx_facts1 t
  refine funext fun (j : S10000x128.Idx) => ?_
  obtain ⟨r, o, rfl⟩ : ∃ (r : Fin 10000) (o : Fin 128), j = ix2 r o := ⟨j 0, j 1, eq_ix2 j⟩
  refine (norm_apply (iblk1 V c 0 t) (iblk1 V c 1 t) (iblk1 V c 2 t) r o).trans ?_
  show normVal (V c main_v25_0) (V c main_v44) (V c main_v45) (((cfg1.win 0).blk t).view.emb (ix2 r o))
      (((cfg1.win 1).blk t).view.emb (ix2 (0 : Fin 1) o)) (((cfg1.win 2).blk t).view.emb (ix2 (0 : Fin 1) o))
    = normArr (V c main_v25_0) (V c main_v44) (V c main_v45) (((cfg1.win 3).blk t).view.emb (ix2 r o))
  have h0 : ((cfg1.win 0).blk t).view.emb (ix2 r o) = ((cfg1.win 3).blk t).view.emb (ix2 r o) := by
    funext a; apply Fin.ext
    match a with
    | ⟨0, _⟩ => show win1_0.index t (0 : Fin 2) * 10000 + 1 * r.val = win1_3.index t (0 : Fin 2) * 10000 + 1 * r.val; omega
    | ⟨1, _⟩ => show win1_0.index t (1 : Fin 2) * 128 + 1 * o.val = win1_3.index t (1 : Fin 2) * 128 + 1 * o.val; omega
  have ho : ((((cfg1.win 3).blk t).view.emb (ix2 r o)) 1).val = o.val := by
    show win1_3.index t (1 : Fin 2) * 128 + 1 * o.val = o.val; omega
  have h1 : ((cfg1.win 1).blk t).view.emb (ix2 (0 : Fin 1) o)
      = ix2 (0 : Fin 1) (⟨((((cfg1.win 3).blk t).view.emb (ix2 r o)) 1).val, ((((cfg1.win 3).blk t).view.emb (ix2 r o)) 1).isLt⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * o.val = ((((cfg1.win 3).blk t).view.emb (ix2 r o)) 1).val; omega
  have h2 : ((cfg1.win 2).blk t).view.emb (ix2 (0 : Fin 1) o)
      = ix2 (0 : Fin 1) (⟨((((cfg1.win 3).blk t).view.emb (ix2 r o)) 1).val, ((((cfg1.win 3).blk t).view.emb (ix2 r o)) 1).isLt⟩ : Fin 128) := by
    funext a; apply Fin.ext
    match a with
    | ⟨0, _⟩ => show win1_2.index t (0 : Fin 2) * 1 + 1 * 0 = 0; omega
    | ⟨1, _⟩ => show win1_2.index t (1 : Fin 2) * 128 + 1 * o.val = ((((cfg1.win 3).blk t).view.emb (ix2 r o)) 1).val; omega
  rw [h0, h1, h2]
  rfl

/-- An index of the result is in point `t`'s band iff each coordinate is in the band's range on its axis. -/
theorem mem_band (t : Fin cfg1.N) (i : S500000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v46).slice (win1_3.rect t)).set ↔ _
  rw [View.set_slice_whole, Rect.mem_set_unit]
  exact Iff.rfl

/-- The fifty bands tile the rows: row `e` is in band `e / 10000`. -/
theorem cover_norm (i : S500000x128.Idx) : ∃ t : Fin cfg1.N, (cfg1.win 3).flush t = true ∧ i ∈ ((cfg1.win 3).blk t).view.set := by
  have hi0 : (i 0).val < 500000 := (i 0).isLt
  have hi1 : (i 1).val < 128 := (i 1).isLt
  have hN : cfg1.N = 50 := N_1
  let t : Fin cfg1.N := ⟨(i 0).val / 10000, by rw [hN]; omega⟩
  obtain ⟨e0, e1, e2, e3, e4, e5, e6, e7⟩ := idx_facts1 t
  have ht : t.val = (i 0).val / 10000 := rfl
  refine ⟨t, flush1_3 t, ?_⟩
  rw [mem_band]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- THE RESULT ARRAY after the region: the normalised array of what the region found. -/
theorem final_norm (c : Dev nD) :
    (dat1 V c).arrAt 3 cfg1.N = normArr (V c main_v25_0) (V c main_v44) (V c main_v45) :=
  (dat1 V c).arrAt_eq_of_cover 3 _ (fun t _ => flushed_norm V c t) cover_norm

end Cert.KernelIdeal.Val

end
-- ==== Proof.KHostMid.lean ====
/-
  The host stretch between the two kernels. From the two arrays of partial sums it takes row 0 of every tile, adds the
  hundred tiles up per channel and divides by the number of edges — the channel's mean, and the mean of its squares —
  and from them the channel's scale `γ · rsqrt (mean of squares − mean² + ε)` and shift `β − mean · scale`, each laid
  out as one row for the second kernel.
-/
import proofs.«115342_j8323646619907_2_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

/-- Row 0 of every tile of a partial-sum array, as a `[100, 128]` matrix. -/
def tileRows (S : S100x8x128.Idx → EReal) : S100x128.Idx → EReal :=
  fun i => shapeCast S100x128 (extractStridedSlice S100x1x128 ![0, 0, 0] S slices_S100x8x128_S100x1x128_0_0_0)
    shapeCasts_S100x1x128_S100x128 i

/-- The tiles added up per channel from the zero word, over the count of edges. -/
def statRow (S : S100x8x128.Idx → EReal) : S128.Idx → EReal :=
  Host.divf (F := Ideal) (φ := .f32)
    (Host.reduceAdd (F := Ideal) (φ := .f32) (tileRows S) (constant (F := Ideal) S_ .f32 0x00000000#32) reducesTo_S100x128_S128_d0 h_S_)
    (broadcastInDim S128 ![] bcast_S_S128 (constant (F := Ideal) S_ .f32 0x48F42400#32))

/-- The channels' scales, from the partial sums `S1` of the layer, `S2` of its squares, and `γ`. -/
def scaleVec (S1 S2 : S100x8x128.Idx → EReal) (g : S128.Idx → EReal) : S128.Idx → EReal :=
  mulf (F := Ideal) (φ := .f32) g (Host.rsqrt (F := Ideal) (φ := .f32) (addf (F := Ideal) (φ := .f32)
    (subf (F := Ideal) (φ := .f32) (statRow S2) (mulf (F := Ideal) (φ := .f32) (statRow S1) (statRow S1)))
    (broadcastInDim S128 ![] bcast_S_S128 (constant (F := Ideal) S_ .f32 0x3727C5AC#32))))

/-- The channels' shifts. -/
def shiftVec (S1 S2 : S100x8x128.Idx → EReal) (g b : S128.Idx → EReal) : S128.Idx → EReal :=
  subf (F := Ideal) (φ := .f32) b (mulf (F := Ideal) (φ := .f32) (statRow S1) (scaleVec S1 S2 g))

/-- A vector of 128 channels laid as one row. -/
def asRow (v : S128.Idx → EReal) : S1x128.Idx → EReal := fun i => shapeCast S1x128 v shapeCasts_S128_S1x128 i

set_option maxHeartbeats 4000000 in
/-- What the stretch leaves in the scale's buffer, over any contents `W` it starts from. -/
theorem mid_scale (W : Valuation τ sig (Elt Ideal)) :
    StableHlo.after (hostOps1 (F := Ideal)) W (Proc.devRef .tc main_v44)
      = asRow (scaleVec (W (Proc.devRef .tc main_v25_1)) (W (Proc.devRef .tc main_v25_2)) (W (Proc.devRef .tc main_arg3))) := by
  dsimp only [hostOps1]
  after_results_simp
  rfl

set_option maxHeartbeats 4000000 in
/-- What it leaves in the shift's buffer. -/
theorem mid_shift (W : Valuation τ sig (Elt Ideal)) :
    StableHlo.after (hostOps1 (F := Ideal)) W (Proc.devRef .tc main_v45)
      = asRow (shiftVec (W (Proc.devRef .tc main_v25_1)) (W (Proc.devRef .tc main_v25_2)) (W (Proc.devRef .tc main_arg3))
          (W (Proc.devRef .tc main_arg4))) := by
  dsimp only [hostOps1]
  after_results_simp
  rfl

/-! ## Read at a channel -/

/-- Row 0 of tile `t` at channel `o`. -/
theorem tileRows_apply (S : S100x8x128.Idx → EReal) (t : Fin 100) (o : Fin 128) :
    tileRows S (ix2 t o) = S (ix3 t (0 : Fin 8) o) := by
  unfold tileRows
  refine (shapeCast_apply _ shapeCasts_S100x1x128_S100x128 (ix2 t o) (ix3 t (0 : Fin 1) o) (by
    rw [Shape.rowMajor_val_three, Shape.rowMajor_val_two]
    show (t.val * 1 + 0) * 128 + o.val = t.val * 128 + o.val
    omega)).trans ?_
  exact extractStridedSlice_apply ![0, 0, 0] S slices_S100x8x128_S100x1x128_0_0_0 (ix3 t (0 : Fin 1) o) (ix3 t (0 : Fin 8) o)
    (fun a => by
      match a with
      | ⟨0, _⟩ => show t.val = 0 + t.val; omega
      | ⟨1, _⟩ => rfl
      | ⟨2, _⟩ => show o.val = 0 + o.val; omega)

/-- A channel's statistic: the hundred tiles' row 0 summed from the zero word, over the count. -/
theorem statRow_apply (S : S100x8x128.Idx → EReal) (o : Fin 128) :
    statRow S (ix1 o)
      = Ideal.div (Ideal.ofBits .f32 0x00000000#32 + ∑ t : Fin 100, S (ix3 t (0 : Fin 8) o)) (Ideal.ofBits .f32 0x48F42400#32) := by
  unfold statRow
  show Ideal.div (Host.reduceAdd (F := Ideal) (φ := .f32) (tileRows S) (constant (F := Ideal) S_ .f32 0x00000000#32) reducesTo_S100x128_S128_d0 h_S_ (ix1 o))
      (broadcastInDim S128 ![] bcast_S_S128 (constant (F := Ideal) S_ .f32 0x48F42400#32) (ix1 o)) = _
  rw [broadcastInDim_apply _ bcast_S_S128 (constant (F := Ideal) S_ .f32 0x48F42400#32) (ix1 o) ix0 (fun a => a.elim0)]
  simp only [Host.reduceAdd, Ideal.hostReduceAdd_def]
  rw [Ideal.hostReduceAdd_single reducesTo_S100x128_S128_d0 (by decide)]
  refine congrArg₂ Ideal.div (congrArg₂ (· + ·) rfl (Finset.sum_congr rfl fun k _ => ?_)) rfl
  exact (congrArg (tileRows S) (funext fun a => Fin.ext (by match a with | ⟨0, _⟩ => rfl | ⟨1, _⟩ => rfl))).trans
    (tileRows_apply S k o)

/-- A channel's scale. -/
theorem scale_apply (S1 S2 : S100x8x128.Idx → EReal) (g : S128.Idx → EReal) (o : Fin 128) :
    asRow (scaleVec S1 S2 g) (ix2 (0 : Fin 1) o)
      = g (ix1 o) * Ideal.rsqrt (statRow S2 (ix1 o) - statRow S1 (ix1 o) * statRow S1 (ix1 o) + Ideal.ofBits .f32 0x3727C5AC#32) := by
  unfold asRow
  rw [shapeCast_a_1a_apply]
  unfold scaleVec
  show g (ix1 o) * Ideal.rsqrt (statRow S2 (ix1 o) - statRow S1 (ix1 o) * statRow S1 (ix1 o)
      + broadcastInDim S128 ![] bcast_S_S128 (constant (F := Ideal) S_ .f32 0x3727C5AC#32) (ix1 o)) = _
  rw [broadcastInDim_apply _ bcast_S_S128 (constant (F := Ideal) S_ .f32 0x3727C5AC#32) (ix1 o) ix0 (fun a => a.elim0)]
  rfl

/-- A channel's shift. -/
theorem shift_apply (S1 S2 : S100x8x128.Idx → EReal) (g b : S128.Idx → EReal) (o : Fin 128) :
    asRow (shiftVec S1 S2 g b) (ix2 (0 : Fin 1) o)
      = b (ix1 o) - statRow S1 (ix1 o) * asRow (scaleVec S1 S2 g) (ix2 (0 : Fin 1) o) := by
  unfold asRow
  rw [shapeCast_a_1a_apply, shapeCast_a_1a_apply]
  rfl

end Cert.KernelIdeal.Val

end
-- ==== Proof.LibJoinFive.lean ====
/-
  Five operands of one host operation.

  A host operation with five operands leaves in its result buffer its function applied to the five operands' contents,
  each read at its own reference (`nary5_result`) — so that the operands' own contents can go on being rewritten one
  operation at a time; `after_results5` is that rewriting, the five-operand case tried before the general one.
-/
import Idealize.ShloMosaic.Lib.StableHlo.Run

noncomputable section

namespace Cert.Lib.JoinFive

open Idealize.ShloMosaic Idealize.ShloMosaic.StableHlo

variable {nD : Nat} {τ : Topo} {sig : RefSig} {Val : EltTy → Type} {x a b c e y : Ref sig .tc}

/-- A five-operand host operation's result, with each operand's contents at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same with the result reference kept out of the simplifier's index, for a one-pass rewriting. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

end Cert.Lib.JoinFive

/-- The results of a list of host operations in ONE pass, the five-operand case read operand by operand. -/
macro "after_results_simp5" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Cert.Lib.JoinFive.nary5_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne']))

/-- The results of a list of host operations, one operation at a time, the five-operand case read operand by operand. -/
macro "after_results5" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.quaternary_result]
               | rw [Idealize.ShloMosaic.StableHlo.reshape_result] | rw [Idealize.ShloMosaic.StableHlo.binaryIndexed_result]
               | rw [Cert.Lib.JoinFive.nary5_result] | rw [Idealize.ShloMosaic.StableHlo.nary_result]
               | rw [Idealize.ShloMosaic.StableHlo.unaryIndexed_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.binaryIndexed_result_ne]; rotate_left; decide)
               | (rw [Idealize.ShloMosaic.StableHlo.nary_result_ne]; rotate_left; decide)
               | (rw [Idealize.ShloMosaic.StableHlo.unaryIndexed_result_ne]; rotate_left; decide))))

end
-- ==== Proof.KHostIn.lean ====
/- The contents region 0 is entered with, read at an index, for its three input arrays (at real-valued floats).
   The first operand is the first argument itself. The second is the first argument's rows gathered at each row's
   four neighbour indices (clamped, a negative one counted from the end), laid side by side in a row of 256. The third
   is the five 64×128 weight matrices: matrix `p` is the transpose of columns `64p … 64p+63` of the 128×320 argument.
   Each statement reads the fold of the host operations before the region one operation at a time. -/
import proofs.«115342_j8323646619907_2_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run
import proofs.«115342_j8323646619907_2_alg».proof.Proof.LibJoinFive

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.ValueIdx (ix1 ix2 ix3 transpose_ix2_apply slice2_axis1_apply)

variable (m : (ℓ : Loc nD τ sig) → Buf (Elt Ideal) ℓ) (c : Dev nD)

/-! ## The first operand: the argument itself -/

/-- No host operation before region 0 writes the first argument: the region finds it as launched. -/
theorem V3_x (i : S500000x64.Idx) : Gen.V3 m c main_arg0 i = m ((c : Thread nD τ).loc main_arg0) i :=
  congrFun ((Gen.V3_of m c main_arg0 (by decide)).trans <| (Gen.V2_of m c main_arg0 (by decide)).trans <|
    (Gen.V1_of m c main_arg0 (by decide)).trans rfl) i

/-! ## The second operand: the rows of the first argument at each row's four neighbours -/

/-- Each row's four neighbour indices clamped into `[0, 499999]`. -/
def clamped (x1 : IVec S500000x4 32) : IVec S500000x4 32 :=
  minsi (broadcastInDim S500000x4 ![] bcast_S_S500000x4 (constantI S_ 32 499999#32))
    (maxsi (broadcastInDim S500000x4 ![] bcast_S_S500000x4 (constantI S_ 32 0#32)) x1)

/-- A negative index counts from the end: `500000` is added to it. -/
def wrapped (x1 : IVec S500000x4 32) : IVec S500000x4 32 :=
  select (cmpi .slt (clamped x1) (broadcastInDim S500000x4 ![] bcast_S_S500000x4 (constantI S_ 32 0#32)))
    (addi (clamped x1) (broadcastInDim S500000x4 ![] bcast_S_S500000x4 (constantI S_ 32 500000#32)))
    (clamped x1)

/-- The gathered rows: entry `(e, q, j)` is `x0` at row `wrapped x1 (e, q)`, column `j`. -/
def gathered (x0 : S500000x64.Idx → EReal) (x1 : IVec S500000x4 32) : S500000x4x64.Idx → EReal :=
  Host.gather gather_S500000x64_S500000x4x1_S500000x4x64_2_0_n_n_0_2_164 x0
    (broadcastInDim S500000x4x1 ![0, 1] bcast_S500000x4_S500000x4x1_0_1 (wrapped x1))

set_option maxHeartbeats 1000000 in
/-- The array the gather writes is `gathered` of the two arguments: the host operations before it, one at a time. -/
theorem V3_gather : (fun i => Gen.V3 m c main_v7 i)
    = gathered (m ((c : Thread nD τ).loc main_arg0)) (m ((c : Thread nD τ).loc main_arg1)) := by
  dsimp only [Gen.V3, Gen.V2, Gen.V1, Gen.V0]
  unfold hostOps0_2 hostOps0_1 hostOps0
  after_results5
  rfl

set_option maxHeartbeats 1000000 in
/-- The second operand is that array reshaped from `[500000, 4, 64]` to `[500000, 256]`. -/
theorem V3_v8 : (fun i => Gen.V3 m c main_v8 i)
    = shapeCast S500000x256 (gathered (m ((c : Thread nD τ).loc main_arg0)) (m ((c : Thread nD τ).loc main_arg1)))
        shapeCasts_S500000x4x64_S500000x256 := by
  dsimp only [Gen.V3, Gen.V2, Gen.V1, Gen.V0]
  unfold hostOps0_2 hostOps0_1 hostOps0
  after_results5
  rfl

/-- Row `e`, column `k = 64 q + j` of the second operand is entry `(e, q, j)` of the gathered rows: the two indices have
    the same row-major position, `(4 e + q) 64 + j = 256 e + k`. -/
theorem V3_nb (e : Fin 500000) (q : Fin 4) (j : Fin 64) (k : Fin 256) (hk : k.val = 64 * q.val + j.val) :
    Gen.V3 m c main_v8 (ix2 e k)
      = gathered (m ((c : Thread nD τ).loc main_arg0)) (m ((c : Thread nD τ).loc main_arg1)) (ix3 e q j) :=
  (congrFun (V3_v8 m c) (ix2 e k)).trans
    (shapeCast_apply _ shapeCasts_S500000x4x64_S500000x256 (ix2 e k) (ix3 e q j) (by
      rewrite [Shape.rowMajor_val_three, Shape.rowMajor_val_two]
      show (e.val * 4 + q.val) * 64 + j.val = e.val * 256 + k.val
      omega))

/-- Every gathered entry is an entry of the gathered-from array. -/
theorem gathered_entry (x0 : S500000x64.Idx → EReal) (x1 : IVec S500000x4 32) (i : S500000x4x64.Idx) :
    ∃ k : S500000x64.Idx, gathered x0 x1 i = x0 k :=
  ⟨_, rfl⟩

/-! ## The third operand: the five weight matrices -/

/-- Columns `o … o+63` of a 128×320 array, transposed to 64×128, as a 1×64×128 block. -/
def wpiece (o : ℕ) (W : S128x320.Idx → EReal) (h : S128x320.Slices ![0, o] S128x64) : S1x64x128.Idx → EReal :=
  broadcastInDim S1x64x128 ![1, 2] bcast_S64x128_S1x64x128_1_2
    (transpose S64x128 [1, 0] (extractStridedSlice S128x64 ![0, o] W h) transposes_S128x64_S64x128_1_0)

/-- Its entry `(0, j, u)` is the array's at row `u`, column `o + j`. -/
theorem wpiece_apply (o : ℕ) (W : S128x320.Idx → EReal) (h : S128x320.Slices ![0, o] S128x64)
    (j : Fin 64) (u : Fin 128) (k : Fin 320) (hk : k.val = o + j.val) : wpiece o W h (ix3 0 j u) = W (ix2 u k) := by
  unfold wpiece
  refine (broadcastInDim_apply ![1, 2] bcast_S64x128_S1x64x128_1_2 _ (ix3 0 j u) (ix2 j u) (fun a => match a with
    | ⟨0, _⟩ => by show j.val = if (64 : Nat) = 1 then 0 else j.val; rw [if_neg (by decide)]
    | ⟨1, _⟩ => by show u.val = if (128 : Nat) = 1 then 0 else u.val; rw [if_neg (by decide)])).trans ?_
  exact (transpose_ix2_apply _ transposes_S128x64_S64x128_1_0 j u).trans (slice2_axis1_apply o W h u j k hk)

/-- The five blocks, in order. -/
def wpieces (W : S128x320.Idx → EReal) : Fin 5 → (S1x64x128.Idx → EReal)
  | ⟨0, _⟩ => wpiece 0 W slices_S128x320_S128x64_0_0
  | ⟨1, _⟩ => wpiece 64 W slices_S128x320_S128x64_0_64
  | ⟨2, _⟩ => wpiece 128 W slices_S128x320_S128x64_0_128
  | ⟨3, _⟩ => wpiece 192 W slices_S128x320_S128x64_0_192
  | ⟨4, _⟩ => wpiece 256 W slices_S128x320_S128x64_0_256

/-- The five blocks joined along the first axis. -/
def joined (W : S128x320.Idx → EReal) : S5x64x128.Idx → EReal :=
  concatenate S5x64x128 0 (List.ofFn fun n : Fin 5 => (⟨S1x64x128, wpieces W n⟩ : (s : Shape) × (s.Idx → EReal)))
    concatenates_S1x64x128_S1x64x128_S1x64x128_S1x64x128_S1x64x128_S5x64x128_d0

/-- Entry `(p, j, u)` of the join is block `p` at `(0, j, u)`: the array's at row `u`, column `64 p + j`. -/
theorem joined_apply (W : S128x320.Idx → EReal) (p : Fin 5) (j : Fin 64) (u : Fin 128) (k : Fin 320)
    (hk : k.val = p.val * 64 + j.val) : joined W (ix3 p j u) = W (ix2 u k) := by
  unfold joined
  refine (concatenate_ofFn_unit_apply (t := S5x64x128) (s₁ := S1x64x128) 0 (wpieces W) _ rfl rfl (ix3 p j u) p rfl (ix3 0 j u)
    (fun b hb => match b, hb with
      | ⟨0, _⟩, hb => absurd rfl hb
      | ⟨1, _⟩, _ => rfl
      | ⟨2, _⟩, _ => rfl)).trans ?_
  match p, hk with
  | ⟨0, _⟩, hk => exact wpiece_apply 0 W _ j u k (show k.val = 0 + j.val from hk)
  | ⟨1, _⟩, hk => exact wpiece_apply 64 W _ j u k (show k.val = 64 + j.val from hk)
  | ⟨2, _⟩, hk => exact wpiece_apply 128 W _ j u k (show k.val = 128 + j.val from hk)
  | ⟨3, _⟩, hk => exact wpiece_apply 192 W _ j u k (show k.val = 192 + j.val from hk)
  | ⟨4, _⟩, hk => exact wpiece_apply 256 W _ j u k (show k.val = 256 + j.val from hk)

set_option maxHeartbeats 1000000 in
/-- The third operand is the join of the third argument's five blocks: the host operations before it, one at a time. -/
theorem V3_v24 : (fun i => Gen.V3 m c main_v24 i) = joined (m ((c : Thread nD τ).loc main_arg2)) := by
  dsimp only [Gen.V3, Gen.V2, Gen.V1, Gen.V0]
  unfold hostOps0_2 hostOps0_1 hostOps0
  after_results5
  rfl

/-- Matrix `p`, row `j`, column `u` of the third operand is the third argument at row `u`, column `64 p + j`. -/
theorem V3_w (p : Fin 5) (j : Fin 64) (o : Fin 128) (k : Fin 320) (hk : k.val = p.val * 64 + j.val) :
    Gen.V3 m c main_v24 (ix3 p j o) = m ((c : Thread nD τ).loc main_arg2) (ix2 o k) :=
  (congrFun (V3_v24 m c) (ix3 p j o)).trans (joined_apply _ p j o k hk)

end Cert.KernelIdeal.Val

end
-- ==== Proof.LibReal.lean ====
/-
  Extended reals that are real numbers: the closure of "is a real number" under the exact operations (sum, product,
  finite sums, the logistic function, a quotient by a non-zero real), the positivity of the logistic function, and the
  real values of a few float words. General lemmas; nothing here mentions a program.
-/
import Idealize.ShloMosaic.PureOps.Ideal
import Idealize.ShloMosaic.PureOps.Ideal.Laws

noncomputable section

open scoped BigOperators

namespace Cert.LibReal

open Idealize.ShloMosaic

/-- An extended real that is (the coercion of) a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number is a real number … -/
theorem IsReal.logistic {x : EReal} (hx : IsReal x) : IsReal (Ideal.logistic x) := by
  obtain ⟨a, rfl⟩ := hx; exact ⟨_, Ideal.logistic_coe a⟩

/-- … and is positive. -/
theorem logistic_pos {x : EReal} (hx : IsReal x) : 0 < Ideal.logistic x := by
  obtain ⟨a, rfl⟩ := hx
  rw [Ideal.logistic_coe]
  have : (0 : ℝ) < (1 + Real.exp (-a))⁻¹ := inv_pos.mpr (by positivity)
  exact_mod_cast this

/-- A quotient of real numbers by a non-zero one is a real number. -/
theorem IsReal.div {x y : EReal} (hx : IsReal x) (hy : IsReal y) (hne : y ≠ 0) : IsReal (Ideal.div x y) := by
  obtain ⟨a, rfl⟩ := hx; obtain ⟨b, rfl⟩ := hy
  have hb : b ≠ 0 := fun h => hne (by rw [h]; rfl)
  rw [Ideal.div_coe hb]
  exact (isReal_coe a).mul (isReal_coe _)

/-- A non-negative real number plus a positive real number is not zero. -/
theorem add_pos_ne_zero {x y : EReal} (hx : 0 ≤ x) (hy : 0 < y) : x + y ≠ 0 :=
  ne_of_gt (lt_of_lt_of_le hy (le_add_of_nonneg_left hx))

/-! ## Float words as real numbers -/

/-- The word of `5.0e4` is the real number 50000. -/
theorem ofBits_50000 : Ideal.ofBits .f32 0x47435000#32 = ((50000 : ℝ) : EReal) := by
  simp [Ideal.ofBits, Ideal.ieee]
  exact_mod_cast (by norm_num : (12800000 : ℝ) * (2 ^ 8)⁻¹ = 50000)

/-- The word of `8.0e5` is the real number 800000. -/
theorem ofBits_800000 : Ideal.ofBits .f32 0x49435000#32 = ((800000 : ℝ) : EReal) := by
  simp [Ideal.ofBits, Ideal.ieee]
  exact_mod_cast (by norm_num : (12800000 : ℝ) * (2 ^ 4)⁻¹ = 800000)

/-- The word of `1.0` is one. -/
theorem ofBits_one : Ideal.ofBits .f32 0x3F800000#32 = (1 : EReal) := by
  simp [Ideal.ofBits, Ideal.ieee]
  exact_mod_cast (by norm_num : (8388608 : ℝ) * (2 ^ 23)⁻¹ = 1)

/-- The word nearest the decimal 1e-6 is a positive real number. -/
theorem ofBits_epsGate : ∃ r : ℝ, 0 < r ∧ Ideal.ofBits .f32 0x358637BD#32 = (r : EReal) := by
  refine ⟨(8796093 : ℝ) * (2 ^ 43)⁻¹, by positivity, ?_⟩
  simp [Ideal.ofBits, Ideal.ieee]

end Cert.LibReal

end
-- ==== Proof.LibSums.lean ====
/-
  General facts about finite sums: a sum over `a · b` consecutive indices regrouped as `a` consecutive parts of
  `b` terms each; the coercion from the reals to the extended reals taken through a finite sum; and the identity
  between the two ways of writing a population variance, `q / n − μ²` (clamped at zero) and the mean squared
  deviation from the mean.
-/
import Idealize.ShloMosaic.PureOps.Ideal
import Mathlib.Tactic.FieldSimp
import Mathlib.Tactic.Ring
import Mathlib.Algebra.BigOperators.Fin
import Mathlib.Logic.Equiv.Fin.Basic
import Mathlib.Data.EReal.Basic

noncomputable section

open scoped BigOperators

namespace Cert.LibSums

/-- The `r`-th index of the `p`-th part, among `a` parts of `b` indices each, is below `a · b`. -/
theorem part_lt {a b : ℕ} (p : Fin a) (r : Fin b) : p.val * b + r.val < a * b :=
  calc p.val * b + r.val < p.val * b + b := Nat.add_lt_add_left r.isLt _
    _ = (p.val + 1) * b := (Nat.succ_mul _ _).symm
    _ ≤ a * b := Nat.mul_le_mul_right b p.isLt

/-- The same bound against a number `n` known to be `a · b`. -/
theorem part_lt' {a b n : ℕ} (h : a * b = n) (p : Fin a) (r : Fin b) : p.val * b + r.val < n :=
  lt_of_lt_of_eq (part_lt p r) h

/-- Regrouping: the sum over `n = a · b` consecutive indices is the sum over the `a` parts of the sum over each
    part's `b` consecutive indices `p · b + r`. -/
theorem sum_parts {M : Type*} [AddCommMonoid M] {a b n : ℕ} (h : a * b = n) (f : Fin n → M) :
    ∑ p : Fin a, ∑ r : Fin b, f ⟨p.val * b + r.val, part_lt' h p r⟩ = ∑ i : Fin n, f i := by
  subst h
  rw [← Equiv.sum_comp finProdFinEquiv f, Fintype.sum_prod_type]
  refine Finset.sum_congr rfl fun p _ => Finset.sum_congr rfl fun r _ => congrArg f (Fin.ext ?_)
  show p.val * b + r.val = r.val + b * p.val
  rw [Nat.mul_comm, Nat.add_comm]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The sum of the squared deviations from the mean `μ = s / n` is `q − n μ²`, where `s` is the sum and `q` the
    sum of the squares. -/
theorem sum_sq_dev {n : ℕ} (hn : 0 < n) (y : Fin n → ℝ) :
    ∑ i, (y i - (∑ j, y j) / n) * (y i - (∑ j, y j) / n)
      = (∑ i, y i * y i) - n * (((∑ j, y j) / n) * ((∑ j, y j) / n)) := by
  have hn' : (n : ℝ) ≠ 0 := Nat.cast_ne_zero.mpr hn.ne'
  generalize hμ : (∑ j, y j) / (n : ℝ) = μ
  have hs : ∑ j, y j = n * μ := by rw [← hμ]; field_simp
  have e : ∀ i, (y i - μ) * (y i - μ) = y i * y i - 2 * μ * y i + μ * μ := fun i => by ring
  simp only [e, Finset.sum_add_distrib, Finset.sum_sub_distrib, ← Finset.mul_sum, Finset.sum_const,
    Finset.card_univ, Fintype.card_fin, nsmul_eq_mul, hs]
  ring

/-- The variance identity over the reals: with `s = Σ y`, `q = Σ y²` and `μ = s / n`, the clamped difference
    `max (q / n − μ · μ) 0` is the mean squared deviation `(Σ (y − μ)²) / n`. -/
theorem variance_real {n : ℕ} (hn : 0 < n) (y : Fin n → ℝ) :
    max ((∑ i, y i * y i) / n - ((∑ j, y j) / n) * ((∑ j, y j) / n)) 0
      = (∑ i, (y i - (∑ j, y j) / n) * (y i - (∑ j, y j) / n)) / n := by
  have hn' : (n : ℝ) ≠ 0 := Nat.cast_ne_zero.mpr hn.ne'
  have key := sum_sq_dev hn y
  have e : (∑ i, y i * y i) / n - ((∑ j, y j) / n) * ((∑ j, y j) / n)
      = (∑ i, (y i - (∑ j, y j) / n) * (y i - (∑ j, y j) / n)) / n := by
    rw [key]; field_simp
  rw [e]
  exact max_eq_left (div_nonneg (Finset.sum_nonneg fun i _ => mul_self_nonneg _) (Nat.cast_nonneg n))

/-- The same on the extended reals, every quantity the coercion of a real: the clamped difference of the
    coerced `q / n` and the coerced mean's square is the coerced mean squared deviation. -/
theorem variance_ereal {n : ℕ} (hn : 0 < n) (y : Fin n → ℝ) :
    max ((((∑ i, y i * y i) / n : ℝ) : EReal) - (((∑ j, y j) / n : ℝ) : EReal) * (((∑ j, y j) / n : ℝ) : EReal)) 0
      = (((∑ i, (y i - (∑ j, y j) / n) * (y i - (∑ j, y j) / n)) / n : ℝ) : EReal) := by
  rw [← EReal.coe_mul, ← EReal.coe_sub, ← EReal.coe_zero, ← EReal.coe_strictMono.monotone.map_max, variance_real hn y]

end Cert.LibSums

end
-- ==== Proof.LibRmsLaw.lean ====
/-
  A row of extended reals normalised by its root mean square, written two ways — the row times the reciprocal square
  root of (mean square + ε), and the row divided by the square root of the same — agree at EVERY extended real, finite or
  not. The mean square of any row is in [0, ⊤] (a square is never negative: both infinities square to ⊤), so with ε a
  positive real the quantity t = mean square + ε is in (0, ⊤]; for a positive real t, rsqrt t is the real (√t)⁻¹ and
  x / √t is x · (√t)⁻¹ by definition, and at t = ⊤ both sides are x · 0. Nothing here looks at a program: the float words
  2048.0 and the one nearest 1e-5 are read as the reals they denote, and the rest is order and arithmetic on EReal.
-/
import Idealize.ShloMosaic.PureOps.Ideal.Laws

noncomputable section

namespace Cert.RmsLaw

open Idealize.ShloMosaic

/-- The float word `2048.0` denotes the real 2048. -/
theorem ofBits_2048 : Ideal.ofBits .f32 0x45000000#32 = ((2048 : ℝ) : EReal) := by
  simp [Ideal.ofBits, Ideal.ieee, -EReal.coe_mul]; norm_num

/-- The float word nearest `1e-5` (sign 0, exponent 110, fraction 2606508) denotes 10995116 · 2⁻⁴⁰. -/
theorem ofBits_eps : Ideal.ofBits .f32 0x3727C5AC#32 = ((10995116 * (2 : ℝ) ^ (-40 : Int) : ℝ) : EReal) := by
  simp [Ideal.ofBits, Ideal.ieee, -EReal.coe_mul]

/-- … which is a positive real. -/
theorem eps_pos : (0 : EReal) < Ideal.ofBits .f32 0x3727C5AC#32 := by
  rw [ofBits_eps]; exact EReal.coe_pos.mpr (by positivity)

/-- A square of an extended real is nonnegative: the two factors have the same sign. -/
theorem mul_self_nonneg (x : EReal) : 0 ≤ x * x :=
  EReal.mul_nonneg_iff.mpr ((le_total 0 x).imp (fun h => ⟨h, h⟩) (fun h => ⟨h, h⟩))

/-- So is a sum of squares. -/
theorem sum_mul_self_nonneg {ι : Type} (s : Finset ι) (f : ι → EReal) : 0 ≤ ∑ k ∈ s, f k * f k :=
  Finset.sum_nonneg fun k _ => mul_self_nonneg (f k)

/-- A nonnegative extended real divided by 2048, plus ε, is above zero (it may be ⊤). -/
theorem mean_add_eps_pos {S : EReal} (hS : 0 ≤ S) :
    0 < Ideal.div S (Ideal.ofBits .f32 0x45000000#32) + Ideal.ofBits .f32 0x3727C5AC#32 := by
  rw [ofBits_2048, Ideal.div_coe (by norm_num : (2048 : ℝ) ≠ 0)]
  have h : (0 : EReal) ≤ S * ((1 / 2048 : ℝ) : EReal) := EReal.mul_nonneg hS (EReal.coe_nonneg.mpr (by norm_num))
  exact lt_of_lt_of_le eps_pos (le_add_of_nonneg_left h)

/-- THE LAW: above zero, multiplying by the reciprocal square root is dividing by the square root, for every
    extended real numerator. -/
theorem mul_rsqrt_eq_div_sqrt {t : EReal} (ht : 0 < t) (x : EReal) : x * Ideal.rsqrt t = Ideal.div x (Ideal.sqrt t) := by
  induction t using EReal.rec with
  | bot => exact absurd ht (not_lt.mpr bot_le)
  | coe r =>
    have hr : 0 < r := EReal.coe_pos.mp ht
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]
  | top =>
    rw [Ideal.rsqrt_top, Ideal.sqrt_top, Ideal.div, if_neg EReal.top_ne_zero, EReal.inv_top]

/-- The two spellings of a root-mean-square normalised entry: `x · rsqrt (S / 2048 + ε)` and `x / √((0 + S) / 2048 + ε)`,
    `S` any nonnegative extended real (a sum of squares), the second sum started from the zero word. -/
theorem entry_eq {S : EReal} (hS : 0 ≤ S) (x : EReal) :
    x * Ideal.rsqrt (Ideal.div S (Ideal.ofBits .f32 0x45000000#32) + Ideal.ofBits .f32 0x3727C5AC#32)
      = Ideal.div x (Ideal.sqrt (Ideal.div (Ideal.ofBits .f32 0x00000000#32 + S) (Ideal.ofBits .f32 0x45000000#32)
          + Ideal.ofBits .f32 0x3727C5AC#32)) := by
  rw [Ideal.ofBits_zero_f32, zero_add]
  exact mul_rsqrt_eq_div_sqrt (mean_add_eps_pos hS) x

end Cert.RmsLaw

end
-- ==== Proof.EdgeNorm.lean ====
/-
  The function both programs compute, and the law that joins their two spellings.

  Every edge `e` has 320 features: its own 64, and for each of the two pairs of neighbours the entrywise smaller and
  larger of the pair's rows. A linear layer takes them to 128 channels, `y e o = Σ_k feat e k · w o k`. Each channel is
  then normalised over all the edges — mean `μ = (Σ_e y e) / n`, variance `v` — scaled by `γ`, shifted by `β`, and
  rectified.

  One spelling takes the variance as the mean squared deviation, divides by `√(v + ε)` and writes
  `(y − μ) · (γ / √(v + ε)) + β`. The other takes it as the mean square minus the squared mean, multiplies by the
  reciprocal root and folds the mean into the shift, `y · s + (β − μ · s)` with `s = γ · rsqrt (v + ε)`. Over the real
  numbers the two variances are one number (`Σ (y − μ)² = Σ y² − n μ²`), it is not negative, so `v + ε` is positive,
  where multiplying by the reciprocal root is dividing by the root; and `y s + (β − μ s) = (y − μ) s + β` by
  distributivity. Each step needs every quantity to be a real number: on the extended reals neither the variance
  identity nor distributivity holds at the infinities.
-/
import Idealize.ShloMosaic.PureOps.Ideal
import Idealize.ShloMosaic.PureOps.Ideal.Laws
import proofs.«115342_j8323646619907_2_alg».proof.Proof.LibReal
import proofs.«115342_j8323646619907_2_alg».proof.Proof.LibSums
import proofs.«115342_j8323646619907_2_alg».proof.Proof.LibRmsLaw

noncomputable section

open scoped BigOperators

namespace Cert.EdgeNorm

open Idealize.ShloMosaic Cert.LibReal

/-! ## The three float words -/

/-- The number of edges, as the float word both programs divide by. -/
abbrev cnt : EReal := Ideal.ofBits .f32 0x48F42400#32
/-- The stabiliser added to the variance. -/
abbrev eps : EReal := Ideal.ofBits .f32 0x3727C5AC#32
/-- The zero word: what every sum starts from and what the rectifier compares with. -/
abbrev zw : EReal := Ideal.ofBits .f32 0x00000000#32

/-- The word `5.0e5` is the real number 500000: sign 0, exponent 18, significand 16000000 · 2⁻²³. -/
theorem cnt_eq : cnt = ((500000 : ℝ) : EReal) := by
  simp [cnt, Ideal.ofBits, Ideal.ieee]
  exact_mod_cast (by norm_num : (16000000 : ℝ) * (2 ^ 5)⁻¹ = 500000)

theorem zw_eq : zw = 0 := Ideal.ofBits_zero_f32

/-- The stabiliser is a positive real number. -/
theorem eps_real : ∃ r : ℝ, 0 < r ∧ eps = (r : EReal) :=
  ⟨10995116 * (2 : ℝ) ^ (-40 : Int), by positivity, Cert.RmsLaw.ofBits_eps⟩

/-! ## One channel: a column of `n` numbers normalised -/

section Column

variable {n : ℕ}

/-- The column's mean: its sum from the zero word, over the count `c`. -/
def mean (c : EReal) (y : Fin n → EReal) : EReal := Ideal.div (zw + ∑ e, y e) c
/-- The mean of the squares. -/
def meanSq (c : EReal) (y : Fin n → EReal) : EReal := Ideal.div (zw + ∑ e, y e * y e) c
/-- The mean squared deviation from the mean. -/
def devSq (c : EReal) (y : Fin n → EReal) : EReal :=
  Ideal.div (zw + ∑ e, (y e - mean c y) * (y e - mean c y)) c

/-- The scale of the folded spelling: `γ · rsqrt (mean square − mean² + ε)`. -/
def foldScale (c ε g : EReal) (y : Fin n → EReal) : EReal :=
  g * Ideal.rsqrt (meanSq c y - mean c y * mean c y + ε)

/-- The folded spelling of an entry: `max (y · s + (β − μ · s)) 0`. -/
def foldEntry (c ε g b : EReal) (y : Fin n → EReal) (e : Fin n) : EReal :=
  max (y e * foldScale c ε g y + (b - mean c y * foldScale c ε g y)) zw

/-- The centred spelling: `max ((y − μ) · (γ / √(variance + ε)) + β) 0`. -/
def centredEntry (c ε g b : EReal) (y : Fin n → EReal) (e : Fin n) : EReal :=
  max ((y e - mean c y) * Ideal.div g (Ideal.sqrt (devSq c y + ε)) + b) zw

/-- For real numbers, `y s + (β − μ s) = (y − μ) s + β`. -/
theorem affine_law {y μ b s : EReal} (hy : IsReal y) (hμ : IsReal μ) (hb : IsReal b) (hs : IsReal s) :
    y * s + (b - μ * s) = (y - μ) * s + b := by
  obtain ⟨y, rfl⟩ := hy; obtain ⟨μ, rfl⟩ := hμ; obtain ⟨b, rfl⟩ := hb; obtain ⟨s, rfl⟩ := hs
  exact_mod_cast (by ring : y * s + (b - μ * s) = (y - μ) * s + b)

variable (hn : 0 < n) {c : EReal} (hc : c = ((n : ℝ) : EReal)) (f : Fin n → ℝ)
include hn hc

/-- The mean of a column of reals is the real mean. -/
theorem mean_coe : mean c (fun e => (f e : EReal)) = (((∑ e, f e) / n : ℝ) : EReal) := by
  have hn' : (n : ℝ) ≠ 0 := Nat.cast_ne_zero.mpr hn.ne'
  rw [mean, zw_eq, zero_add, hc, Ideal.div_coe hn', ← coe_sum, ← EReal.coe_mul]
  exact congrArg _ (mul_one_div _ _)

/-- The mean of the squares of a column of reals. -/
theorem meanSq_coe : meanSq c (fun e => (f e : EReal)) = (((∑ e, f e * f e) / n : ℝ) : EReal) := by
  have hn' : (n : ℝ) ≠ 0 := Nat.cast_ne_zero.mpr hn.ne'
  have e1 : ∀ e, (f e : EReal) * (f e : EReal) = ((f e * f e : ℝ) : EReal) := fun e => (EReal.coe_mul _ _).symm
  rw [meanSq, zw_eq, zero_add, hc, Ideal.div_coe hn']
  simp only [e1]
  rw [← coe_sum, ← EReal.coe_mul]
  exact congrArg _ (mul_one_div _ _)

/-- The mean squared deviation of a column of reals. -/
theorem devSq_coe : devSq c (fun e => (f e : EReal))
    = (((∑ e, (f e - (∑ j, f j) / n) * (f e - (∑ j, f j) / n)) / n : ℝ) : EReal) := by
  have hn' : (n : ℝ) ≠ 0 := Nat.cast_ne_zero.mpr hn.ne'
  have e1 : ∀ e, ((f e : EReal) - (((∑ j, f j) / n : ℝ) : EReal)) * ((f e : EReal) - (((∑ j, f j) / n : ℝ) : EReal))
      = (((f e - (∑ j, f j) / n) * (f e - (∑ j, f j) / n) : ℝ) : EReal) := fun e => by
    rw [← EReal.coe_sub, ← EReal.coe_mul]
  rw [devSq, mean_coe hn hc f, zw_eq, zero_add, hc, Ideal.div_coe hn']
  simp only [e1]
  rw [← coe_sum, ← EReal.coe_mul]
  exact congrArg _ (mul_one_div _ _)

/-- The two variances of a column of reals are one real number, and it is not negative. -/
theorem variance_coe : ∃ v : ℝ, 0 ≤ v ∧ devSq c (fun e => (f e : EReal)) = (v : EReal)
    ∧ meanSq c (fun e => (f e : EReal)) - mean c (fun e => (f e : EReal)) * mean c (fun e => (f e : EReal)) = (v : EReal) := by
  have hn' : (n : ℝ) ≠ 0 := Nat.cast_ne_zero.mpr hn.ne'
  refine ⟨(∑ e, (f e - (∑ j, f j) / n) * (f e - (∑ j, f j) / n)) / n,
    div_nonneg (Finset.sum_nonneg fun e _ => mul_self_nonneg _) (Nat.cast_nonneg n), devSq_coe hn hc f, ?_⟩
  rw [meanSq_coe hn hc f, mean_coe hn hc f, ← EReal.coe_mul, ← EReal.coe_sub]
  congr 1
  rw [Cert.LibSums.sum_sq_dev hn f, sub_div, mul_div_cancel_left₀ _ hn']

/-- THE LAW for one channel: on a column of real numbers, with a real scale and shift and a positive real stabiliser,
    the folded spelling of an entry is the centred spelling. -/
theorem entry_law {ε g b : EReal} (hε : ∃ r : ℝ, 0 < r ∧ ε = (r : EReal)) (hg : IsReal g) (hb : IsReal b)
    (y : Fin n → EReal) (hy : ∀ e, IsReal (y e)) (e : Fin n) :
    foldEntry c ε g b y e = centredEntry c ε g b y e := by
  choose f hf using hy
  obtain rfl : y = fun e => (f e : EReal) := funext hf
  obtain ⟨r, hr, rfl⟩ := hε
  obtain ⟨v, hv, hdev, hfold⟩ := variance_coe hn hc f
  have ht : (0 : EReal) < ((v + r : ℝ) : EReal) := EReal.coe_pos.mpr (add_pos_of_nonneg_of_pos hv hr)
  have hroot : Real.sqrt (v + r) ≠ 0 := (Real.sqrt_pos.mpr (add_pos_of_nonneg_of_pos hv hr)).ne'
  -- the scale of either spelling is the real number γ / √(v + ε)
  have hs : IsReal (Ideal.div g (Ideal.sqrt ((v : EReal) + (r : EReal)))) := by
    rw [← EReal.coe_add, Ideal.sqrt_coe, if_neg (not_lt.mpr (add_pos_of_nonneg_of_pos hv hr).le), Ideal.div_coe hroot]
    exact hg.mul (isReal_coe _)
  unfold foldEntry centredEntry foldScale
  rw [hfold, hdev, ← EReal.coe_add, Cert.RmsLaw.mul_rsqrt_eq_div_sqrt ht g, EReal.coe_add]
  refine congrArg (fun z => max z zw) ?_
  exact affine_law (isReal_coe _) ⟨_, mean_coe hn hc f⟩ hb hs

end Column

/-! ## The features and the linear layer -/

section Layer

variable {n : ℕ}

/-- Edge `e`'s features in five groups of 64: its own row; the entrywise smaller and larger of its first two
    neighbours' rows; the same for its last two. -/
def feat (x : Fin n → Fin 64 → EReal) (nb : Fin n → Fin 4 → Fin 64 → EReal) (e : Fin n) : Fin 5 → Fin 64 → EReal
  | 0, j => x e j
  | 1, j => min (nb e 0 j) (nb e 1 j)
  | 2, j => max (nb e 0 j) (nb e 1 j)
  | 3, j => min (nb e 2 j) (nb e 3 j)
  | 4, j => max (nb e 2 j) (nb e 3 j)

/-- The linear layer: channel `o` of edge `e` is the sum over the five groups and the 64 features of each of the
    feature times the weight `w o (64 p + j)`. -/
def lin (x : Fin n → Fin 64 → EReal) (nb : Fin n → Fin 4 → Fin 64 → EReal) (w : Fin 128 → Fin 320 → EReal)
    (e : Fin n) (o : Fin 128) : EReal :=
  ∑ p : Fin 5, ∑ j : Fin 64, feat x nb e p j * w o ⟨p.val * 64 + j.val, Cert.LibSums.part_lt p j⟩

theorem IsReal.min {a b : EReal} (ha : IsReal a) (hb : IsReal b) : IsReal (min a b) := by
  rcases min_choice a b with h | h <;> rw [h] <;> assumption

theorem IsReal.max {a b : EReal} (ha : IsReal a) (hb : IsReal b) : IsReal (max a b) := by
  rcases max_choice a b with h | h <;> rw [h] <;> assumption

/-- Real rows and real neighbour rows give real features … -/
theorem feat_real {x : Fin n → Fin 64 → EReal} {nb : Fin n → Fin 4 → Fin 64 → EReal}
    (hx : ∀ e j, IsReal (x e j)) (hnb : ∀ e q j, IsReal (nb e q j)) (e : Fin n) (p : Fin 5) (j : Fin 64) :
    IsReal (feat x nb e p j) := by
  match p with
  | 0 => exact hx e j
  | 1 => exact IsReal.min (hnb e 0 j) (hnb e 1 j)
  | 2 => exact IsReal.max (hnb e 0 j) (hnb e 1 j)
  | 3 => exact IsReal.min (hnb e 2 j) (hnb e 3 j)
  | 4 => exact IsReal.max (hnb e 2 j) (hnb e 3 j)

/-- … and with real weights a real layer. -/
theorem lin_real {x : Fin n → Fin 64 → EReal} {nb : Fin n → Fin 4 → Fin 64 → EReal} {w : Fin 128 → Fin 320 → EReal}
    (hx : ∀ e j, IsReal (x e j)) (hnb : ∀ e q j, IsReal (nb e q j)) (hw : ∀ o k, IsReal (w o k)) (e : Fin n) (o : Fin 128) :
    IsReal (lin x nb w e o) :=
  IsReal.sum _ _ fun p _ => IsReal.sum _ _ fun j _ => (feat_real hx hnb e p j).mul (hw o _)

/-- The whole function, folded spelling: the layer's column `o` normalised by the folded formulas. -/
def foldOut (x : Fin n → Fin 64 → EReal) (nb : Fin n → Fin 4 → Fin 64 → EReal) (w : Fin 128 → Fin 320 → EReal)
    (γ β : Fin 128 → EReal) (e : Fin n) (o : Fin 128) : EReal :=
  foldEntry cnt eps (γ o) (β o) (fun e' => lin x nb w e' o) e

/-- The whole function, centred spelling. -/
def centredOut (x : Fin n → Fin 64 → EReal) (nb : Fin n → Fin 4 → Fin 64 → EReal) (w : Fin 128 → Fin 320 → EReal)
    (γ β : Fin 128 → EReal) (e : Fin n) (o : Fin 128) : EReal :=
  centredEntry cnt eps (γ o) (β o) (fun e' => lin x nb w e' o) e

end Layer

/-- THE LAW at 500000 edges: on real inputs the two spellings are one function. -/
theorem out_law {x : Fin 500000 → Fin 64 → EReal} {nb : Fin 500000 → Fin 4 → Fin 64 → EReal}
    {w : Fin 128 → Fin 320 → EReal} {γ β : Fin 128 → EReal}
    (hx : ∀ e j, IsReal (x e j)) (hnb : ∀ e q j, IsReal (nb e q j)) (hw : ∀ o k, IsReal (w o k))
    (hγ : ∀ o, IsReal (γ o)) (hβ : ∀ o, IsReal (β o)) (e : Fin 500000) (o : Fin 128) :
    foldOut x nb w γ β e o = centredOut x nb w γ β e o :=
  entry_law (n := 500000) (by norm_num) (cnt_eq.trans (by norm_num)) eps_real (hγ o) (hβ o) _
    (fun e' => lin_real hx hnb hw e' o) e

end Cert.EdgeNorm

end
-- ==== Proof.KValue.lean ====
/-
  The kernel program's result, as one function of its arguments.

  After the first kernel the layer's array holds `Y e o`, the layer of edge `e` at channel `o`, and the two partial-sum
  arrays hold its block sums and those of its squares; the hundred block sums of a channel add up to the sum over all the
  edges (a sum over 500000 indices taken in 100 consecutive blocks of 5000), so the host's two statistics are the channel's
  mean and mean of squares; the second kernel then writes `max (Y e o · scale o + shift o) 0`: the folded spelling of the
  normalised layer. The layer itself is the specification's: the reshaped gather puts neighbour `q`'s feature `j` at
  column `64 q + j`, and slab `p` of the stacked weights holds `w o (64 p + j)` at `(j, o)`.
-/
import proofs.«115342_j8323646619907_2_alg».proof.Proof.KIRun
import proofs.«115342_j8323646619907_2_alg».proof.Proof.KLayerArr
import proofs.«115342_j8323646619907_2_alg».proof.Proof.KNormArr
import proofs.«115342_j8323646619907_2_alg».proof.Proof.KHostMid
import proofs.«115342_j8323646619907_2_alg».proof.Proof.KHostIn
import proofs.«115342_j8323646619907_2_alg».proof.Proof.EdgeNorm

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Cert.EdgeNorm (cnt eps zw)

/-! ## The block sums add up to the column sums -/

/-- The hundred block sums of channel `o` are the sum over all the edges. -/
theorem block_sum (Y : Fin 500000 → Fin 128 → EReal) (o : Fin 128) :
    ∑ t : Fin 100, blockSums Y (ix3 t (0 : Fin 8) o) = ∑ e : Fin 500000, Y e o := by
  rw [← Cert.LibSums.sum_parts (a := 100) (b := 5000) (n := 500000) rfl (fun e => Y e o)]
  refine Finset.sum_congr rfl fun t _ => ?_
  unfold blockSums
  refine Finset.sum_congr rfl fun r _ => ?_
  exact congrArg₂ Y (Fin.ext (by show 5000 * t.val + r.val = t.val * 5000 + r.val; omega)) (Fin.ext rfl)

/-- So the host's first statistic is the column's mean … -/
theorem stat_mean (Y : Fin 500000 → Fin 128 → EReal) (o : Fin 128) :
    statRow (blockSums Y) (ix1 o) = Cert.EdgeNorm.mean cnt (fun e => Y e o) := by
  rw [statRow_apply, block_sum]; rfl

/-- … and its second the mean of the column's squares. -/
theorem stat_meanSq (Y : Fin 500000 → Fin 128 → EReal) (o : Fin 128) :
    statRow (blockSums fun e o => Y e o * Y e o) (ix1 o) = Cert.EdgeNorm.meanSq cnt (fun e => Y e o) := by
  rw [statRow_apply, block_sum]; rfl

/-- The second kernel's array over a layer `Y` and the host's scale and shift rows is the folded spelling of the
    normalised layer. -/
theorem norm_entry (Y : Fin 500000 → Fin 128 → EReal) (g b : S128.Idx → EReal) (e : Fin 500000) (o : Fin 128) :
    normArr (fun i => Y ⟨(i 0).val, (i 0).isLt⟩ ⟨(i 1).val, (i 1).isLt⟩)
        (asRow (scaleVec (blockSums Y) (blockSums fun e o => Y e o * Y e o) g))
        (asRow (shiftVec (blockSums Y) (blockSums fun e o => Y e o * Y e o) g b)) (ix2 e o)
      = Cert.EdgeNorm.foldEntry cnt eps (g (ix1 o)) (b (ix1 o)) (fun e' => Y e' o) e := by
  unfold normArr Cert.EdgeNorm.foldEntry Cert.EdgeNorm.foldScale
  show max (Y e o * asRow (scaleVec (blockSums Y) (blockSums fun e o => Y e o * Y e o) g) (ix2 (0 : Fin 1) o)
      + asRow (shiftVec (blockSums Y) (blockSums fun e o => Y e o * Y e o) g b) (ix2 (0 : Fin 1) o)) _ = _
  rw [shift_apply, scale_apply, stat_meanSq Y o, stat_mean Y o]

/-! ## The arrays at the regions' boundaries -/

variable (m : (ℓ : Loc nD τ sig) → Buf (Elt Ideal) ℓ) (c : Dev nD)

/-- The layer of the arrays the first kernel is entered with. -/
def layerOf : Fin 500000 → Fin 128 → EReal :=
  layerAt (Gen.V3 m c main_arg0) (Gen.V3 m c main_v8) (Gen.V3 m c main_v24)

/-- An argument the stretches before the second kernel never write is still the launch's. -/
theorem V4_arg3 : Gen.V4 m (outs m) c main_arg3 = m ((c : Thread nD τ).loc main_arg3) :=
  (Gen.V4_of m (outs m) c main_arg3 (by decide)).trans <| (Gen.V3_of m c main_arg3 (by decide)).trans <|
    (Gen.V2_of m c main_arg3 (by decide)).trans <| (Gen.V1_of m c main_arg3 (by decide)).trans rfl
theorem V4_arg4 : Gen.V4 m (outs m) c main_arg4 = m ((c : Thread nD τ).loc main_arg4) :=
  (Gen.V4_of m (outs m) c main_arg4 (by decide)).trans <| (Gen.V3_of m c main_arg4 (by decide)).trans <|
    (Gen.V2_of m c main_arg4 (by decide)).trans <| (Gen.V1_of m c main_arg4 (by decide)).trans rfl

/-- The second kernel is entered with the layer's array in its first window, -/
theorem entry_layer : Gen.V5 m (outs m) c main_v25_0
    = layerArr (Gen.V3 m c main_arg0) (Gen.V3 m c main_v8) (Gen.V3 m c main_v24) := by
  rw [Gen.V5_of m (outs m) c main_v25_0 (by decide), V4_v25_0, outs_h]
  exact final_layer (fun c b => Gen.V3 m c b) c

/-- the channels' scales in its second, -/
theorem entry_scale : Gen.V5 m (outs m) c main_v44
    = asRow (scaleVec (blockSums (layerOf m c)) (blockSums fun e o => layerOf m c e o * layerOf m c e o)
        (m ((c : Thread nD τ).loc main_arg3))) := by
  show StableHlo.after (hostOps1 (F := Ideal)) (Gen.V4 m (outs m) c) (Proc.devRef .tc main_v44) = _
  rw [mid_scale]
  have e1 : Gen.V4 m (outs m) c (Proc.devRef .tc main_v25_1) = blockSums (layerOf m c) :=
    ((V4_v25_1 m (outs m) c).trans (outs_sum m c)).trans (final_sum (fun c b => Gen.V3 m c b) c)
  have e2 : Gen.V4 m (outs m) c (Proc.devRef .tc main_v25_2) = blockSums fun e o => layerOf m c e o * layerOf m c e o :=
    ((V4_v25_2 m (outs m) c).trans (outs_sumsq m c)).trans (final_sumsq (fun c b => Gen.V3 m c b) c)
  rw [e1, e2, V4_arg3]

/-- and their shifts in its third. -/
theorem entry_shift : Gen.V5 m (outs m) c main_v45
    = asRow (shiftVec (blockSums (layerOf m c)) (blockSums fun e o => layerOf m c e o * layerOf m c e o)
        (m ((c : Thread nD τ).loc main_arg3)) (m ((c : Thread nD τ).loc main_arg4))) := by
  show StableHlo.after (hostOps1 (F := Ideal)) (Gen.V4 m (outs m) c) (Proc.devRef .tc main_v45) = _
  rw [mid_shift]
  have e1 : Gen.V4 m (outs m) c (Proc.devRef .tc main_v25_1) = blockSums (layerOf m c) :=
    ((V4_v25_1 m (outs m) c).trans (outs_sum m c)).trans (final_sum (fun c b => Gen.V3 m c b) c)
  have e2 : Gen.V4 m (outs m) c (Proc.devRef .tc main_v25_2) = blockSums fun e o => layerOf m c e o * layerOf m c e o :=
    ((V4_v25_2 m (outs m) c).trans (outs_sumsq m c)).trans (final_sumsq (fun c b => Gen.V3 m c b) c)
  rw [e1, e2, V4_arg3, V4_arg4]

/-- THE RESULT ARRAY at the end of the program, in terms of the layer of the first kernel's arrays. -/
theorem result_fold (e : Fin 500000) (o : Fin 128) :
    Gen.V6 m (outs m) c main_v46 (ix2 e o)
      = Cert.EdgeNorm.foldEntry cnt eps (m ((c : Thread nD τ).loc main_arg3) (ix1 o)) (m ((c : Thread nD τ).loc main_arg4) (ix1 o))
          (fun e' => layerOf m c e' o) e := by
  rw [V6_v46, outs_y, final_norm (fun c b => Gen.V5 m (outs m) c b) c]
  show normArr (Gen.V5 m (outs m) c main_v25_0) (Gen.V5 m (outs m) c main_v44) (Gen.V5 m (outs m) c main_v45) (ix2 e o) = _
  rw [entry_layer, entry_scale, entry_shift]
  exact norm_entry (layerOf m c) _ _ e o

/-! ## The layer is the specification's -/

/-- A row's five groups of features are the specification's, when the row of neighbours' features holds neighbour `q`'s
    feature `j` at column `64 q + j`. -/
theorem rowFeat_eq_feat {n : ℕ} (x : Fin n → Fin 64 → EReal) (nb : Fin n → Fin 4 → Fin 64 → EReal) (e : Fin n)
    (xr : Fin 64 → EReal) (nr : Fin 256 → EReal) (hx : ∀ j, xr j = x e j)
    (hn : ∀ (q : Fin 4) (j : Fin 64) (k : Fin 256), k.val = 64 * q.val + j.val → nr k = nb e q j)
    (p : Fin 5) (j : Fin 64) : rowFeat xr nr p j = Cert.EdgeNorm.feat x nb e p j := by
  match p with
  | ⟨0, _⟩ => exact hx j
  | ⟨1, _⟩ => exact congrArg₂ min (hn 0 j ⟨j.val, by omega⟩ (by show j.val = 64 * 0 + j.val; omega)) (hn 1 j ⟨64 + j.val, by omega⟩ (by show 64 + j.val = 64 * 1 + j.val; omega))
  | ⟨2, _⟩ => exact congrArg₂ max (hn 0 j ⟨j.val, by omega⟩ (by show j.val = 64 * 0 + j.val; omega)) (hn 1 j ⟨64 + j.val, by omega⟩ (by show 64 + j.val = 64 * 1 + j.val; omega))
  | ⟨3, _⟩ => exact congrArg₂ min (hn 2 j ⟨128 + j.val, by omega⟩ (by show 128 + j.val = 64 * 2 + j.val; omega)) (hn 3 j ⟨192 + j.val, by omega⟩ (by show 192 + j.val = 64 * 3 + j.val; omega))
  | ⟨4, _⟩ => exact congrArg₂ max (hn 2 j ⟨128 + j.val, by omega⟩ (by show 128 + j.val = 64 * 2 + j.val; omega)) (hn 3 j ⟨192 + j.val, by omega⟩ (by show 192 + j.val = 64 * 3 + j.val; omega))
  | ⟨k + 5, h⟩ => exact absurd h (by omega)

/-- The layer of the first kernel's arrays is the linear layer of the edges' features: `x` the first argument, the
    neighbours' rows the gathered rows, `w` the third argument. -/
theorem layer_lin (e : Fin 500000) (o : Fin 128) :
    layerOf m c e o
      = Cert.EdgeNorm.lin (fun e j => m ((c : Thread nD τ).loc main_arg0) (ix2 e j))
          (fun e q j => gathered (m ((c : Thread nD τ).loc main_arg0)) (m ((c : Thread nD τ).loc main_arg1)) (ix3 e q j))
          (fun o k => m ((c : Thread nD τ).loc main_arg2) (ix2 o k)) e o := by
  unfold layerOf layerAt rowLayer Cert.EdgeNorm.lin
  refine Finset.sum_congr rfl fun p _ => Finset.sum_congr rfl fun j _ => ?_
  refine congrArg₂ (· * ·) ?_ (V3_w m c p j o ⟨p.val * 64 + j.val, Cert.LibSums.part_lt p j⟩ rfl)
  exact rowFeat_eq_feat _ _ e _ _ (fun j => V3_x m c (ix2 e j)) (fun q j k hk => V3_nb m c e q j k hk) p j

/-- THE KERNEL PROGRAM'S RESULT: the folded spelling of the specification, of its five arguments. -/
theorem kernel_value (e : Fin 500000) (o : Fin 128) :
    Gen.V6 m (outs m) c main_v46 (ix2 e o)
      = Cert.EdgeNorm.foldOut (fun e j => m ((c : Thread nD τ).loc main_arg0) (ix2 e j))
          (fun e q j => gathered (m ((c : Thread nD τ).loc main_arg0)) (m ((c : Thread nD τ).loc main_arg1)) (ix3 e q j))
          (fun o k => m ((c : Thread nD τ).loc main_arg2) (ix2 o k))
          (fun o => m ((c : Thread nD τ).loc main_arg3) (ix1 o)) (fun o => m ((c : Thread nD τ).loc main_arg4) (ix1 o)) e o := by
  rw [result_fold]
  unfold Cert.EdgeNorm.foldOut
  exact congrArg (fun y => Cert.EdgeNorm.foldEntry cnt eps _ _ y e) (funext fun e' => layer_lin m c e' o)

end Cert.KernelIdeal.Val

end
-- ==== Proof.KGatherRef.lean ====
/- The gathered rows, as the reference program writes them: the kernel program's index chain before its gather and the
   reference's are the same composition of the same operations on the same arguments, spelt in two vocabularies. -/
import proofs.«115342_j8323646619907_2_alg».proof.Proof.KHostIn
import proofs.«115342_j8323646619907_2_alg».proof.Proof.RefReadH

noncomputable section

namespace Cert.KernelIdeal.Val

open Idealize.ShloMosaic

/-- `gathered` is the value the reference's gather writes: both are the gather of `x0` at the clamped, wrapped
    neighbour indices broadcast to `[500000, 4, 1]`; the reference's two conversions are identities. -/
theorem gathered_eq_ref (x0 : Cert.KernelIdeal.S500000x64.Idx → EReal) (x1 : IVec Cert.KernelIdeal.S500000x4 32) :
    gathered x0 x1 = Cert.ReferenceIdeal.ReadH.val_main_v7 (F := Ideal) x0 x1 := by
  unfold gathered wrapped clamped
  unfold Cert.ReferenceIdeal.ReadH.val_main_v7 Cert.ReferenceIdeal.ReadH.val_main_v6 Cert.ReferenceIdeal.ReadH.val_main_v5 Cert.ReferenceIdeal.ReadH.val_main_v4 Cert.ReferenceIdeal.ReadH.val_main_v3 Cert.ReferenceIdeal.ReadH.val_main_c_2
    Cert.ReferenceIdeal.ReadH.val_main_v2 Cert.ReferenceIdeal.ReadH.val_main_v1 Cert.ReferenceIdeal.ReadH.val_main_c_1 Cert.ReferenceIdeal.ReadH.val_main_v0 Cert.ReferenceIdeal.ReadH.val_main_call0_v4 Cert.ReferenceIdeal.ReadH.val_main_call0_v3
    Cert.ReferenceIdeal.ReadH.val_main_call0_v2 Cert.ReferenceIdeal.ReadH.val_main_call0_v1 Cert.ReferenceIdeal.ReadH.val_main_call0_v0 Cert.ReferenceIdeal.ReadH.val_main_c_0 Cert.ReferenceIdeal.ReadH.val_main_c
  rfl

end Cert.KernelIdeal.Val

end
-- ==== Proof.RefIdx.lean ====
/-
  The reference's layout operations read at an index given by its coordinates.

  A slice of the gathered rows `[500000, 4, 64]` at neighbour `q` followed by the reshape `[500000, 1, 64] → [500000, 64]`
  reads, at `(e, j)`, the gathered rows at `(e, q, j)`: the reshape's row-major arithmetic `(64 e + j) / 64 = e`,
  `(64 e + j) % 64 = j` is done here once. The four entrywise minima and maxima then read at `(e, j)` as the minimum or
  maximum of two gathered entries. A concatenation of five `[500000, 64]` pieces along the second axis reads, at
  `(e, 64 p + j)`, piece `p` at `(e, j)`. The transposed weights read at `(k, o)` are the weights at `(o, k)`. The
  broadcasts of a per-channel vector `[128] → [1, 128] → [500000, 128]` read at `(e, o)` the vector at `o`, and the
  column sums over the 500000 rows read column `o` at `(k, o)`.
-/
import proofs.«115342_j8323646619907_2_alg».proof.Proof.RefReadH

noncomputable section

open scoped BigOperators

namespace Cert.ReferenceIdeal.RefValue

open Idealize.ShloMosaic Idealize.ShloMosaic.ValueIdx Cert.ReferenceIdeal Cert.ReferenceIdeal.ReadH

/-! ## Slices of the gathered rows -/

/-- An index of the gathered rows whose coordinates are `(64 e + j) / 64`, `q`, `(64 e + j) % 64` is `(e, q, j)`. -/
theorem eq_ix3_of (e : Fin 500000) (q : Fin 4) (j : Fin 64) (i : S500000x4x64.Idx)
    (h0 : (i 0).val = (e.val * 64 + j.val) / 64) (h1 : (i 1).val = q.val)
    (h2 : (i 2).val = (e.val * 64 + j.val) % 64) : i = ix3 e q j := by
  have he := e.isLt
  have hj := j.isLt
  funext a
  match a with
  | ⟨0, _⟩ => exact Fin.ext (by show (i 0).val = e.val; omega)
  | ⟨1, _⟩ => exact Fin.ext h1
  | ⟨2, _⟩ => exact Fin.ext (by show (i 2).val = j.val; omega)

theorem row_v8 (e : Fin 500000) (j : Fin 64) : idx_main_v8 (idx_main_v9 (ix2 e j)) = ix3 e 0 j :=
  eq_ix3_of e 0 j _ rfl rfl rfl
theorem row_v10 (e : Fin 500000) (j : Fin 64) : idx_main_v10 (idx_main_v11 (ix2 e j)) = ix3 e 1 j :=
  eq_ix3_of e 1 j _ rfl rfl rfl
theorem row_v13 (e : Fin 500000) (j : Fin 64) : idx_main_v13 (idx_main_v14 (ix2 e j)) = ix3 e 0 j :=
  eq_ix3_of e 0 j _ rfl rfl rfl
theorem row_v15 (e : Fin 500000) (j : Fin 64) : idx_main_v15 (idx_main_v16 (ix2 e j)) = ix3 e 1 j :=
  eq_ix3_of e 1 j _ rfl rfl rfl
theorem row_v18 (e : Fin 500000) (j : Fin 64) : idx_main_v18 (idx_main_v19 (ix2 e j)) = ix3 e 2 j :=
  eq_ix3_of e 2 j _ rfl rfl rfl
theorem row_v20 (e : Fin 500000) (j : Fin 64) : idx_main_v20 (idx_main_v21 (ix2 e j)) = ix3 e 3 j :=
  eq_ix3_of e 3 j _ rfl rfl rfl
theorem row_v23 (e : Fin 500000) (j : Fin 64) : idx_main_v23 (idx_main_v24 (ix2 e j)) = ix3 e 2 j :=
  eq_ix3_of e 2 j _ rfl rfl rfl
theorem row_v25 (e : Fin 500000) (j : Fin 64) : idx_main_v25 (idx_main_v26 (ix2 e j)) = ix3 e 3 j :=
  eq_ix3_of e 3 j _ rfl rfl rfl

section Operands

variable (x0 : (⟨S500000x64, .f32⟩ : BufTy).Contents (Elt Ideal)) (x1 : (⟨S500000x4, .i32⟩ : BufTy).Contents (Elt Ideal))
  (e : Fin 500000) (j : Fin 64)

/-- The smaller of the first two neighbours' rows, entrywise. -/
theorem v12_read : val_main_v12 (F := Ideal) x0 x1 (ix2 e j)
    = min (val_main_v7 (F := Ideal) x0 x1 (ix3 e 0 j)) (val_main_v7 (F := Ideal) x0 x1 (ix3 e 1 j)) := by
  rw [val_main_v12_apply, Ideal.minimumf_def, val_main_v9_apply, val_main_v8_apply, val_main_v11_apply,
    val_main_v10_apply, row_v8, row_v10]

/-- The larger of the first two neighbours' rows, entrywise. -/
theorem v17_read : val_main_v17 (F := Ideal) x0 x1 (ix2 e j)
    = max (val_main_v7 (F := Ideal) x0 x1 (ix3 e 0 j)) (val_main_v7 (F := Ideal) x0 x1 (ix3 e 1 j)) := by
  rw [val_main_v17_apply, Ideal.maximumf_def, val_main_v14_apply, val_main_v13_apply, val_main_v16_apply,
    val_main_v15_apply, row_v13, row_v15]

/-- The smaller of the last two neighbours' rows, entrywise. -/
theorem v22_read : val_main_v22 (F := Ideal) x0 x1 (ix2 e j)
    = min (val_main_v7 (F := Ideal) x0 x1 (ix3 e 2 j)) (val_main_v7 (F := Ideal) x0 x1 (ix3 e 3 j)) := by
  rw [val_main_v22_apply, Ideal.minimumf_def, val_main_v19_apply, val_main_v18_apply, val_main_v21_apply,
    val_main_v20_apply, row_v18, row_v20]

/-- The larger of the last two neighbours' rows, entrywise. -/
theorem v27_read : val_main_v27 (F := Ideal) x0 x1 (ix2 e j)
    = max (val_main_v7 (F := Ideal) x0 x1 (ix3 e 2 j)) (val_main_v7 (F := Ideal) x0 x1 (ix3 e 3 j)) := by
  rw [val_main_v27_apply, Ideal.maximumf_def, val_main_v24_apply, val_main_v23_apply, val_main_v26_apply,
    val_main_v25_apply, row_v23, row_v25]

end Operands

/-! ## The concatenation of five pieces -/

/-- Five pieces of shape `[500000, 64]` laid side by side along the second axis: the entry at `(e, 64 p + j)` is piece
    `p`'s entry at `(e, j)`. -/
theorem cat5_apply {α : Type} (y : Fin 5 → S500000x64.Idx → α)
    (h : Shape.Concatenates ((List.ofFn fun n : Fin 5 => (⟨S500000x64, y n⟩ : (s : Shape) × (s.Idx → α))).map (·.1))
      S500000x320 1)
    (e : Fin 500000) (p : Fin 5) (j : Fin 64) (hk : p.val * 64 + j.val < 320) :
    concatenate S500000x320 1 (List.ofFn fun n : Fin 5 => (⟨S500000x64, y n⟩ : (s : Shape) × (s.Idx → α))) h
      (ix2 e ⟨p.val * 64 + j.val, hk⟩) = y p (ix2 e j) := by
  have hp := p.isLt
  have hj := j.isLt
  refine concatenate_ofFn_apply (t := S500000x320) (s₁ := S500000x64) 1 y h rfl 64 rfl _ p ?_ (ix2 e j) ?_ ?_
  · show (p.val * 64 + j.val) / 64 = p.val
    omega
  · show j.val = (p.val * 64 + j.val) % 64
    omega
  · intro b hb
    match b with
    | ⟨0, _⟩ => rfl
    | ⟨1, _⟩ => exact absurd rfl hb

/-! ## The layer's two operands at the contraction index -/

theorem lidx_v30 (e : Fin 500000) (o : Fin 128) (k : Fin 320) : lidx_main_v30 (ix2 e o) k = ix2 e k := by
  funext a
  match a with
  | ⟨0, _⟩ => rfl
  | ⟨1, _⟩ => rfl

theorem ridx_v30 (e : Fin 500000) (o : Fin 128) (k : Fin 320) :
    idx_main_v29 (ridx_main_v30 (ix2 e o) k) = ix2 o k := by
  funext a
  match a with
  | ⟨0, _⟩ => rfl
  | ⟨1, _⟩ => rfl

/-- The transposed weights at `(k, o)` are the weights at `(o, k)`. -/
theorem v29_read (x2 : (⟨S128x320, .f32⟩ : BufTy).Contents (Elt Ideal)) (e : Fin 500000) (o : Fin 128) (k : Fin 320) :
    val_main_v29 (F := Ideal) x2 (ridx_main_v30 (ix2 e o) k) = x2 (ix2 o k) := by
  rw [val_main_v29_apply, ridx_v30]

/-! ## Per-channel vectors broadcast down the rows, and columns summed -/

theorem col_v31 (o : Fin 128) (k : Fin 500000) : idx_main_v31 (ix1 o) k = ix2 k o := by
  funext a
  match a with
  | ⟨0, _⟩ => rfl
  | ⟨1, _⟩ => rfl

theorem col_v38 (o : Fin 128) (k : Fin 500000) : idx_main_v38 (ix1 o) k = ix2 k o := by
  funext a
  match a with
  | ⟨0, _⟩ => rfl
  | ⟨1, _⟩ => rfl

theorem chan_v35 (e : Fin 500000) (o : Fin 128) : idx_main_v34 (idx_main_v35 (ix2 e o)) = ix1 o := by
  funext a
  match a with
  | ⟨0, _⟩ => rfl

theorem chan_v42 (e : Fin 500000) (o : Fin 128) : idx_main_v41 (idx_main_v42 (ix2 e o)) = ix1 o := by
  funext a
  match a with
  | ⟨0, _⟩ => rfl

theorem chan_v49 (e : Fin 500000) (o : Fin 128) : idx_main_v48 (idx_main_v49 (ix2 e o)) = ix1 o := by
  funext a
  match a with
  | ⟨0, _⟩ => rfl

theorem chan_v52 (e : Fin 500000) (o : Fin 128) : idx_main_v51 (idx_main_v52 (ix2 e o)) = ix1 o := by
  funext a
  match a with
  | ⟨0, _⟩ => rfl

end Cert.ReferenceIdeal.RefValue

end
-- ==== Proof.RefLin.lean ====
/-
  The reference's linear layer is the specification's.

  The contraction over the 320 features is regrouped as five groups of 64. The concatenated feature row of edge `e` at
  position `64 p + j` is group `p`'s entry `j`: the edge's own row, or the entrywise minimum or maximum of a pair of its
  gathered neighbour rows. The transposed weight at `(64 p + j, o)` is the weight at `(o, 64 p + j)`.
-/
import proofs.«115342_j8323646619907_2_alg».proof.Proof.RefIdx
import proofs.«115342_j8323646619907_2_alg».proof.Proof.EdgeNorm

noncomputable section

open scoped BigOperators

namespace Cert.ReferenceIdeal.RefValue

open Idealize.ShloMosaic Idealize.ShloMosaic.ValueIdx Cert.ReferenceIdeal Cert.ReferenceIdeal.ReadH

variable (x0 : (⟨S500000x64, .f32⟩ : BufTy).Contents (Elt Ideal)) (x1 : (⟨S500000x4, .i32⟩ : BufTy).Contents (Elt Ideal))
  (x2 : (⟨S128x320, .f32⟩ : BufTy).Contents (Elt Ideal))

/-- The concatenated features of edge `e` at position `64 p + j`: feature `j` of group `p`. -/
theorem v28_read (e : Fin 500000) (p : Fin 5) (j : Fin 64) (hk : p.val * 64 + j.val < 320) :
    val_main_v28 (F := Ideal) x0 x1 (ix2 e ⟨p.val * 64 + j.val, hk⟩)
      = Cert.EdgeNorm.feat (fun e j => x0 (ix2 e j)) (fun e q j => val_main_v7 (F := Ideal) x0 x1 (ix3 e q j)) e p j := by
  unfold val_main_v28
  refine (cat5_apply (α := EReal) (fun n : Fin 5 => match n with
      | 0 => x0
      | 1 => val_main_v12 (F := Ideal) x0 x1
      | 2 => val_main_v17 (F := Ideal) x0 x1
      | 3 => val_main_v22 (F := Ideal) x0 x1
      | 4 => val_main_v27 (F := Ideal) x0 x1) _ e p j hk).trans ?_
  match p with
  | 0 => rfl
  | 1 => exact v12_read x0 x1 e j
  | 2 => exact v17_read x0 x1 e j
  | 3 => exact v22_read x0 x1 e j
  | 4 => exact v27_read x0 x1 e j

/-- The layer: channel `o` of edge `e` is the specification's sum over the five groups. -/
theorem lin_eq (e : Fin 500000) (o : Fin 128) :
    val_main_v30 (F := Ideal) x0 x1 x2 (ix2 e o)
      = Cert.EdgeNorm.lin (fun e j => x0 (ix2 e j)) (fun e q j => val_main_v7 (F := Ideal) x0 x1 (ix3 e q j))
          (fun o k => x2 (ix2 o k)) e o := by
  rw [val_main_v30_apply]
  refine (Cert.LibSums.sum_parts (a := 5) (b := 64) (n := 320) rfl _).symm.trans ?_
  unfold Cert.EdgeNorm.lin
  refine Finset.sum_congr rfl fun p _ => Finset.sum_congr rfl fun j _ => ?_
  beta_reduce
  rw [lidx_v30, v29_read, v28_read]

end Cert.ReferenceIdeal.RefValue

end
-- ==== Proof.RefNorm.lean ====
/-
  The reference's normalisation is the specification's centred spelling.

  For a channel `o`, write `Y` for the layer's column `o` over the 500000 edges. The reference sums the column from the
  zero word and divides by the count word: the column's mean. It subtracts the mean, squares, sums and divides again: the
  mean squared deviation. It adds the stabiliser, takes the root, divides the channel's scale by it, multiplies the
  centred entry by the quotient, adds the channel's shift and takes the maximum with the zero word. That is the centred
  spelling of the specification entry by entry; the float words are never evaluated.
-/
import proofs.«115342_j8323646619907_2_alg».proof.Proof.RefLin

noncomputable section

open scoped BigOperators

namespace Cert.ReferenceIdeal.RefValue

open Idealize.ShloMosaic Idealize.ShloMosaic.ValueIdx Cert.ReferenceIdeal Cert.ReferenceIdeal.ReadH Cert.EdgeNorm

variable (x0 : (⟨S500000x64, .f32⟩ : BufTy).Contents (Elt Ideal)) (x1 : (⟨S500000x4, .i32⟩ : BufTy).Contents (Elt Ideal))
  (x2 : (⟨S128x320, .f32⟩ : BufTy).Contents (Elt Ideal)) (x3 x4 : (⟨S128, .f32⟩ : BufTy).Contents (Elt Ideal))

/-- The column's sum from the zero word over the count word is the column's mean. -/
theorem v33_read (o : Fin 128) (Y : Fin 500000 → EReal)
    (hY : ∀ e', val_main_v30 (F := Ideal) x0 x1 x2 (ix2 e' o) = Y e') :
    val_main_v33 (F := Ideal) x0 x1 x2 (ix1 o) = mean cnt Y := by
  rw [val_main_v33_apply, Ideal.hostDivf_def, val_main_v31_apply, val_main_cst_apply, val_main_v32_apply,
    val_main_cst_3_apply]
  simp only [col_v31, hY, Ideal.ofBits_def]
  rfl

/-- The sum of the squared deviations from the mean over the count word is the mean squared deviation. -/
theorem v40_read (o : Fin 128) (Y : Fin 500000 → EReal)
    (hY : ∀ e', val_main_v30 (F := Ideal) x0 x1 x2 (ix2 e' o) = Y e') :
    val_main_v40 (F := Ideal) x0 x1 x2 (ix1 o) = devSq cnt Y := by
  rw [val_main_v40_apply, Ideal.hostDivf_def, val_main_v38_apply, val_main_cst_4_apply, val_main_v39_apply,
    val_main_cst_5_apply]
  simp only [col_v38, val_main_v37_apply, val_main_v36_apply, val_main_v35_apply, val_main_v34_apply, chan_v35,
    v33_read x0 x1 x2 o Y hY, hY, Ideal.mulf_def, Ideal.subf_def, Ideal.ofBits_def]
  rfl

/-- The channel's scale over the root of the stabilised mean squared deviation. -/
theorem v47_read (o : Fin 128) (Y : Fin 500000 → EReal)
    (hY : ∀ e', val_main_v30 (F := Ideal) x0 x1 x2 (ix2 e' o) = Y e') :
    val_main_v47 (F := Ideal) x0 x1 x2 x3 (ix1 o) = Ideal.div (x3 (ix1 o)) (Ideal.sqrt (devSq cnt Y + eps)) := by
  rw [val_main_v47_apply, Ideal.hostDivf_def, val_main_v46_apply, Ideal.hostUnary_sqrt_def, val_main_v45_apply,
    Ideal.addf_def, v40_read x0 x1 x2 o Y hY, val_main_v44_apply, val_main_cst_6_apply, Ideal.ofBits_def]

/-- An entry of the reference's result in terms of the layer's column: the centred spelling. -/
theorem v55_read (e : Fin 500000) (o : Fin 128) (Y : Fin 500000 → EReal)
    (hY : ∀ e', val_main_v30 (F := Ideal) x0 x1 x2 (ix2 e' o) = Y e') :
    val_main_v55 (F := Ideal) x0 x1 x2 x3 x4 (ix2 e o) = centredEntry cnt eps (x3 (ix1 o)) (x4 (ix1 o)) Y e := by
  rw [val_main_v55_apply, Ideal.maximumf_def, val_main_v54_apply, val_main_cst_7_apply, Ideal.ofBits_def,
    val_main_v53_apply, Ideal.addf_def, val_main_v52_apply, val_main_v51_apply, chan_v52,
    val_main_v50_apply, Ideal.mulf_def, val_main_v49_apply, val_main_v48_apply, chan_v49,
    v47_read x0 x1 x2 x3 o Y hY, val_main_v43_apply, Ideal.subf_def, val_main_v42_apply, val_main_v41_apply, chan_v42,
    v33_read x0 x1 x2 o Y hY, hY e]
  rfl

/-- The reference's result, entry by entry, is the specification's centred spelling of the five arguments, the gathered
    neighbour rows taken as they are. -/
theorem result_eq (e : Fin 500000) (o : Fin 128) :
    Cert.ReferenceIdeal.ReadH.val_main_v55 (F := Ideal) x0 x1 x2 x3 x4 (ix2 e o)
      = Cert.EdgeNorm.centredOut (fun e j => x0 (ix2 e j))
          (fun e q j => Cert.ReferenceIdeal.ReadH.val_main_v7 (F := Ideal) x0 x1 (ix3 e q j))
          (fun o k => x2 (ix2 o k)) (fun o => x3 (ix1 o)) (fun o => x4 (ix1 o)) e o :=
  v55_read x0 x1 x2 x3 x4 e o _ (fun e' => lin_eq x0 x1 x2 e' o)

end Cert.ReferenceIdeal.RefValue

end
-- ==== Proof.RefGather.lean ====
/-
  The gathered neighbour rows: every entry of the gather's result is, by the gather's definition, one entry of the table
  of rows it reads. So if every entry of the table is a real number, every gathered entry is one.
-/
import proofs.«115342_j8323646619907_2_alg».proof.Proof.RefReadH
import proofs.«115342_j8323646619907_2_alg».proof.Proof.LibReal

noncomputable section

namespace Cert.ReferenceIdeal.RefValue

open Idealize.ShloMosaic Cert.ReferenceIdeal Cert.LibReal

/-- A gathered entry is an entry of the table: real when every entry of the table is. -/
theorem gathered_real (x0 : (⟨S500000x64, .f32⟩ : BufTy).Contents (Elt Ideal))
    (x1 : (⟨S500000x4, .i32⟩ : BufTy).Contents (Elt Ideal)) (hx : ∀ i, IsReal (x0 i)) (i : S500000x4x64.Idx) :
    IsReal (Cert.ReferenceIdeal.ReadH.val_main_v7 (F := Ideal) x0 x1 i) := by
  unfold Cert.ReferenceIdeal.ReadH.val_main_v7 Host.gather
  exact hx _

end Cert.ReferenceIdeal.RefValue

end
-- ==== Proof.RefPre.lean ====
/-
  The precondition decoded. The predicate conjoins four tests, one per float argument, each "every entry's absolute
  value is below +∞". An extended real whose absolute value is below +∞ is neither infinity, so it is a real number:
  when the predicate holds, every entry of the four float arguments is a real number.
-/
import proofs.«115342_j8323646619907_2_alg».proof.Pre_finite_inputs
import Idealize.ShloMosaic.Lib.ReduceAll
import Idealize.ShloMosaic.Lib.ValueIdx
import Idealize.ShloMosaic.PureOps.Ideal
import Idealize.ShloMosaic.PureOps.Ideal.Laws
import proofs.«115342_j8323646619907_2_alg».proof.Proof.LibReal

noncomputable section

namespace Cert.ReferenceIdeal.RefValue

open Idealize.ShloMosaic Cert.LibReal

/-- The word with all exponent bits set and no others is +∞. -/
theorem ofBits_inf : Ideal.ofBits .f32 0x7F800000#32 = (⊤ : EReal) := by
  simp [Ideal.ofBits, Ideal.ieee]

/-- An extended real whose absolute value `max x (-x)` is below +∞ is a real number. -/
theorem isReal_of_abs_lt_top (x : EReal) (h : max x (-x) < ⊤) : IsReal x := by
  induction x using EReal.rec with
  | bot => simp at h
  | coe r => exact ⟨r, rfl⟩
  | top => simp at h

/-- The same, from the one-bit result of the comparison "absolute value below the +∞ word". -/
theorem isReal_of_finite_bit (x : EReal)
    (h : Ideal.cmp .olt (max x (-x)) (Ideal.ofBits .f32 0x7F800000#32) = 1#1) : IsReal x := by
  refine isReal_of_abs_lt_top x ?_
  rw [ofBits_inf] at h
  have h' : BitVec.ofBool (decide (max x (-x) < (⊤ : EReal))) = 1#1 := h
  by_contra hn
  rw [decide_eq_false hn] at h'
  exact absurd h' (by decide)

/-- When the finiteness predicate holds of the five arguments, every entry of the four float ones is a real number. -/
theorem inputs_real [Cert.Pre_finite_inputs.Facts]
    (x0 : FVec Ideal Cert.Pre_finite_inputs.S500000x64 .f32) (x1 : IVec Cert.Pre_finite_inputs.S500000x4 32)
    (x2 : FVec Ideal Cert.Pre_finite_inputs.S128x320 .f32) (x3 x4 : FVec Ideal Cert.Pre_finite_inputs.S128 .f32)
    (h : Cert.Pre_finite_inputs.fn (F := Ideal) x0 x1 x2 x3 x4 = fun _ => 1#1) :
    (∀ i, IsReal (x0 i)) ∧ (∀ i, IsReal (x2 i)) ∧ (∀ i, IsReal (x3 i)) ∧ (∀ i, IsReal (x4 i)) := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h012, h4⟩ := IntOp.andi_eq_one.1 h0
  obtain ⟨h01, h3⟩ := IntOp.andi_eq_one.1 h012
  obtain ⟨h0', h2⟩ := IntOp.andi_eq_one.1 h01
  exact ⟨fun i => isReal_of_finite_bit _ (Host.reduce_andi_all _ _ _ _ _ h0' i),
    fun i => isReal_of_finite_bit _ (Host.reduce_andi_all _ _ _ _ _ h2 i),
    fun i => isReal_of_finite_bit _ (Host.reduce_andi_all _ _ _ _ _ h3 i),
    fun i => isReal_of_finite_bit _ (Host.reduce_andi_all _ _ _ _ _ h4 i)⟩

end Cert.ReferenceIdeal.RefValue

end
-- ==== Proof.RefRunH.lean ====
/- The reference program's run, by hand, in three stretches.
   @main is a straight line of 71 host operations. Read as one fold, the result reaches the gathered rows along dozens of
   paths; cut after the gather and after the matrix product, each stretch is read at the ONE buffer the next stretch needs,
   with that buffer's earlier value kept as a name: the gathered rows `val_main_v7`, the product `val_main_v30`, the result
   `val_main_v55` (the reference's values, one definition per operation). The arguments are written by no operation. From
   the three: every weakly fair execution of @main terminates with the result at `val_main_v55` of the arguments' launch
   contents and the arguments unchanged. -/
import proofs.«115342_j8323646619907_2_alg».proof.Proof.RefReadH
import proofs.«115342_j8323646619907_2_alg».proof.Proof.LibJoinFive
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## @main as a list of host operations, cut in three stretches -/

/-- The first stretch: the index arithmetic (the clamp, spelt over typed references, then the wrap of negative
    indices) and the gather of the first argument's rows — 17 operations, through `main_v7`. -/
abbrev opsA : List (HloOp τ sig (Elt F)) :=
  [ nullary main_c (constantI S_ 32 0#32),
    nullary main_c_0 (constantI S_ 32 499999#32),
    TRef.unary (TRef.of (T := ⟨S_, .i32⟩) main_c) (TRef.of (T := ⟨S_, .i32⟩) main_call0_v0) id,
    TRef.unary (TRef.of (T := ⟨S_, .i32⟩) main_call0_v0) (TRef.of (T := ⟨S500000x4, .i32⟩) main_call0_v1) (broadcastInDim S500000x4 ![] bcast_S_S500000x4),
    TRef.binary (TRef.of (T := ⟨S500000x4, .i32⟩) main_call0_v1) (TRef.of (T := ⟨S500000x4, .i32⟩) main_arg1) (TRef.of (T := ⟨S500000x4, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S500000x4, .i32⟩) main_call0_v4) (broadcastInDim S500000x4 ![] bcast_S_S500000x4),
    TRef.binary (TRef.of (T := ⟨S500000x4, .i32⟩) main_call0_v4) (TRef.of (T := ⟨S500000x4, .i32⟩) main_call0_v2) (TRef.of (T := ⟨S500000x4, .i32⟩) main_v0) minsi,
    nullary main_c_1 (constantI S_ 32 0#32),
    unary main_c_1 main_v1 (broadcastInDim S500000x4 ![] bcast_S_S500000x4 : (⟨S_, .i32⟩ : BufTy).Contents (Elt F) → (⟨S500000x4, .i32⟩ : BufTy).Contents (Elt F)),
    binary main_v0 main_v1 main_v2 (cmpi .slt : (⟨S500000x4, .i32⟩ : BufTy).Contents (Elt F) → (⟨S500000x4, .i32⟩ : BufTy).Contents (Elt F) → (⟨S500000x4, .i1⟩ : BufTy).Contents (Elt F)),
    nullary main_c_2 (constantI S_ 32 500000#32),
    unary main_c_2 main_v3 (broadcastInDim S500000x4 ![] bcast_S_S500000x4 : (⟨S_, .i32⟩ : BufTy).Contents (Elt F) → (⟨S500000x4, .i32⟩ : BufTy).Contents (Elt F)),
    binary main_v0 main_v3 main_v4 (addi : (⟨S500000x4, .i32⟩ : BufTy).Contents (Elt F) → (⟨S500000x4, .i32⟩ : BufTy).Contents (Elt F) → (⟨S500000x4, .i32⟩ : BufTy).Contents (Elt F)),
    ternary main_v2 main_v4 main_v0 main_v5 (select : (⟨S500000x4, .i1⟩ : BufTy).Contents (Elt F) → (⟨S500000x4, .i32⟩ : BufTy).Contents (Elt F) → (⟨S500000x4, .i32⟩ : BufTy).Contents (Elt F) → (⟨S500000x4, .i32⟩ : BufTy).Contents (Elt F)),
    unary main_v5 main_v6 (broadcastInDim S500000x4x1 ![0, 1] bcast_S500000x4_S500000x4x1_0_1 : (⟨S500000x4, .i32⟩ : BufTy).Contents (Elt F) → (⟨S500000x4x1, .i32⟩ : BufTy).Contents (Elt F)),
    binary main_arg0 main_v6 main_v7 ((fun x i => Host.gather gather_S500000x64_S500000x4x1_S500000x4x64_2_0_n_n_0_2_164 x i) : (⟨S500000x64, .f32⟩ : BufTy).Contents (Elt F) → (⟨S500000x4x1, .i32⟩ : BufTy).Contents (Elt F) → (⟨S500000x4x64, .f32⟩ : BufTy).Contents (Elt F)) ]

/-- The second stretch: the four neighbours cut out of the gathered rows, their pairwise minima and maxima, the five
    blocks joined side by side, the weights transposed, and the matrix product — 23 operations, through `main_v30`. -/
abbrev opsB : List (HloOp τ sig (Elt F)) :=
  [ unary main_v7 main_v8 ((extractStridedSlice S500000x1x64 ![0, 0, 0] · slices_S500000x4x64_S500000x1x64_0_0_0) : (⟨S500000x4x64, .f32⟩ : BufTy).Contents (Elt F) → (⟨S500000x1x64, .f32⟩ : BufTy).Contents (Elt F)),
    reshape main_v8 main_v9 rfl shapeCasts_S500000x1x64_S500000x64,
    unary main_v7 main_v10 ((extractStridedSlice S500000x1x64 ![0, 1, 0] · slices_S500000x4x64_S500000x1x64_0_1_0) : (⟨S500000x4x64, .f32⟩ : BufTy).Contents (Elt F) → (⟨S500000x1x64, .f32⟩ : BufTy).Contents (Elt F)),
    reshape main_v10 main_v11 rfl shapeCasts_S500000x1x64_S500000x64,
    binary main_v9 main_v11 main_v12 (minimumf : (⟨S500000x64, .f32⟩ : BufTy).Contents (Elt F) → (⟨S500000x64, .f32⟩ : BufTy).Contents (Elt F) → (⟨S500000x64, .f32⟩ : BufTy).Contents (Elt F)),
    unary main_v7 main_v13 ((extractStridedSlice S500000x1x64 ![0, 0, 0] · slices_S500000x4x64_S500000x1x64_0_0_0) : (⟨S500000x4x64, .f32⟩ : BufTy).Contents (Elt F) → (⟨S500000x1x64, .f32⟩ : BufTy).Contents (Elt F)),
    reshape main_v13 main_v14 rfl shapeCasts_S500000x1x64_S500000x64,
    unary main_v7 main_v15 ((extractStridedSlice S500000x1x64 ![0, 1, 0] · slices_S500000x4x64_S500000x1x64_0_1_0) : (⟨S500000x4x64, .f32⟩ : BufTy).Contents (Elt F) → (⟨S500000x1x64, .f32⟩ : BufTy).Contents (Elt F)),
    reshape main_v15 main_v16 rfl shapeCasts_S500000x1x64_S500000x64,
    binary main_v14 main_v16 main_v17 (maximumf : (⟨S500000x64, .f32⟩ : BufTy).Contents (Elt F) → (⟨S500000x64, .f32⟩ : BufTy).Contents (Elt F) → (⟨S500000x64, .f32⟩ : BufTy).Contents (Elt F)),
    unary main_v7 main_v18 ((extractStridedSlice S500000x1x64 ![0, 2, 0] · slices_S500000x4x64_S500000x1x64_0_2_0) : (⟨S500000x4x64, .f32⟩ : BufTy).Contents (Elt F) → (⟨S500000x1x64, .f32⟩ : BufTy).Contents (Elt F)),
    reshape main_v18 main_v19 rfl shapeCasts_S500000x1x64_S500000x64,
    unary main_v7 main_v20 ((extractStridedSlice S500000x1x64 ![0, 3, 0] · slices_S500000x4x64_S500000x1x64_0_3_0) : (⟨S500000x4x64, .f32⟩ : BufTy).Contents (Elt F) → (⟨S500000x1x64, .f32⟩ : BufTy).Contents (Elt F)),
    reshape main_v20 main_v21 rfl shapeCasts_S500000x1x64_S500000x64,
    binary main_v19 main_v21 main_v22 (minimumf : (⟨S500000x64, .f32⟩ : BufTy).Contents (Elt F) → (⟨S500000x64, .f32⟩ : BufTy).Contents (Elt F) → (⟨S500000x64, .f32⟩ : BufTy).Contents (Elt F)),
    unary main_v7 main_v23 ((extractStridedSlice S500000x1x64 ![0, 2, 0] · slices_S500000x4x64_S500000x1x64_0_2_0) : (⟨S500000x4x64, .f32⟩ : BufTy).Contents (Elt F) → (⟨S500000x1x64, .f32⟩ : BufTy).Contents (Elt F)),
    reshape main_v23 main_v24 rfl shapeCasts_S500000x1x64_S500000x64,
    unary main_v7 main_v25 ((extractStridedSlice S500000x1x64 ![0, 3, 0] · slices_S500000x4x64_S500000x1x64_0_3_0) : (⟨S500000x4x64, .f32⟩ : BufTy).Contents (Elt F) → (⟨S500000x1x64, .f32⟩ : BufTy).Contents (Elt F)),
    reshape main_v25 main_v26 rfl shapeCasts_S500000x1x64_S500000x64,
    binary main_v24 main_v26 main_v27 (maximumf : (⟨S500000x64, .f32⟩ : BufTy).Contents (Elt F) → (⟨S500000x64, .f32⟩ : BufTy).Contents (Elt F) → (⟨S500000x64, .f32⟩ : BufTy).Contents (Elt F)),
    nary ![main_arg0, main_v12, main_v17, main_v22, main_v27] main_v28 (fun u => concatenate S500000x320 1 [⟨S500000x64, u 0⟩, ⟨S500000x64, u 1⟩, ⟨S500000x64, u 2⟩, ⟨S500000x64, u 3⟩, ⟨S500000x64, u 4⟩] concatenates_S500000x64_S500000x64_S500000x64_S500000x64_S500000x64_S500000x320_d1),
    unary main_arg2 main_v29 ((transpose S320x128 [1, 0] · transposes_S128x320_S320x128_1_0) : (⟨S128x320, .f32⟩ : BufTy).Contents (Elt F) → (⟨S320x128, .f32⟩ : BufTy).Contents (Elt F)),
    binary main_v28 main_v29 main_v30 ((fun l r => Host.dotGeneral dot_S500000x320_S320x128_S500000x128_1_0_0_1_n_n none l r) : (⟨S500000x320, .f32⟩ : BufTy).Contents (Elt F) → (⟨S320x128, .f32⟩ : BufTy).Contents (Elt F) → (⟨S500000x128, .f32⟩ : BufTy).Contents (Elt F)) ]

/-- The third stretch: the column means and variances of the product, the normalisation, scale and shift, and the
    final maximum with zero — 31 operations, through `main_v55`. -/
abbrev opsC : List (HloOp τ sig (Elt F)) :=
  [ nullary main_cst (constant S_ .f32 0x00000000#32),
    binary main_v30 main_cst main_v31 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    nullary main_cst_3 (constant S_ .f32 0x48F42400#32),
    unary main_cst_3 main_v32 (broadcastInDim S128 ![] bcast_S_S128 : (⟨S_, .f32⟩ : BufTy).Contents (Elt F) → (⟨S128, .f32⟩ : BufTy).Contents (Elt F)),
    binary main_v31 main_v32 main_v33 (Host.divf : (⟨S128, .f32⟩ : BufTy).Contents (Elt F) → (⟨S128, .f32⟩ : BufTy).Contents (Elt F) → (⟨S128, .f32⟩ : BufTy).Contents (Elt F)),
    unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S500000x128 ![0, 1] bcast_S1x128_S500000x128_0_1 : (⟨S1x128, .f32⟩ : BufTy).Contents (Elt F) → (⟨S500000x128, .f32⟩ : BufTy).Contents (Elt F)),
    binary main_v30 main_v35 main_v36 (subf : (⟨S500000x128, .f32⟩ : BufTy).Contents (Elt F) → (⟨S500000x128, .f32⟩ : BufTy).Contents (Elt F) → (⟨S500000x128, .f32⟩ : BufTy).Contents (Elt F)),
    binary main_v36 main_v36 main_v37 (mulf : (⟨S500000x128, .f32⟩ : BufTy).Contents (Elt F) → (⟨S500000x128, .f32⟩ : BufTy).Contents (Elt F) → (⟨S500000x128, .f32⟩ : BufTy).Contents (Elt F)),
    nullary main_cst_4 (constant S_ .f32 0x00000000#32),
    binary main_v37 main_cst_4 main_v38 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    nullary main_cst_5 (constant S_ .f32 0x48F42400#32),
    unary main_cst_5 main_v39 (broadcastInDim S128 ![] bcast_S_S128 : (⟨S_, .f32⟩ : BufTy).Contents (Elt F) → (⟨S128, .f32⟩ : BufTy).Contents (Elt F)),
    binary main_v38 main_v39 main_v40 (Host.divf : (⟨S128, .f32⟩ : BufTy).Contents (Elt F) → (⟨S128, .f32⟩ : BufTy).Contents (Elt F) → (⟨S128, .f32⟩ : BufTy).Contents (Elt F)),
    unary main_v33 main_v41 (broadcastInDim S1x128 ![1] bcast_S128_S1x128_1 : (⟨S128, .f32⟩ : BufTy).Contents (Elt F) → (⟨S1x128, .f32⟩ : BufTy).Contents (Elt F)),
    unary main_v41 main_v42 (broadcastInDim S500000x128 ![0, 1] bcast_S1x128_S500000x128_0_1 : (⟨S1x128, .f32⟩ : BufTy).Contents (Elt F) → (⟨S500000x128, .f32⟩ : BufTy).Contents (Elt F)),
    binary main_v30 main_v42 main_v43 (subf : (⟨S500000x128, .f32⟩ : BufTy).Contents (Elt F) → (⟨S500000x128, .f32⟩ : BufTy).Contents (Elt F) → (⟨S500000x128, .f32⟩ : BufTy).Contents (Elt F)),
    nullary main_cst_6 (constant S_ .f32 0x3727C5AC#32),
    unary main_cst_6 main_v44 (broadcastInDim S128 ![] bcast_S_S128 : (⟨S_, .f32⟩ : BufTy).Contents (Elt F) → (⟨S128, .f32⟩ : BufTy).Contents (Elt F)),
    binary main_v40 main_v44 main_v45 (addf : (⟨S128, .f32⟩ : BufTy).Contents (Elt F) → (⟨S128, .f32⟩ : BufTy).Contents (Elt F) → (⟨S128, .f32⟩ : BufTy).Contents (Elt F)),
    unary main_v45 main_v46 (Host.sqrt : (⟨S128, .f32⟩ : BufTy).Contents (Elt F) → (⟨S128, .f32⟩ : BufTy).Contents (Elt F)),
    binary main_arg3 main_v46 main_v47 (Host.divf : (⟨S128, .f32⟩ : BufTy).Contents (Elt F) → (⟨S128, .f32⟩ : BufTy).Contents (Elt F) → (⟨S128, .f32⟩ : BufTy).Contents (Elt F)),
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S500000x128 ![0, 1] bcast_S1x128_S500000x128_0_1 : (⟨S1x128, .f32⟩ : BufTy).Contents (Elt F) → (⟨S500000x128, .f32⟩ : BufTy).Contents (Elt F)),
    binary main_v43 main_v49 main_v50 (mulf : (⟨S500000x128, .f32⟩ : BufTy).Contents (Elt F) → (⟨S500000x128, .f32⟩ : BufTy).Contents (Elt F) → (⟨S500000x128, .f32⟩ : BufTy).Contents (Elt F)),
    unary main_arg4 main_v51 (broadcastInDim S1x128 ![1] bcast_S128_S1x128_1 : (⟨S128, .f32⟩ : BufTy).Contents (Elt F) → (⟨S1x128, .f32⟩ : BufTy).Contents (Elt F)),
    unary main_v51 main_v52 (broadcastInDim S500000x128 ![0, 1] bcast_S1x128_S500000x128_0_1 : (⟨S1x128, .f32⟩ : BufTy).Contents (Elt F) → (⟨S500000x128, .f32⟩ : BufTy).Contents (Elt F)),
    binary main_v50 main_v52 main_v53 (addf : (⟨S500000x128, .f32⟩ : BufTy).Contents (Elt F) → (⟨S500000x128, .f32⟩ : BufTy).Contents (Elt F) → (⟨S500000x128, .f32⟩ : BufTy).Contents (Elt F)),
    nullary main_cst_7 (constant S_ .f32 0x00000000#32),
    unary main_cst_7 main_v54 (broadcastInDim S500000x128 ![] bcast_S_S500000x128 : (⟨S_, .f32⟩ : BufTy).Contents (Elt F) → (⟨S500000x128, .f32⟩ : BufTy).Contents (Elt F)),
    binary main_v53 main_v54 main_v55 (maximumf : (⟨S500000x128, .f32⟩ : BufTy).Contents (Elt F) → (⟨S500000x128, .f32⟩ : BufTy).Contents (Elt F) → (⟨S500000x128, .f32⟩ : BufTy).Contents (Elt F)) ]

/-- @main's 71 operations, in order (the outlined clamp's six stand in its call's place, spelt over typed references). -/
abbrev ops : List (HloOp τ sig (Elt F)) :=
  [ nullary main_c (constantI S_ 32 0#32),
    nullary main_c_0 (constantI S_ 32 499999#32),
    TRef.unary (TRef.of (T := ⟨S_, .i32⟩) main_c) (TRef.of (T := ⟨S_, .i32⟩) main_call0_v0) id,
    TRef.unary (TRef.of (T := ⟨S_, .i32⟩) main_call0_v0) (TRef.of (T := ⟨S500000x4, .i32⟩) main_call0_v1) (broadcastInDim S500000x4 ![] bcast_S_S500000x4),
    TRef.binary (TRef.of (T := ⟨S500000x4, .i32⟩) main_call0_v1) (TRef.of (T := ⟨S500000x4, .i32⟩) main_arg1) (TRef.of (T := ⟨S500000x4, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S500000x4, .i32⟩) main_call0_v4) (broadcastInDim S500000x4 ![] bcast_S_S500000x4),
    TRef.binary (TRef.of (T := ⟨S500000x4, .i32⟩) main_call0_v4) (TRef.of (T := ⟨S500000x4, .i32⟩) main_call0_v2) (TRef.of (T := ⟨S500000x4, .i32⟩) main_v0) minsi,
    nullary main_c_1 (constantI S_ 32 0#32),
    unary main_c_1 main_v1 (broadcastInDim S500000x4 ![] bcast_S_S500000x4 : (⟨S_, .i32⟩ : BufTy).Contents (Elt F) → (⟨S500000x4, .i32⟩ : BufTy).Contents (Elt F)),
    binary main_v0 main_v1 main_v2 (cmpi .slt : (⟨S500000x4, .i32⟩ : BufTy).Contents (Elt F) → (⟨S500000x4, .i32⟩ : BufTy).Contents (Elt F) → (⟨S500000x4, .i1⟩ : BufTy).Contents (Elt F)),
    nullary main_c_2 (constantI S_ 32 500000#32),
    unary main_c_2 main_v3 (broadcastInDim S500000x4 ![] bcast_S_S500000x4 : (⟨S_, .i32⟩ : BufTy).Contents (Elt F) → (⟨S500000x4, .i32⟩ : BufTy).Contents (Elt F)),
    binary main_v0 main_v3 main_v4 (addi : (⟨S500000x4, .i32⟩ : BufTy).Contents (Elt F) → (⟨S500000x4, .i32⟩ : BufTy).Contents (Elt F) → (⟨S500000x4, .i32⟩ : BufTy).Contents (Elt F)),
    ternary main_v2 main_v4 main_v0 main_v5 (select : (⟨S500000x4, .i1⟩ : BufTy).Contents (Elt F) → (⟨S500000x4, .i32⟩ : BufTy).Contents (Elt F) → (⟨S500000x4, .i32⟩ : BufTy).Contents (Elt F) → (⟨S500000x4, .i32⟩ : BufTy).Contents (Elt F)),
    unary main_v5 main_v6 (broadcastInDim S500000x4x1 ![0, 1] bcast_S500000x4_S500000x4x1_0_1 : (⟨S500000x4, .i32⟩ : BufTy).Contents (Elt F) → (⟨S500000x4x1, .i32⟩ : BufTy).Contents (Elt F)),
    binary main_arg0 main_v6 main_v7 ((fun x i => Host.gather gather_S500000x64_S500000x4x1_S500000x4x64_2_0_n_n_0_2_164 x i) : (⟨S500000x64, .f32⟩ : BufTy).Contents (Elt F) → (⟨S500000x4x1, .i32⟩ : BufTy).Contents (Elt F) → (⟨S500000x4x64, .f32⟩ : BufTy).Contents (Elt F)),
    unary main_v7 main_v8 ((extractStridedSlice S500000x1x64 ![0, 0, 0] · slices_S500000x4x64_S500000x1x64_0_0_0) : (⟨S500000x4x64, .f32⟩ : BufTy).Contents (Elt F) → (⟨S500000x1x64, .f32⟩ : BufTy).Contents (Elt F)),
    reshape main_v8 main_v9 rfl shapeCasts_S500000x1x64_S500000x64,
    unary main_v7 main_v10 ((extractStridedSlice S500000x1x64 ![0, 1, 0] · slices_S500000x4x64_S500000x1x64_0_1_0) : (⟨S500000x4x64, .f32⟩ : BufTy).Contents (Elt F) → (⟨S500000x1x64, .f32⟩ : BufTy).Contents (Elt F)),
    reshape main_v10 main_v11 rfl shapeCasts_S500000x1x64_S500000x64,
    binary main_v9 main_v11 main_v12 (minimumf : (⟨S500000x64, .f32⟩ : BufTy).Contents (Elt F) → (⟨S500000x64, .f32⟩ : BufTy).Contents (Elt F) → (⟨S500000x64, .f32⟩ : BufTy).Contents (Elt F)),
    unary main_v7 main_v13 ((extractStridedSlice S500000x1x64 ![0, 0, 0] · slices_S500000x4x64_S500000x1x64_0_0_0) : (⟨S500000x4x64, .f32⟩ : BufTy).Contents (Elt F) → (⟨S500000x1x64, .f32⟩ : BufTy).Contents (Elt F)),
    reshape main_v13 main_v14 rfl shapeCasts_S500000x1x64_S500000x64,
    unary main_v7 main_v15 ((extractStridedSlice S500000x1x64 ![0, 1, 0] · slices_S500000x4x64_S500000x1x64_0_1_0) : (⟨S500000x4x64, .f32⟩ : BufTy).Contents (Elt F) → (⟨S500000x1x64, .f32⟩ : BufTy).Contents (Elt F)),
    reshape main_v15 main_v16 rfl shapeCasts_S500000x1x64_S500000x64,
    binary main_v14 main_v16 main_v17 (maximumf : (⟨S500000x64, .f32⟩ : BufTy).Contents (Elt F) → (⟨S500000x64, .f32⟩ : BufTy).Contents (Elt F) → (⟨S500000x64, .f32⟩ : BufTy).Contents (Elt F)),
    unary main_v7 main_v18 ((extractStridedSlice S500000x1x64 ![0, 2, 0] · slices_S500000x4x64_S500000x1x64_0_2_0) : (⟨S500000x4x64, .f32⟩ : BufTy).Contents (Elt F) → (⟨S500000x1x64, .f32⟩ : BufTy).Contents (Elt F)),
    reshape main_v18 main_v19 rfl shapeCasts_S500000x1x64_S500000x64,
    unary main_v7 main_v20 ((extractStridedSlice S500000x1x64 ![0, 3, 0] · slices_S500000x4x64_S500000x1x64_0_3_0) : (⟨S500000x4x64, .f32⟩ : BufTy).Contents (Elt F) → (⟨S500000x1x64, .f32⟩ : BufTy).Contents (Elt F)),
    reshape main_v20 main_v21 rfl shapeCasts_S500000x1x64_S500000x64,
    binary main_v19 main_v21 main_v22 (minimumf : (⟨S500000x64, .f32⟩ : BufTy).Contents (Elt F) → (⟨S500000x64, .f32⟩ : BufTy).Contents (Elt F) → (⟨S500000x64, .f32⟩ : BufTy).Contents (Elt F)),
    unary main_v7 main_v23 ((extractStridedSlice S500000x1x64 ![0, 2, 0] · slices_S500000x4x64_S500000x1x64_0_2_0) : (⟨S500000x4x64, .f32⟩ : BufTy).Contents (Elt F) → (⟨S500000x1x64, .f32⟩ : BufTy).Contents (Elt F)),
    reshape main_v23 main_v24 rfl shapeCasts_S500000x1x64_S500000x64,
    unary main_v7 main_v25 ((extractStridedSlice S500000x1x64 ![0, 3, 0] · slices_S500000x4x64_S500000x1x64_0_3_0) : (⟨S500000x4x64, .f32⟩ : BufTy).Contents (Elt F) → (⟨S500000x1x64, .f32⟩ : BufTy).Contents (Elt F)),
    reshape main_v25 main_v26 rfl shapeCasts_S500000x1x64_S500000x64,
    binary main_v24 main_v26 main_v27 (maximumf : (⟨S500000x64, .f32⟩ : BufTy).Contents (Elt F) → (⟨S500000x64, .f32⟩ : BufTy).Contents (Elt F) → (⟨S500000x64, .f32⟩ : BufTy).Contents (Elt F)),
    nary ![main_arg0, main_v12, main_v17, main_v22, main_v27] main_v28 (fun u => concatenate S500000x320 1 [⟨S500000x64, u 0⟩, ⟨S500000x64, u 1⟩, ⟨S500000x64, u 2⟩, ⟨S500000x64, u 3⟩, ⟨S500000x64, u 4⟩] concatenates_S500000x64_S500000x64_S500000x64_S500000x64_S500000x64_S500000x320_d1),
    unary main_arg2 main_v29 ((transpose S320x128 [1, 0] · transposes_S128x320_S320x128_1_0) : (⟨S128x320, .f32⟩ : BufTy).Contents (Elt F) → (⟨S320x128, .f32⟩ : BufTy).Contents (Elt F)),
    binary main_v28 main_v29 main_v30 ((fun l r => Host.dotGeneral dot_S500000x320_S320x128_S500000x128_1_0_0_1_n_n none l r) : (⟨S500000x320, .f32⟩ : BufTy).Contents (Elt F) → (⟨S320x128, .f32⟩ : BufTy).Contents (Elt F) → (⟨S500000x128, .f32⟩ : BufTy).Contents (Elt F)),
    nullary main_cst (constant S_ .f32 0x00000000#32),
    binary main_v30 main_cst main_v31 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    nullary main_cst_3 (constant S_ .f32 0x48F42400#32),
    unary main_cst_3 main_v32 (broadcastInDim S128 ![] bcast_S_S128 : (⟨S_, .f32⟩ : BufTy).Contents (Elt F) → (⟨S128, .f32⟩ : BufTy).Contents (Elt F)),
    binary main_v31 main_v32 main_v33 (Host.divf : (⟨S128, .f32⟩ : BufTy).Contents (Elt F) → (⟨S128, .f32⟩ : BufTy).Contents (Elt F) → (⟨S128, .f32⟩ : BufTy).Contents (Elt F)),
    unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S500000x128 ![0, 1] bcast_S1x128_S500000x128_0_1 : (⟨S1x128, .f32⟩ : BufTy).Contents (Elt F) → (⟨S500000x128, .f32⟩ : BufTy).Contents (Elt F)),
    binary main_v30 main_v35 main_v36 (subf : (⟨S500000x128, .f32⟩ : BufTy).Contents (Elt F) → (⟨S500000x128, .f32⟩ : BufTy).Contents (Elt F) → (⟨S500000x128, .f32⟩ : BufTy).Contents (Elt F)),
    binary main_v36 main_v36 main_v37 (mulf : (⟨S500000x128, .f32⟩ : BufTy).Contents (Elt F) → (⟨S500000x128, .f32⟩ : BufTy).Contents (Elt F) → (⟨S500000x128, .f32⟩ : BufTy).Contents (Elt F)),
    nullary main_cst_4 (constant S_ .f32 0x00000000#32),
    binary main_v37 main_cst_4 main_v38 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    nullary main_cst_5 (constant S_ .f32 0x48F42400#32),
    unary main_cst_5 main_v39 (broadcastInDim S128 ![] bcast_S_S128 : (⟨S_, .f32⟩ : BufTy).Contents (Elt F) → (⟨S128, .f32⟩ : BufTy).Contents (Elt F)),
    binary main_v38 main_v39 main_v40 (Host.divf : (⟨S128, .f32⟩ : BufTy).Contents (Elt F) → (⟨S128, .f32⟩ : BufTy).Contents (Elt F) → (⟨S128, .f32⟩ : BufTy).Contents (Elt F)),
    unary main_v33 main_v41 (broadcastInDim S1x128 ![1] bcast_S128_S1x128_1 : (⟨S128, .f32⟩ : BufTy).Contents (Elt F) → (⟨S1x128, .f32⟩ : BufTy).Contents (Elt F)),
    unary main_v41 main_v42 (broadcastInDim S500000x128 ![0, 1] bcast_S1x128_S500000x128_0_1 : (⟨S1x128, .f32⟩ : BufTy).Contents (Elt F) → (⟨S500000x128, .f32⟩ : BufTy).Contents (Elt F)),
    binary main_v30 main_v42 main_v43 (subf : (⟨S500000x128, .f32⟩ : BufTy).Contents (Elt F) → (⟨S500000x128, .f32⟩ : BufTy).Contents (Elt F) → (⟨S500000x128, .f32⟩ : BufTy).Contents (Elt F)),
    nullary main_cst_6 (constant S_ .f32 0x3727C5AC#32),
    unary main_cst_6 main_v44 (broadcastInDim S128 ![] bcast_S_S128 : (⟨S_, .f32⟩ : BufTy).Contents (Elt F) → (⟨S128, .f32⟩ : BufTy).Contents (Elt F)),
    binary main_v40 main_v44 main_v45 (addf : (⟨S128, .f32⟩ : BufTy).Contents (Elt F) → (⟨S128, .f32⟩ : BufTy).Contents (Elt F) → (⟨S128, .f32⟩ : BufTy).Contents (Elt F)),
    unary main_v45 main_v46 (Host.sqrt : (⟨S128, .f32⟩ : BufTy).Contents (Elt F) → (⟨S128, .f32⟩ : BufTy).Contents (Elt F)),
    binary main_arg3 main_v46 main_v47 (Host.divf : (⟨S128, .f32⟩ : BufTy).Contents (Elt F) → (⟨S128, .f32⟩ : BufTy).Contents (Elt F) → (⟨S128, .f32⟩ : BufTy).Contents (Elt F)),
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S500000x128 ![0, 1] bcast_S1x128_S500000x128_0_1 : (⟨S1x128, .f32⟩ : BufTy).Contents (Elt F) → (⟨S500000x128, .f32⟩ : BufTy).Contents (Elt F)),
    binary main_v43 main_v49 main_v50 (mulf : (⟨S500000x128, .f32⟩ : BufTy).Contents (Elt F) → (⟨S500000x128, .f32⟩ : BufTy).Contents (Elt F) → (⟨S500000x128, .f32⟩ : BufTy).Contents (Elt F)),
    unary main_arg4 main_v51 (broadcastInDim S1x128 ![1] bcast_S128_S1x128_1 : (⟨S128, .f32⟩ : BufTy).Contents (Elt F) → (⟨S1x128, .f32⟩ : BufTy).Contents (Elt F)),
    unary main_v51 main_v52 (broadcastInDim S500000x128 ![0, 1] bcast_S1x128_S500000x128_0_1 : (⟨S1x128, .f32⟩ : BufTy).Contents (Elt F) → (⟨S500000x128, .f32⟩ : BufTy).Contents (Elt F)),
    binary main_v50 main_v52 main_v53 (addf : (⟨S500000x128, .f32⟩ : BufTy).Contents (Elt F) → (⟨S500000x128, .f32⟩ : BufTy).Contents (Elt F) → (⟨S500000x128, .f32⟩ : BufTy).Contents (Elt F)),
    nullary main_cst_7 (constant S_ .f32 0x00000000#32),
    unary main_cst_7 main_v54 (broadcastInDim S500000x128 ![] bcast_S_S500000x128 : (⟨S_, .f32⟩ : BufTy).Contents (Elt F) → (⟨S500000x128, .f32⟩ : BufTy).Contents (Elt F)),
    binary main_v53 main_v54 main_v55 (maximumf : (⟨S500000x128, .f32⟩ : BufTy).Contents (Elt F) → (⟨S500000x128, .f32⟩ : BufTy).Contents (Elt F) → (⟨S500000x128, .f32⟩ : BufTy).Contents (Elt F)) ]

/-- The whole list is the three stretches in order. -/
theorem ops_split : (ops : List (HloOp τ sig (Elt F))) = opsA ++ (opsB ++ opsC) := rfl

/-! ## @main is that list; the signature scopes nothing; every operation touches the core's buffers only -/

set_option maxRecDepth 8192 in
set_option maxHeartbeats 1000000 in
/-- @main, printed in two parts with the outlined clamp called inside the first, is the sequence of the 71 operations:
    both sides unfold to one chain of host-operation steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., nary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Every weakly fair execution of @main terminates, and every final state has each buffer of the core at the fold of
    the 71 operations' results over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## The fold over an append -/

/-- The contents after two lists in a row are the contents after the second, from the contents after the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What each stretch writes, and so what it keeps -/

/-- The buffers the first stretch writes. -/
abbrev opsA_W : List (Ref sig .tc) := [main_c, main_c_0, main_call0_v0, main_call0_v1, main_call0_v2, main_call0_v3, main_call0_v4, main_v0, main_c_1, main_v1, main_v2, main_c_2, main_v3, main_v4, main_v5, main_v6, main_v7]
theorem opsA_writes : (opsA : List (HloOp τ sig (Elt F))).Forall fun op => op.writes ⊆ (opsA_W.map (Proc.devRef (τ := τ) .tc)).toFinset := by
  simp only [List.Forall]
  and_intros <;>
    (simp only [nullary_writes, unary_writes, binary_writes, ternary_writes, quaternary_writes, reshape_writes,
        binaryIndexed_writes, unaryIndexed_writes, nary_writes, Finset.singleton_subset_iff, List.mem_toFinset]
     exact List.mem_map_of_mem (by decide))
/-- The buffers the second stretch writes. -/
abbrev opsB_W : List (Ref sig .tc) := [main_v8, main_v9, main_v10, main_v11, main_v12, main_v13, main_v14, main_v15, main_v16, main_v17, main_v18, main_v19, main_v20, main_v21, main_v22, main_v23, main_v24, main_v25, main_v26, main_v27, main_v28, main_v29, main_v30]
theorem opsB_writes : (opsB : List (HloOp τ sig (Elt F))).Forall fun op => op.writes ⊆ (opsB_W.map (Proc.devRef (τ := τ) .tc)).toFinset := by
  simp only [List.Forall]
  and_intros <;>
    (simp only [nullary_writes, unary_writes, binary_writes, ternary_writes, quaternary_writes, reshape_writes,
        binaryIndexed_writes, unaryIndexed_writes, nary_writes, Finset.singleton_subset_iff, List.mem_toFinset]
     exact List.mem_map_of_mem (by decide))
/-- The buffers the third stretch writes. -/
abbrev opsC_W : List (Ref sig .tc) := [main_cst, main_v31, main_cst_3, main_v32, main_v33, main_v34, main_v35, main_v36, main_v37, main_cst_4, main_v38, main_cst_5, main_v39, main_v40, main_v41, main_v42, main_v43, main_cst_6, main_v44, main_v45, main_v46, main_v47, main_v48, main_v49, main_v50, main_v51, main_v52, main_v53, main_cst_7, main_v54, main_v55]
theorem opsC_writes : (opsC : List (HloOp τ sig (Elt F))).Forall fun op => op.writes ⊆ (opsC_W.map (Proc.devRef (τ := τ) .tc)).toFinset := by
  simp only [List.Forall]
  and_intros <;>
    (simp only [nullary_writes, unary_writes, binary_writes, ternary_writes, quaternary_writes, reshape_writes,
        binaryIndexed_writes, unaryIndexed_writes, nary_writes, Finset.singleton_subset_iff, List.mem_toFinset]
     exact List.mem_map_of_mem (by decide))

/-- A buffer a stretch does not write keeps its contents across it. -/
theorem keptA (V : Valuation τ sig (Elt F)) (r : Ref sig .tc) (h : r ∉ opsA_W) :
    after opsA V (Proc.devRef .tc r) = V (Proc.devRef .tc r) := after_of_writes_sub opsA V opsA_writes h
theorem keptB (V : Valuation τ sig (Elt F)) (r : Ref sig .tc) (h : r ∉ opsB_W) :
    after opsB V (Proc.devRef .tc r) = V (Proc.devRef .tc r) := after_of_writes_sub opsB V opsB_writes h
theorem keptC (V : Valuation τ sig (Elt F)) (r : Ref sig .tc) (h : r ∉ opsC_W) :
    after opsC V (Proc.devRef .tc r) = V (Proc.devRef .tc r) := after_of_writes_sub opsC V opsC_writes h

/-! ## The three stretches, each read at the one buffer the next needs -/

set_option maxHeartbeats 1000000 in
/-- After the first stretch the gather's buffer holds the reference's gathered rows, a function of the first two
    arguments: the 17 operations' results one at a time, then both sides are the same composition. -/
theorem stretchA (V : Valuation τ sig (Elt F)) :
    after opsA V (Proc.devRef .tc main_v7)
      = ReadH.val_main_v7 (F := F) (V (Proc.devRef .tc main_arg0)) (V (Proc.devRef .tc main_arg1)) := by
  unfold opsA
  after_results5
  unfold ReadH.val_main_v7 ReadH.val_main_v6 ReadH.val_main_v5 ReadH.val_main_v4 ReadH.val_main_v3 ReadH.val_main_c_2 ReadH.val_main_v2 ReadH.val_main_v1 ReadH.val_main_c_1 ReadH.val_main_v0 ReadH.val_main_call0_v4 ReadH.val_main_call0_v3 ReadH.val_main_call0_v2 ReadH.val_main_call0_v1 ReadH.val_main_call0_v0 ReadH.val_main_c_0 ReadH.val_main_c
  rfl

set_option maxHeartbeats 2000000 in
/-- Across the second stretch, from any contents `W` holding the first and third arguments and the gathered rows: the
    product's buffer holds the reference's product. The gathered rows stay a name throughout. -/
theorem stretchB (W : Valuation τ sig (Elt F))
    (x0 : (⟨S500000x64, .f32⟩ : BufTy).Contents (Elt F)) (x1 : (⟨S500000x4, .i32⟩ : BufTy).Contents (Elt F))
    (x2 : (⟨S128x320, .f32⟩ : BufTy).Contents (Elt F))
    (h0 : W (Proc.devRef .tc main_arg0) = x0) (h2 : W (Proc.devRef .tc main_arg2) = x2)
    (h7 : W (Proc.devRef .tc main_v7) = ReadH.val_main_v7 (F := F) x0 x1) :
    after opsB W (Proc.devRef .tc main_v30) = ReadH.val_main_v30 (F := F) x0 x1 x2 := by
  unfold opsB
  after_results5
  rw [h0, h2, h7]
  unfold ReadH.val_main_v30 ReadH.val_main_v29 ReadH.val_main_v28 ReadH.val_main_v27 ReadH.val_main_v26 ReadH.val_main_v25 ReadH.val_main_v24 ReadH.val_main_v23 ReadH.val_main_v22 ReadH.val_main_v21 ReadH.val_main_v20 ReadH.val_main_v19 ReadH.val_main_v18 ReadH.val_main_v17 ReadH.val_main_v16 ReadH.val_main_v15 ReadH.val_main_v14 ReadH.val_main_v13 ReadH.val_main_v12 ReadH.val_main_v11 ReadH.val_main_v10 ReadH.val_main_v9 ReadH.val_main_v8
  generalize ReadH.val_main_v7 (F := F) x0 x1 = g
  rfl

set_option maxHeartbeats 2000000 in
/-- Across the third stretch, from any contents `W` holding the last two arguments and the product: the result's
    buffer holds the reference's result. The product stays a name throughout. -/
theorem stretchC (W : Valuation τ sig (Elt F))
    (x0 : (⟨S500000x64, .f32⟩ : BufTy).Contents (Elt F)) (x1 : (⟨S500000x4, .i32⟩ : BufTy).Contents (Elt F))
    (x2 : (⟨S128x320, .f32⟩ : BufTy).Contents (Elt F)) (x3 x4 : (⟨S128, .f32⟩ : BufTy).Contents (Elt F))
    (h3 : W (Proc.devRef .tc main_arg3) = x3) (h4 : W (Proc.devRef .tc main_arg4) = x4)
    (h30 : W (Proc.devRef .tc main_v30) = ReadH.val_main_v30 (F := F) x0 x1 x2) :
    after opsC W (Proc.devRef .tc main_v55) = ReadH.val_main_v55 (F := F) x0 x1 x2 x3 x4 := by
  unfold opsC
  after_results5
  rw [h3, h4, h30]
  unfold ReadH.val_main_v55 ReadH.val_main_v54 ReadH.val_main_cst_7 ReadH.val_main_v53 ReadH.val_main_v52 ReadH.val_main_v51 ReadH.val_main_v50 ReadH.val_main_v49 ReadH.val_main_v48 ReadH.val_main_v47 ReadH.val_main_v46 ReadH.val_main_v45 ReadH.val_main_v44 ReadH.val_main_cst_6 ReadH.val_main_v43 ReadH.val_main_v42 ReadH.val_main_v41 ReadH.val_main_v40 ReadH.val_main_v39 ReadH.val_main_cst_5 ReadH.val_main_v38 ReadH.val_main_cst_4 ReadH.val_main_v37 ReadH.val_main_v36 ReadH.val_main_v35 ReadH.val_main_v34 ReadH.val_main_v33 ReadH.val_main_v32 ReadH.val_main_cst_3 ReadH.val_main_v31 ReadH.val_main_cst
  generalize ReadH.val_main_v30 (F := F) x0 x1 x2 = y
  rfl

/-! ## The whole fold, and the run -/

/-- After all 71 operations the result's buffer holds the reference's result, a function of the five arguments' contents:
    the three stretches in a row, each entered from what the one before leaves (the gathered rows, then the product). -/
theorem fold_v55 (V : Valuation τ sig (Elt F)) :
    after ops V (Proc.devRef .tc main_v55)
      = ReadH.val_main_v55 (F := F) (V (Proc.devRef .tc main_arg0)) (V (Proc.devRef .tc main_arg1)) (V (Proc.devRef .tc main_arg2))
          (V (Proc.devRef .tc main_arg3)) (V (Proc.devRef .tc main_arg4)) := by
  rw [ops_split, after_app, after_app]
  exact stretchC (after opsB (after opsA V)) _ _ _ _ _
    ((keptB _ main_arg3 (by decide)).trans (keptA V main_arg3 (by decide)))
    ((keptB _ main_arg4 (by decide)).trans (keptA V main_arg4 (by decide)))
    (stretchB (after opsA V) _ _ _ (keptA V main_arg0 (by decide)) (keptA V main_arg2 (by decide)) (stretchA V))

/-- A buffer none of the three stretches writes — each argument — holds at the end what it held at the start. -/
theorem fold_kept (V : Valuation τ sig (Elt F)) (r : Ref sig .tc) (hA : r ∉ opsA_W) (hB : r ∉ opsB_W) (hC : r ∉ opsC_W) :
    after ops V (Proc.devRef .tc r) = V (Proc.devRef .tc r) := by
  rw [ops_split, after_app, after_app]
  exact (keptC _ r hC).trans ((keptB _ r hB).trans (keptA V r hA))

/-- On every device, for any float values, from any memory with zero counters: every weakly fair execution of @main
    terminates with the result buffer at the reference's value of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = ReadH.val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v55).trans (fold_v55 (launchContents m c)),
     (h c main_arg0).trans (fold_kept (launchContents m c) main_arg0 (by decide) (by decide) (by decide)),
     (h c main_arg1).trans (fold_kept (launchContents m c) main_arg1 (by decide) (by decide) (by decide)),
     (h c main_arg2).trans (fold_kept (launchContents m c) main_arg2 (by decide) (by decide) (by decide)),
     (h c main_arg3).trans (fold_kept (launchContents m c) main_arg3 (by decide) (by decide) (by decide)),
     (h c main_arg4).trans (fold_kept (launchContents m c) main_arg4 (by decide) (by decide) (by decide))⟩)
    (run_fold m ρ)

end Cert.ReferenceIdeal.RunH

end
-- ==== Proof.RefFrame.lean ====
/-
  The reference program runs to completion and leaves its argument arrays as they were: its run, read stretch by
  stretch over its straight-line list of host operations, says so, together with what the result holds; the frame claim
  keeps the part about the arguments.
-/
import proofs.«115342_j8323646619907_2_alg».proof.Proof.Gen.ReferenceIdeal
import proofs.«115342_j8323646619907_2_alg».proof.Proof.RefRunH
import proofs.«115342_j8323646619907_2_alg».proof.Proof.Gen.Pre_finite_inputs
import proofs.«115342_j8323646619907_2_alg».proof.Defs

noncomputable section

namespace Cert.ReferenceIdeal.RefValue

open Idealize.ShloMosaic Idealize.ShloMosaic.TcCoe Idealize.SL.Sem

/-- The reference terminates without fault and its five argument arrays end unchanged. -/
theorem frame : Cert.frame_ReferenceIdeal := fun m ρ _ =>
  (θ_run Cert.ReferenceIdeal.defs _ _).mono (fun _ h c => (h c).2) (Cert.ReferenceIdeal.RunH.run (F := Ideal) m ρ)

end Cert.ReferenceIdeal.RefValue

end
-- ==== Proof.lean ====
/-
  The claim. Both programs compute, for every edge and channel, the rectified batch-normalised linear layer of the
  edge's features (its own row and the entrywise smaller and larger of each pair of gathered neighbour rows): the
  reference in the centred spelling, the kernel program in the folded one with its sums taken block by block. On finite
  inputs every quantity is a real number — a gathered row is a row of the first argument — and there the two spellings
  are one function (Proof/EdgeNorm.lean). The two kernel programs' frames come from the run of their two regions between
  host stretches; the idealisation rewrote no operation.
-/
import proofs.«115342_j8323646619907_2_alg».proof.Defs
import proofs.«115342_j8323646619907_2_alg».proof.Proof.Gen.Kernel
import proofs.«115342_j8323646619907_2_alg».proof.Proof.Gen.KernelIdeal
import proofs.«115342_j8323646619907_2_alg».proof.Proof.Gen.ReferenceIdeal
import proofs.«115342_j8323646619907_2_alg».proof.Proof.Gen.Pre_finite_inputs
import proofs.«115342_j8323646619907_2_alg».proof.Proof.KRun
import proofs.«115342_j8323646619907_2_alg».proof.Proof.KIRun
import proofs.«115342_j8323646619907_2_alg».proof.Proof.KValue
import proofs.«115342_j8323646619907_2_alg».proof.Proof.KGatherRef
import proofs.«115342_j8323646619907_2_alg».proof.Proof.RefNorm
import proofs.«115342_j8323646619907_2_alg».proof.Proof.RefGather
import proofs.«115342_j8323646619907_2_alg».proof.Proof.RefPre
import proofs.«115342_j8323646619907_2_alg».proof.Proof.RefFrame
import proofs.«115342_j8323646619907_2_alg».proof.Proof.RefRunH
import proofs.«115342_j8323646619907_2_alg».proof.Proof.EdgeNorm

noncomputable section

namespace Cert.Proof

open Idealize.ShloMosaic Idealize.ShloMosaic.TcCoe Idealize.ShloMosaic.ValueIdx Idealize.SL.Sem
open Cert.LibReal (IsReal)

/-- The common result: the folded spelling of the specification, as an array over the five argument arrays. -/
def spec (x0 : Cert.KernelIdeal.S500000x64.Idx → EReal) (x1 : IVec Cert.KernelIdeal.S500000x4 32)
    (x2 : Cert.KernelIdeal.S128x320.Idx → EReal) (x3 x4 : Cert.KernelIdeal.S128.Idx → EReal) :
    Cert.KernelIdeal.S500000x128.Idx → EReal :=
  fun i => Cert.EdgeNorm.foldOut (fun e j => x0 (ix2 e j))
    (fun e q j => Cert.KernelIdeal.Val.gathered x0 x1 (ix3 e q j))
    (fun o k => x2 (ix2 o k)) (fun o => x3 (ix1 o)) (fun o => x4 (ix1 o))
    ⟨(i 0).val, (i 0).isLt⟩ ⟨(i 1).val, (i 1).isLt⟩

/-- The reference's result is the common one when every float argument is real: its centred spelling over the same
    gathered rows, which the law turns into the folded one. -/
theorem ref_spec (x0 : Cert.KernelIdeal.S500000x64.Idx → EReal) (x1 : IVec Cert.KernelIdeal.S500000x4 32)
    (x2 : Cert.KernelIdeal.S128x320.Idx → EReal) (x3 x4 : Cert.KernelIdeal.S128.Idx → EReal)
    (h0 : ∀ i, IsReal (x0 i)) (h2 : ∀ i, IsReal (x2 i)) (h3 : ∀ i, IsReal (x3 i)) (h4 : ∀ i, IsReal (x4 i)) :
    Cert.ReferenceIdeal.ReadH.val_main_v55 (F := Ideal) x0 x1 x2 x3 x4 = spec x0 x1 x2 x3 x4 := by
  funext i
  rw [eq_ix2 i]
  refine (Cert.ReferenceIdeal.RefValue.result_eq x0 x1 x2 x3 x4 (i 0) (i 1)).trans ?_
  rw [← Cert.KernelIdeal.Val.gathered_eq_ref x0 x1]
  exact (Cert.EdgeNorm.out_law (fun e j => h0 _)
    (fun e q j => by
      obtain ⟨k, hk⟩ := Cert.KernelIdeal.Val.gathered_entry x0 x1 (ix3 e q j)
      rw [hk]; exact h0 k)
    (fun o k => h2 _) (fun o => h3 _) (fun o => h4 _) (i 0) (i 1)).symm

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := Cert.ReferenceIdeal.RefValue.frame

/-- The idealised program is the word-level program's own text read on the extended reals: no operation was rewritten. -/
theorem preserves : Cert.preserves_Kernel_KernelIdeal := trivial

/-- From memories that agree on the arguments, finite ones, both programs end with the common result. -/
theorem algebraic : Cert.algebraic_KernelIdeal_ReferenceIdeal := by
  intro m ρ m' ρ' hpre hagree
  refine ⟨fun c => spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · -- the kernel program: the run of its two regions, the result buffer read off the last boundary
    refine (θ_run Cert.KernelIdeal.defs _ _).mono (fun r h c => ⟨?_,
      (h c _ (Cert.KernelIdeal.Hand.mem_uc Cert.KernelIdeal.main_arg0 (by decide))).trans (Cert.KernelIdeal.Gen.V6_main_arg0 m _ c),
      (h c _ (Cert.KernelIdeal.Hand.mem_uc Cert.KernelIdeal.main_arg1 (by decide))).trans (Cert.KernelIdeal.Gen.V6_main_arg1 m _ c),
      (h c _ (Cert.KernelIdeal.Hand.mem_uc Cert.KernelIdeal.main_arg2 (by decide))).trans (Cert.KernelIdeal.Gen.V6_main_arg2 m _ c),
      (h c _ (Cert.KernelIdeal.Hand.mem_uc Cert.KernelIdeal.main_arg3 (by decide))).trans (Cert.KernelIdeal.Gen.V6_main_arg3 m _ c),
      (h c _ (Cert.KernelIdeal.Hand.mem_uc Cert.KernelIdeal.main_arg4 (by decide))).trans (Cert.KernelIdeal.Gen.V6_main_arg4 m _ c)⟩)
      (Cert.KernelIdeal.Hand.run_all (F := Ideal) m ρ)
    refine (h c _ (Cert.KernelIdeal.Hand.mem_uc Cert.KernelIdeal.main_v46 (by decide))).trans ?_
    funext i
    rw [eq_ix2 i]
    exact Cert.KernelIdeal.Val.kernel_value m c (i 0) (i 1)
  · -- the reference: its run stretch by stretch, its result read entry by entry
    refine (θ_run Cert.ReferenceIdeal.defs _ _).mono (fun r h c => ⟨(h c).1.trans ?_, (h c).2⟩)
      (Cert.ReferenceIdeal.RunH.run (F := Ideal) m' ρ')
    obtain ⟨h0, h2, h3, h4⟩ := Cert.ReferenceIdeal.RefValue.inputs_real _ _ _ _ _ (hpre c)
    rw [(hagree c).1, (hagree c).2.1, (hagree c).2.2.1, (hagree c).2.2.2.1, (hagree c).2.2.2.2]
    exact ref_spec _ _ _ _ _ h0 h2 h3 h4

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
